-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S4096 : Shape := ⟨1, ![4096]⟩
abbrev S14336x4096 : Shape := ⟨2, ![14336, 4096]⟩
abbrev S4096x14336 : Shape := ⟨2, ![4096, 14336]⟩
abbrev S14336 : Shape := ⟨1, ![14336]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S14336 : S_.BroadcastsInDim S14336 (![] : Fin 0 → Fin S14336.rank)
  reducesTo_S14336_S_d0 : S14336.ReducesTo [0] S_

variable [Facts]

def fn_part2 {F : FTy → Type} [FloatOps F] (main_arg10 : FVec F S4096 .f32) (main_arg11 : FVec F S4096 .f32) (main_arg12 : FVec F S14336 .f32) (main_v33 : IVec S_ 1) : IVec S_ 1 :=
  let main_v34 : FVec F S4096 .f32 := Host.absf main_arg10
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg11
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S14336 .f32 := Host.absf main_arg12
  let main_cst_16 : FVec F S_ .f32 := constant S_ .f32 0x7F800000#32
  let main_v45 : FVec F S14336 .f32 := broadcastInDim S14336 ![] bcast_S_S14336 main_cst_16
  let main_v46 : IVec S14336 1 := cmpf .olt main_v44 main_v45
  let main_c_17 : IVec S_ 1 := constantI S_ 1 1#1
  let main_v47 : IVec S_ 1 := (fun x v => Host.reduce IntOp.andi x v reducesTo_S14336_S_d0 h_S_) main_v46 main_c_17
  let main_v48 : IVec S_ 1 := andi main_v43 main_v47
  main_v48

def fn_part1 {F : FTy → Type} [FloatOps F] (main_arg7 : FVec F S14336 .f32) (main_arg8 : FVec F S4096 .f32) (main_arg9 : FVec F S14336 .f32) (main_arg10 : FVec F S4096 .f32) (main_arg11 : FVec F S4096 .f32) (main_arg12 : FVec F S14336 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S14336 .f32 := Host.absf main_arg7
  let main_cst_6 : FVec F S_ .f32 := constant S_ .f32 0x7F800000#32
  let main_v20 : FVec F S14336 .f32 := broadcastInDim S14336 ![] bcast_S_S14336 main_cst_6
  let main_v21 : IVec S14336 1 := cmpf .olt main_v19 main_v20
  let main_c_7 : IVec S_ 1 := constantI S_ 1 1#1
  let main_v22 : IVec S_ 1 := (fun x v => Host.reduce IntOp.andi x v reducesTo_S14336_S_d0 h_S_) main_v21 main_c_7
  let main_v23 : IVec S_ 1 := andi main_v18 main_v22
  let main_v24 : FVec F S4096 .f32 := Host.absf main_arg8
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S14336 .f32 := Host.absf main_arg9
  let main_cst_10 : FVec F S_ .f32 := constant S_ .f32 0x7F800000#32
  let main_v30 : FVec F S14336 .f32 := broadcastInDim S14336 ![] bcast_S_S14336 main_cst_10
  let main_v31 : IVec S14336 1 := cmpf .olt main_v29 main_v30
  let main_c_11 : IVec S_ 1 := constantI S_ 1 1#1
  let main_v32 : IVec S_ 1 := (fun x v => Host.reduce IntOp.andi x v reducesTo_S14336_S_d0 h_S_) main_v31 main_c_11
  let main_v33 : IVec S_ 1 := andi main_v28 main_v32
  fn_part2 (F := F) main_arg10 main_arg11 main_arg12 main_v33

def fn {F : FTy → Type} [FloatOps F] (main_arg0 : FVec F S64x4096 .f32) (main_arg1 : FVec F S4096 .f32) (main_arg2 : FVec F S4096 .f32) (main_arg3 : FVec F S4096 .f32) (main_arg4 : IVec S14336x4096 32) (main_arg5 : IVec S14336x4096 32) (main_arg6 : IVec S4096x14336 32) (main_arg7 : FVec F S14336 .f32) (main_arg8 : FVec F S4096 .f32) (main_arg9 : FVec F S14336 .f32) (main_arg10 : FVec F S4096 .f32) (main_arg11 : FVec F S4096 .f32) (main_arg12 : FVec F S14336 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg7 main_arg8 main_arg9 main_arg10 main_arg11 main_arg12 main_v13 main_v16
-- ==== Kernel.lean ====
abbrev S64x4096 : Shape := ⟨2, ![64, 4096]⟩
abbrev S4096 : Shape := ⟨1, ![4096]⟩
abbrev S14336x4096 : Shape := ⟨2, ![14336, 4096]⟩
abbrev S4096x14336 : Shape := ⟨2, ![4096, 14336]⟩
abbrev S14336 : Shape := ⟨1, ![14336]⟩
abbrev S_ : Shape := ⟨0, ![]⟩
abbrev S14336x4096x1 : Shape := ⟨3, ![14336, 4096, 1]⟩
abbrev S4096x14336x1 : Shape := ⟨3, ![4096, 14336, 1]⟩
abbrev S1x4096 : Shape := ⟨2, ![1, 4096]⟩
abbrev S1x14336 : Shape := ⟨2, ![1, 14336]⟩
abbrev S64x14336 : Shape := ⟨2, ![64, 14336]⟩
abbrev S512x4096 : Shape := ⟨2, ![512, 4096]⟩
abbrev S1x512 : Shape := ⟨2, ![1, 512]⟩
abbrev S64x512 : Shape := ⟨2, ![64, 512]⟩
abbrev S2048x512 : Shape := ⟨2, ![2048, 512]⟩
abbrev S1x2048 : Shape := ⟨2, ![1, 2048]⟩
abbrev S64x2048 : Shape := ⟨2, ![64, 2048]⟩

abbrev nBuf : Space → Nat
  | .hbm => 66
  | .vmem => 23
  | .smem => 0
  | _ => 0

abbrev bufTy : (tb : Table) → Fin (tcTables nBuf tb) → BufTy
  | .hbm, ⟨0, _⟩ => ⟨S64x4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S14336x4096, .i32⟩
  | .hbm, ⟨5, _⟩ => ⟨S14336x4096, .i32⟩
  | .hbm, ⟨6, _⟩ => ⟨S4096x14336, .i32⟩
  | .hbm, ⟨7, _⟩ => ⟨S14336, .f32⟩
  | .hbm, ⟨8, _⟩ => ⟨S4096, .f32⟩
  | .hbm, ⟨9, _⟩ => ⟨S14336, .f32⟩
  | .hbm, ⟨10, _⟩ => ⟨S4096, .f32⟩
  | .hbm, ⟨11, _⟩ => ⟨S4096, .f32⟩
  | .hbm, ⟨12, _⟩ => ⟨S14336, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096, .bf16⟩
  | .hbm, ⟨17, _⟩ => ⟨S_, .i32⟩
  | .hbm, ⟨18, _⟩ => ⟨S14336x4096, .i32⟩
  | .hbm, ⟨19, _⟩ => ⟨S14336x4096, .i1⟩
  | .hbm, ⟨20, _⟩ => ⟨S_, .i32⟩
  | .hbm, ⟨21, _⟩ => ⟨S14336x4096, .i32⟩
  | .hbm, ⟨22, _⟩ => ⟨S14336x4096, .i32⟩
  | .hbm, ⟨23, _⟩ => ⟨S14336x4096, .i32⟩
  | .hbm, ⟨24, _⟩ => ⟨S14336x4096x1, .i32⟩
  | .hbm, ⟨25, _⟩ => ⟨S14336x4096, .bf16⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096, .bf16⟩
  | .hbm, ⟨30, _⟩ => ⟨S_, .i32⟩
  | .hbm, ⟨31, _⟩ => ⟨S14336x4096, .i32⟩
  | .hbm, ⟨32, _⟩ => ⟨S14336x4096, .i1⟩
  | .hbm, ⟨33, _⟩ => ⟨S_, .i32⟩
  | .hbm, ⟨34, _⟩ => ⟨S14336x4096, .i32⟩
  | .hbm, ⟨35, _⟩ => ⟨S14336x4096, .i32⟩
  | .hbm, ⟨36, _⟩ => ⟨S14336x4096, .i32⟩
  | .hbm, ⟨37, _⟩ => ⟨S14336x4096x1, .i32⟩
  | .hbm, ⟨38, _⟩ => ⟨S14336x4096, .bf16⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096, .bf16⟩
  | .hbm, ⟨43, _⟩ => ⟨S_, .i32⟩
  | .hbm, ⟨44, _⟩ => ⟨S4096x14336, .i32⟩
  | .hbm, ⟨45, _⟩ => ⟨S4096x14336, .i1⟩
  | .hbm, ⟨46, _⟩ => ⟨S_, .i32⟩
  | .hbm, ⟨47, _⟩ => ⟨S4096x14336, .i32⟩
  | .hbm, ⟨48, _⟩ => ⟨S4096x14336, .i32⟩
  | .hbm, ⟨49, _⟩ => ⟨S4096x14336, .i32⟩
  | .hbm, ⟨50, _⟩ => ⟨S4096x14336x1, .i32⟩
  | .hbm, ⟨51, _⟩ => ⟨S4096x14336, .bf16⟩
  | .hbm, ⟨52, _⟩ => ⟨S1x4096, .f32⟩
  | .hbm, ⟨53, _⟩ => ⟨S64x4096, .f32⟩
  | .hbm, ⟨54, _⟩ => ⟨S64x4096, .f32⟩
  | .hbm, ⟨55, _⟩ => ⟨S64x4096, .bf16⟩
  | .hbm, ⟨56, _⟩ => ⟨S1x4096, .f32⟩
  | .hbm, ⟨57, _⟩ => ⟨S64x4096, .f32⟩
  | .hbm, ⟨58, _⟩ => ⟨S64x4096, .f32⟩
  | .hbm, ⟨59, _⟩ => ⟨S64x4096, .bf16⟩
  | .hbm, ⟨60, _⟩ => ⟨S1x14336, .f32⟩
  | .hbm, ⟨61, _⟩ => ⟨S1x14336, .f32⟩
  | .hbm, ⟨62, _⟩ => ⟨S1x14336, .f32⟩
  | .hbm, ⟨63, _⟩ => ⟨S1x4096, .f32⟩
  | .hbm, ⟨64, _⟩ => ⟨S64x14336, .bf16⟩
  | .hbm, ⟨65, _⟩ => ⟨S64x4096, .f32⟩
  | .local _ .vmem, ⟨0, _⟩ => ⟨S64x4096, .bf16⟩
  | .local _ .vmem, ⟨1, _⟩ => ⟨S64x4096, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S64x512, .bf16⟩
  | .local _ .vmem, ⟨13, _⟩ => ⟨S64x512, .bf16⟩
  | .local _ .vmem, ⟨14, _⟩ => ⟨S64x512, .bf16⟩
  | .local _ .vmem, ⟨15, _⟩ => ⟨S64x512, .bf16⟩
  | .local _ .vmem, ⟨16, _⟩ => ⟨S2048x512, .bf16⟩
  | .local _ .vmem, ⟨17, _⟩ => ⟨S2048x512, .bf16⟩
  | .local _ .vmem, ⟨18, _⟩ => ⟨S1x2048, .f32⟩
  | .local _ .vmem, ⟨19, _⟩ => ⟨S1x2048, .f32⟩
  | .local _ .vmem, ⟨20, _⟩ => ⟨S64x2048, .f32⟩
  | .local _ .vmem, ⟨21, _⟩ => ⟨S64x2048, .f32⟩
  | .local _ .vmem, ⟨22, _⟩ => ⟨S64x2048, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_v4 : Ref sig .tc := ⟨.hbm, 19, rfl⟩
abbrev main_c_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 28], ![false, false]⟩

def k1_cond2 (i : grid1.Coords) : BitVec 1 :=
  let arg1 : BitVec 32 := BitVec.ofNat 32 (i 1).val
  let c27_i32 : BitVec 32 := 27#32
  let v13 : BitVec 1 := Scalar.cmpi .eq arg1 c27_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S64x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S64x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S4096 : S_.BroadcastsInDim S4096 (![] : Fin 0 → Fin S4096.rank)
  bitsLt_bf16_f32 : FTy.bits .bf16 < FTy.bits .f32
  bcast_S_S14336x4096 : S_.BroadcastsInDim S14336x4096 (![] : Fin 0 → Fin S14336x4096.rank)
  bcast_S14336x4096_S14336x4096x1_0_1 : S14336x4096.BroadcastsInDim S14336x4096x1 (![0, 1] : Fin 2 → Fin S14336x4096x1.rank)
  bcast_S_S4096x14336 : S_.BroadcastsInDim S4096x14336 (![] : Fin 0 → Fin S4096x14336.rank)
  bcast_S4096x14336_S4096x14336x1_0_1 : S4096x14336.BroadcastsInDim S4096x14336x1 (![0, 1] : Fin 2 → Fin S4096x14336x1.rank)
  bcast_S4096_S1x4096_1 : S4096.BroadcastsInDim S1x4096 (![1] : Fin 1 → Fin S1x4096.rank)
  bcast_S1x4096_S64x4096_0_1 : S1x4096.BroadcastsInDim S64x4096 (![0, 1] : Fin 2 → Fin S64x4096.rank)
  shapeCasts_S14336_S1x14336 : S14336.ShapeCasts S1x14336
  shapeCasts_S4096_S1x4096 : S4096.ShapeCasts S1x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  inb_S64x512_S64x512_0_0 : ∀ a, (![0, 0] : Fin 2 → Nat) a + S64x512.size a ≤ S64x512.size a
  h_S64x512 : 0 < S64x512.numel
  packedbf16_S64x512_S64x512_0_0 : (Rect.unit (s := S64x512) ![0, 0] S64x512.size inb_S64x512_S64x512_0_0).PackedRows (EltTy.packing .bf16)
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  shapeCasts_S64x512_S64x512 : S64x512.ShapeCasts S64x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  gather_S4096_S14336x4096x1_S14336x4096_n_0_n_n_0_2_1_wf : GatherDims.WF S4096 S14336x4096x1 S14336x4096 [] [0] [] [0] [] 2 ![1]
  gather_S4096_S4096x14336x1_S4096x14336_n_0_n_n_0_2_1_wf : GatherDims.WF S4096 S4096x14336x1 S4096x14336 [] [0] [] [0] [] 2 ![1]
  dot_S64x4096_S512x4096_S64x512_1_1_0_0_n_n_wf : DotDims.WF S64x4096 S512x4096 S64x512 [1] [1] [0] [0] [] []
  dot_S64x512_S2048x512_S64x2048_1_1_0_0_n_n_wf : DotDims.WF S64x512 S2048x512 S64x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .bf16 = 32 ∨ (Rect.block (s := S64x4096) S64x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .bf16 = 32 ∨ (Rect.block (s := S64x4096) S64x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S14336x4096.size a
  hwx0_2 : ∀ i : grid0.Coords, EltTy.bits .bf16 = 32 ∨ (Rect.block (s := S14336x4096) S512x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S14336x4096.size a
  hwx0_3 : ∀ i : grid0.Coords, EltTy.bits .bf16 = 32 ∨ (Rect.block (s := S14336x4096) S512x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x14336.size a
  hwx0_4 : ∀ i : grid0.Coords, EltTy.bits .f32 = 32 ∨ (Rect.block (s := S1x14336) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x14336.size a
  hwx0_5 : ∀ i : grid0.Coords, EltTy.bits .f32 = 32 ∨ (Rect.block (s := S1x14336) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x14336.size a
  hwx0_6 : ∀ i : grid0.Coords, EltTy.bits .f32 = 32 ∨ (Rect.block (s := S1x14336) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x512.size a ≤ S64x14336.size a
  hwx0_7 : ∀ i : grid0.Coords, EltTy.bits .bf16 = 32 ∨ (Rect.block (s := S64x14336) S64x512.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x512.size a ≤ S64x14336.size a
  hwx1_0 : ∀ i : grid1.Coords, EltTy.bits .bf16 = 32 ∨ (Rect.block (s := S64x14336) S64x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x14336.size a
  hwx1_1 : ∀ i : grid1.Coords, EltTy.bits .bf16 = 32 ∨ (Rect.block (s := S4096x14336) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x2048.size a ≤ S64x4096.size a
  hwx1_3 : ∀ i : grid1.Coords, EltTy.bits .f32 = 32 ∨ (Rect.block (s := S64x4096) S64x2048.size (cc1_transform_3 i) (hinb1_3 i)).WholeWords (EltTy.packing .f32)

variable [Facts₀]

def gather_S4096_S14336x4096x1_S14336x4096_n_0_n_n_0_2_1 : GatherDims S4096 S14336x4096x1 S14336x4096 where
  offsetDims := []
  collapsedSliceDims := [0]
  operandBatchingDims := []
  startIndicesBatchingDims := []
  startIndexMap := [0]
  indexVectorDim := 2
  sliceSizes := ![1]
  wf := gather_S4096_S14336x4096x1_S14336x4096_n_0_n_n_0_2_1_wf
def gather_S4096_S4096x14336x1_S4096x14336_n_0_n_n_0_2_1 : GatherDims S4096 S4096x14336x1 S4096x14336 where
  offsetDims := []
  collapsedSliceDims := [0]
  operandBatchingDims := []
  startIndicesBatchingDims := []
  startIndexMap := [0]
  indexVectorDim := 2
  sliceSizes := ![1]
  wf := gather_S4096_S4096x14336x1_S4096x14336_n_0_n_n_0_2_1_wf
def dot_S64x4096_S512x4096_S64x512_1_1_0_0_n_n : DotDims S64x4096 S512x4096 S64x512 where
  lhsContracting := [1]
  rhsContracting := [1]
  lhsNonContracting := [0]
  rhsNonContracting := [0]
  lhsBatch := []
  rhsBatch := []
  wf := dot_S64x4096_S512x4096_S64x512_1_1_0_0_n_n_wf
def dot_S64x512_S2048x512_S64x2048_1_1_0_0_n_n : DotDims S64x512 S2048x512 S64x2048 where
  lhsContracting := [1]
  rhsContracting := [1]
  lhsNonContracting := [0]
  rhsNonContracting := [0]
  lhsBatch := []
  rhsBatch := []
  wf := dot_S64x512_S2048x512_S64x2048_1_1_0_0_n_n_wf

abbrev win0_0 : Pipeline.Window sig grid0 :=
  Pipeline.Window.ofSpec (Memref.whole main_v33) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v37) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S512x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v39) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v40) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v42) S64x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v42) S64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S64x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S64x4096 : Shape := ⟨2, ![64, 4096]⟩
abbrev S4096 : Shape := ⟨1, ![4096]⟩
abbrev S14336x4096 : Shape := ⟨2, ![14336, 4096]⟩
abbrev S4096x14336 : Shape := ⟨2, ![4096, 14336]⟩
abbrev S14336 : Shape := ⟨1, ![14336]⟩
abbrev S_ : Shape := ⟨0, ![]⟩
abbrev S14336x4096x1 : Shape := ⟨3, ![14336, 4096, 1]⟩
abbrev S14336x1 : Shape := ⟨2, ![14336, 1]⟩
abbrev S1x4096 : Shape := ⟨2, ![1, 4096]⟩
abbrev S4096x14336x1 : Shape := ⟨3, ![4096, 14336, 1]⟩
abbrev S4096x1 : Shape := ⟨2, ![4096, 1]⟩
abbrev S1x14336 : Shape := ⟨2, ![1, 14336]⟩
abbrev S64x14336 : Shape := ⟨2, ![64, 14336]⟩

abbrev nBuf : Space → Nat
  | .hbm => 83
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S14336x4096, .i32⟩
  | .hbm, ⟨5, _⟩ => ⟨S14336x4096, .i32⟩
  | .hbm, ⟨6, _⟩ => ⟨S4096x14336, .i32⟩
  | .hbm, ⟨7, _⟩ => ⟨S14336, .f32⟩
  | .hbm, ⟨8, _⟩ => ⟨S4096, .f32⟩
  | .hbm, ⟨9, _⟩ => ⟨S14336, .f32⟩
  | .hbm, ⟨10, _⟩ => ⟨S4096, .f32⟩
  | .hbm, ⟨11, _⟩ => ⟨S4096, .f32⟩
  | .hbm, ⟨12, _⟩ => ⟨S14336, .f32⟩
  | .hbm, ⟨13, _⟩ => ⟨S_, .i32⟩
  | .hbm, ⟨14, _⟩ => ⟨S14336x4096, .i32⟩
  | .hbm, ⟨15, _⟩ => ⟨S14336x4096, .i1⟩
  | .hbm, ⟨16, _⟩ => ⟨S_, .i32⟩
  | .hbm, ⟨17, _⟩ => ⟨S14336x4096, .i32⟩
  | .hbm, ⟨18, _⟩ => ⟨S14336x4096, .i32⟩
  | .hbm, ⟨19, _⟩ => ⟨S14336x4096, .i32⟩
  | .hbm, ⟨20, _⟩ => ⟨S14336x4096x1, .i32⟩
  | .hbm, ⟨21, _⟩ => ⟨S14336x4096, .f32⟩
  | .hbm, ⟨22, _⟩ => ⟨S14336x1, .f32⟩
  | .hbm, ⟨23, _⟩ => ⟨S14336x4096, .f32⟩
  | .hbm, ⟨24, _⟩ => ⟨S14336x4096, .f32⟩
  | .hbm, ⟨25, _⟩ => ⟨S1x4096, .f32⟩
  | .hbm, ⟨26, _⟩ => ⟨S14336x4096, .f32⟩
  | .hbm, ⟨27, _⟩ => ⟨S14336x4096, .f32⟩
  | .hbm, ⟨28, _⟩ => ⟨S_, .f32⟩
  | .hbm, ⟨29, _⟩ => ⟨S14336x4096, .f32⟩
  | .hbm, ⟨30, _⟩ => ⟨S14336x4096, .f32⟩
  | .hbm, ⟨31, _⟩ => ⟨S_, .i32⟩
  | .hbm, ⟨32, _⟩ => ⟨S14336x4096, .i32⟩
  | .hbm, ⟨33, _⟩ => ⟨S14336x4096, .i1⟩
  | .hbm, ⟨34, _⟩ => ⟨S_, .i32⟩
  | .hbm, ⟨35, _⟩ => ⟨S14336x4096, .i32⟩
  | .hbm, ⟨36, _⟩ => ⟨S14336x4096, .i32⟩
  | .hbm, ⟨37, _⟩ => ⟨S14336x4096, .i32⟩
  | .hbm, ⟨38, _⟩ => ⟨S14336x4096x1, .i32⟩
  | .hbm, ⟨39, _⟩ => ⟨S14336x4096, .f32⟩
  | .hbm, ⟨40, _⟩ => ⟨S14336x1, .f32⟩
  | .hbm, ⟨41, _⟩ => ⟨S14336x4096, .f32⟩
  | .hbm, ⟨42, _⟩ => ⟨S14336x4096, .f32⟩
  | .hbm, ⟨43, _⟩ => ⟨S1x4096, .f32⟩
  | .hbm, ⟨44, _⟩ => ⟨S14336x4096, .f32⟩
  | .hbm, ⟨45, _⟩ => ⟨S14336x4096, .f32⟩
  | .hbm, ⟨46, _⟩ => ⟨S_, .f32⟩
  | .hbm, ⟨47, _⟩ => ⟨S14336x4096, .f32⟩
  | .hbm, ⟨48, _⟩ => ⟨S14336x4096, .f32⟩
  | .hbm, ⟨49, _⟩ => ⟨S_, .i32⟩
  | .hbm, ⟨50, _⟩ => ⟨S4096x14336, .i32⟩
  | .hbm, ⟨51, _⟩ => ⟨S4096x14336, .i1⟩
  | .hbm, ⟨52, _⟩ => ⟨S_, .i32⟩
  | .hbm, ⟨53, _⟩ => ⟨S4096x14336, .i32⟩
  | .hbm, ⟨54, _⟩ => ⟨S4096x14336, .i32⟩
  | .hbm, ⟨55, _⟩ => ⟨S4096x14336, .i32⟩
  | .hbm, ⟨56, _⟩ => ⟨S4096x14336x1, .i32⟩
  | .hbm, ⟨57, _⟩ => ⟨S4096x14336, .f32⟩
  | .hbm, ⟨58, _⟩ => ⟨S4096x1, .f32⟩
  | .hbm, ⟨59, _⟩ => ⟨S4096x14336, .f32⟩
  | .hbm, ⟨60, _⟩ => ⟨S4096x14336, .f32⟩
  | .hbm, ⟨61, _⟩ => ⟨S1x14336, .f32⟩
  | .hbm, ⟨62, _⟩ => ⟨S4096x14336, .f32⟩
  | .hbm, ⟨63, _⟩ => ⟨S4096x14336, .f32⟩
  | .hbm, ⟨64, _⟩ => ⟨S_, .f32⟩
  | .hbm, ⟨65, _⟩ => ⟨S4096x14336, .f32⟩
  | .hbm, ⟨66, _⟩ => ⟨S4096x14336, .f32⟩
  | .hbm, ⟨67, _⟩ => ⟨S4096x14336, .f32⟩
  | .hbm, ⟨68, _⟩ => ⟨S64x14336, .f32⟩
  | .hbm, ⟨69, _⟩ => ⟨S64x14336, .f32⟩
  | .hbm, ⟨70, _⟩ => ⟨S64x14336, .f32⟩
  | .hbm, ⟨71, _⟩ => ⟨S_, .f32⟩
  | .hbm, ⟨72, _⟩ => ⟨S64x14336, .f32⟩
  | .hbm, ⟨73, _⟩ => ⟨S64x14336, .f32⟩
  | .hbm, ⟨74, _⟩ => ⟨S_, .f32⟩
  | .hbm, ⟨75, _⟩ => ⟨S64x14336, .f32⟩
  | .hbm, ⟨76, _⟩ => ⟨S64x14336, .f32⟩
  | .hbm, ⟨77, _⟩ => ⟨S64x14336, .f32⟩
  | .hbm, ⟨78, _⟩ => ⟨S4096x14336, .f32⟩
  | .hbm, ⟨79, _⟩ => ⟨S64x14336, .f32⟩
  | .hbm, ⟨80, _⟩ => ⟨S64x14336, .f32⟩
  | .hbm, ⟨81, _⟩ => ⟨S14336x4096, .f32⟩
  | .hbm, ⟨82, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩

abbrev nD : Nat := 1
abbrev τ : Topo := Topo.v7x

variable {F : FTy → Type} [FloatOps F]

class Facts₀ : Prop where
  bcast_S_S14336x4096 : S_.BroadcastsInDim S14336x4096 (![] : Fin 0 → Fin S14336x4096.rank)
  bcast_S14336x4096_S14336x4096x1_0_1 : S14336x4096.BroadcastsInDim S14336x4096x1 (![0, 1] : Fin 2 → Fin S14336x4096x1.rank)
  bcast_S14336_S14336x1_0 : S14336.BroadcastsInDim S14336x1 (![0] : Fin 1 → Fin S14336x1.rank)
  bcast_S14336x1_S14336x4096_0_1 : S14336x1.BroadcastsInDim S14336x4096 (![0, 1] : Fin 2 → Fin S14336x4096.rank)
  bcast_S4096_S1x4096_1 : S4096.BroadcastsInDim S1x4096 (![1] : Fin 1 → Fin S1x4096.rank)
  bcast_S1x4096_S14336x4096_0_1 : S1x4096.BroadcastsInDim S14336x4096 (![0, 1] : Fin 2 → Fin S14336x4096.rank)
  bcast_S_S4096x14336 : S_.BroadcastsInDim S4096x14336 (![] : Fin 0 → Fin S4096x14336.rank)
  bcast_S4096x14336_S4096x14336x1_0_1 : S4096x14336.BroadcastsInDim S4096x14336x1 (![0, 1] : Fin 2 → Fin S4096x14336x1.rank)
  bcast_S4096_S4096x1_0 : S4096.BroadcastsInDim S4096x1 (![0] : Fin 1 → Fin S4096x1.rank)
  bcast_S4096x1_S4096x14336_0_1 : S4096x1.BroadcastsInDim S4096x14336 (![0, 1] : Fin 2 → Fin S4096x14336.rank)
  bcast_S14336_S1x14336_1 : S14336.BroadcastsInDim S1x14336 (![1] : Fin 1 → Fin S1x14336.rank)
  bcast_S1x14336_S4096x14336_0_1 : S1x14336.BroadcastsInDim S4096x14336 (![0, 1] : Fin 2 → Fin S4096x14336.rank)
  transposes_S14336x4096_S4096x14336_1_0 : S14336x4096.Transposes [1, 0] S4096x14336
  bcast_S_S64x14336 : S_.BroadcastsInDim S64x14336 (![] : Fin 0 → Fin S64x14336.rank)
  transposes_S4096x14336_S14336x4096_1_0 : S4096x14336.Transposes [1, 0] S14336x4096
  gather_S4096_S14336x4096x1_S14336x4096_n_0_n_n_0_2_1_wf : GatherDims.WF S4096 S14336x4096x1 S14336x4096 [] [0] [] [0] [] 2 ![1]
  gather_S4096_S4096x14336x1_S4096x14336_n_0_n_n_0_2_1_wf : GatherDims.WF S4096 S4096x14336x1 S4096x14336 [] [0] [] [0] [] 2 ![1]
  dot_S64x4096_S4096x14336_S64x14336_1_0_0_1_n_n_wf : DotDims.WF S64x4096 S4096x14336 S64x14336 [1] [0] [0] [1] [] []
  dot_S64x14336_S14336x4096_S64x4096_1_0_0_1_n_n_wf : DotDims.WF S64x14336 S14336x4096 S64x4096 [1] [0] [0] [1] [] []

variable [Facts₀]

def gather_S4096_S14336x4096x1_S14336x4096_n_0_n_n_0_2_1 : GatherDims S4096 S14336x4096x1 S14336x4096 where
  offsetDims := []
  collapsedSliceDims := [0]
  operandBatchingDims := []
  startIndicesBatchingDims := []
  startIndexMap := [0]
  indexVectorDim := 2
  sliceSizes := ![1]
  wf := gather_S4096_S14336x4096x1_S14336x4096_n_0_n_n_0_2_1_wf
def gather_S4096_S4096x14336x1_S4096x14336_n_0_n_n_0_2_1 : GatherDims S4096 S4096x14336x1 S4096x14336 where
  offsetDims := []
  collapsedSliceDims := [0]
  operandBatchingDims := []
  startIndicesBatchingDims := []
  startIndexMap := [0]
  indexVectorDim := 2
  sliceSizes := ![1]
  wf := gather_S4096_S4096x14336x1_S4096x14336_n_0_n_n_0_2_1_wf
def dot_S64x4096_S4096x14336_S64x14336_1_0_0_1_n_n : DotDims S64x4096 S4096x14336 S64x14336 where
  lhsContracting := [1]
  rhsContracting := [0]
  lhsNonContracting := [0]
  rhsNonContracting := [1]
  lhsBatch := []
  rhsBatch := []
  wf := dot_S64x4096_S4096x14336_S64x14336_1_0_0_1_n_n_wf
def dot_S64x14336_S14336x4096_S64x4096_1_0_0_1_n_n : DotDims S64x14336 S14336x4096 S64x4096 where
  lhsContracting := [1]
  rhsContracting := [0]
  lhsNonContracting := [0]
  rhsNonContracting := [1]
  lhsBatch := []
  rhsBatch := []
  wf := dot_S64x14336_S14336x4096_S64x4096_1_0_0_1_n_n_wf

class Facts : Prop extends Facts₀ where

variable [Facts]
-- ==== Proof.Stage1Bits.lean ====
/-
  The first pallas_call (the gate/up projection) as a pipeline whose body is run once: at every one of its 28 grid points
  the body loads its seven input blocks whole, computes one payload and stores it whole into the output block, keeping
  nothing between points. Stated at a PARAMETER `V`, the buffer contents when the region is entered:
  each window's block at a point, what the body leaves in the output block as a function of the input blocks,
  the body's triple, the pipeline's proof data and the body obligation.
-/
import proofs.«122006_j42176578847199_2_alg».proof.Proof.Gen.Kernel.Launch
import proofs.«122006_j42176578847199_2_alg».proof.Proof.Gen.Kernel.Skeleton
import proofs.«122006_j42176578847199_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's accesses: every load and the one store take a whole buffer -/

abbrev rA : Rect S64x4096 := Rect.unit (s := S64x4096) ![0, 0] S64x4096.size inb_S64x4096_S64x4096_0_0
abbrev rB : Rect S512x4096 := Rect.unit (s := S512x4096) ![0, 0] S512x4096.size inb_S512x4096_S512x4096_0_0
abbrev rC : Rect S1x512 := Rect.unit (s := S1x512) ![0, 0] S1x512.size inb_S1x512_S1x512_0_0
abbrev rO : Rect S64x512 := Rect.unit (s := S64x512) ![0, 0] S64x512.size inb_S64x512_S64x512_0_0

/-- The output block after the body, from the seven input blocks: its one store as a piece. -/
def out0_7 (x0 : Vec F S64x4096 .bf16) (x1 : Vec F S64x4096 .bf16) (x2 : Vec F S512x4096 .bf16) (x3 : Vec F S512x4096 .bf16) (x4 : Vec F S1x512 .f32) (x5 : Vec F S1x512 .f32) (x6 : Vec F S1x512 .f32) : Vec F S64x512 .bf16 :=
  View.canon [⟨rO, k0_pay1 (View.ld x0 rA) (View.ld x1 rA) (View.ld x2 rB) (View.ld x3 rB) (View.ld x4 rC) (View.ld x5 rC) (View.ld x6 rC)⟩]

/-- The one store covers the block. -/
theorem cover0_7 (p0 : Vec F S64x512 .bf16) (y : S64x512.Idx) :
    ∃ pc ∈ ([⟨rO, p0⟩] : List (View.Piece (Elt F) S64x512 .bf16)), y ∈ pc.1.set :=
  View.cover_of_tiled [⟨rO, p0⟩] S64x512.size (by rfl) y

set_option maxHeartbeats 4000000 in
/-- The body on whole staging memrefs, the inputs' at contents `xK` and the output's at anything, runs to the
    continuation holding the inputs' as they were and the output's at `out0_7` of the inputs'. -/
theorem sound_kernel0 (c : Dev nD) (E : Set ℕ) (i : grid0.Coords) (arg1 : Memref sig .tc .vmem S64x4096 .bf16) (harg1 : arg1.IsWhole) (arg2 : Memref sig .tc .vmem S64x4096 .bf16) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S64x512 .bf16) (harg8 : arg8.IsWhole)
    (x0 : Vec F S64x4096 .bf16) (x1 : Vec F S64x4096 .bf16) (x2 : Vec F S512x4096 .bf16) (x3 : Vec F S512x4096 .bf16) (x4 : Vec F S1x512 .f32) (x5 : Vec F S1x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

section
variable (V : (c : Dev nD) → (b : Ref sig .tc) → Buf (Elt F) ((c : Thread nD τ).loc b))

/-- The proof data of the first pipeline on core `c`: the arrays as the region finds them; after the body at point `t`
    each input's buffer at its block and the output's at `out0_7` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 2000000 in
/-- The body at any point: the inputs' memrefs hold their blocks, so `sound_kernel0` applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.Stage2Bits.lean ====
/-
  The second pallas_call (the down projection) as a pipeline whose body has three cases. Its grid is 2 × 28: the outer
  coordinate picks a half of the output columns, the inner one walks the 28 blocks of the contracted axis. The body keeps a
  running sum in a scratch buffer that lives across grid points: at the first inner step it clears the scratch, at every step
  it adds one block product to it, and at the last inner step it multiplies the finished sum by the row signs and stores the
  output block (which is written back only there). So the cases are: first inner step (clear, add), a middle step (add),
  the last step (add, store the output). Stated at a PARAMETER `V`, the buffer contents when the region is entered: what the
  scratch and the output block hold after every point, by recursion on the point; the invariant that carries the scratch from
  one point to the next; the proof data; the body obligation.
-/
import proofs.«122006_j42176578847199_2_alg».proof.Proof.Gen.Kernel.Launch
import proofs.«122006_j42176578847199_2_alg».proof.Proof.Gen.Kernel.Skeleton
import proofs.«122006_j42176578847199_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions, in closed form over the grid -/

/-- "This is the first inner step": the inner coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 28 = 0 :=
  (by decide +kernel : ∀ t : Fin grid1.N, cond1_0 (grid1.coords t) ↔ t.val % 28 = 0)
/-- "This is the last inner step": the inner coordinate is 27. -/
abbrev cond1_1 (i : grid1.Coords) : Prop := k1_cond2 i = 1#1
theorem hcond1_1 : ∀ t : Fin cfg1.N, cond1_1 (grid1.coords t) ↔ t.val % 28 = 27 :=
  (by decide +kernel : ∀ t : Fin grid1.N, cond1_1 (grid1.coords t) ↔ t.val % 28 = 27)

/-! ## Where the windows are idle: the inputs never, the output everywhere but at the last inner step -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S64x2048 .f32 := (Memref.whole cc1_stg3_0 : Memref sig .tc .vmem S64x2048 .f32).view
abbrev ms1_0 (t : Fin cfg1.N) : Memref sig .tc .vmem S64x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x2048 .f32 := win1_3.stage (cfg1.slots t 3)
abbrev hs1_3 (t : Fin cfg1.N) : (ms1_3 t).IsWhole := hstage1_3 ((cfg1.slots t 3).cast nbuf1_3)
/-- The running sum's scratch buffer, whole, and as a view. -/
abbrev scM1 : Memref sig .tc .vmem S64x2048 .f32 := Memref.whole cc1_scratch0
abbrev VS1 : View sig .tc .vmem S64x2048 .f32 := scM1.view

/-- The core's scoped buffers other than the second call's staging buffers and the scratch: the first call's staging
    buffers, each whole at some contents. The second call never touches them. -/
def Others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- The second call's scoped rest is those buffers and the scratch. -/
theorem PhiA1_eq (c : Dev nD) :
    (Pipeline.ΦA spec1 c : sProp 𝕄) = iprop(iprop(Others c ∗ (∃ d, owns (c : Thread nD τ) scM1 fullShare d)) ∗ (∃ r, prngReg c r)) := by
  have h₁ : (iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc1_scratch0), ((c : Thread nD τ).loc cc1_scratch0) ↦{fullShare} f)) : sProp 𝕄) ⊢ iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f)) ∗ (∃ f : Buf (Elt F) ((c : Thread nD τ).loc cc1_scratch0), ((c : Thread nD τ).loc cc1_scratch0) ↦{fullShare} f)) := by
    iintro ⟨HB0, HB1, HB2, HB3, HB4, HB5, HB6, HB7, HB8, HB9, HB10, HB11, HB12, HB13, HS⟩
    isplitr [HS]
    · isplitl [HB0]; · iexact HB0
      isplitl [HB1]; · iexact HB1
      isplitl [HB2]; · iexact HB2
      isplitl [HB3]; · iexact HB3
      isplitl [HB4]; · iexact HB4
      isplitl [HB5]; · iexact HB5
      isplitl [HB6]; · iexact HB6
      isplitl [HB7]; · iexact HB7
      isplitl [HB8]; · iexact HB8
      isplitl [HB9]; · iexact HB9
      isplitl [HB10]; · iexact HB10
      isplitl [HB11]; · iexact HB11
      isplitl [HB12]; · iexact HB12
      iexact HB13
    iexact HS
  have h₂ : (iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f)) ∗ (∃ f : Buf (Elt F) ((c : Thread nD τ).loc cc1_scratch0), ((c : Thread nD τ).loc cc1_scratch0) ↦{fullShare} f)) : sProp 𝕄) ⊢ iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc1_scratch0), ((c : Thread nD τ).loc cc1_scratch0) ↦{fullShare} f)) := by
    iintro ⟨⟨HB0, HB1, HB2, HB3, HB4, HB5, HB6, HB7, HB8, HB9, HB10, HB11, HB12, HB13⟩, HS⟩
    isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    isplitl [HB8]; · iexact HB8
    isplitl [HB9]; · iexact HB9
    isplitl [HB10]; · iexact HB10
    isplitl [HB11]; · iexact HB11
    isplitl [HB12]; · iexact HB12
    isplitl [HB13]; · iexact HB13
    iexact HS
  unfold Pipeline.ΦA; rw [scopedRest1_eq]; unfold Others; simp only [scM1, owns_whole]
  exact congrArg (fun P => iprop(P ∗ (∃ r, prngReg c r))) (BI.equiv_iff.mp ⟨h₁, h₂⟩)

/-! ## The body on any staging memrefs, case by case: the pieces each buffer ends with are found by the run -/

set_option maxHeartbeats 4000000 in
/-- FIRST INNER STEP: the scratch at anything, the idle output handed back untouched. -/
noncomputable def kernelRun1_A (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : cond1_0 i) (hc1 : ¬cond1_1 i)
    (x0 : Vec F S64x512 .bf16) (x1 : Vec F S2048x512 .bf16) (x2 : Vec F S1x2048 .f32) :
    Σ' (L3 : List (View.Piece (Elt F) S64x2048 .f32)), { LS0 : List (View.Piece (Elt F) S64x2048 .f32) //
      ∀ (xi3 : Vec F S64x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__stage2_kernel i arg2 harg2 arg3 harg3 arg4 harg4 arg5 harg5 arg6 harg6) K } := by
  refine ⟨[], ?_, fun xi3 E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- A MIDDLE STEP: the scratch at what the step before left, the idle output handed back untouched. -/
noncomputable def kernelRun1_B (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond1_0 i) (hc1 : ¬cond1_1 i)
    (x0 : Vec F S64x512 .bf16) (x1 : Vec F S2048x512 .bf16) (x2 : Vec F S1x2048 .f32) (xs0 : Vec F S64x2048 .f32) :
    Σ' (L3 : List (View.Piece (Elt F) S64x2048 .f32)), { LS0 : List (View.Piece (Elt F) S64x2048 .f32) //
      ∀ (xi3 : Vec F S64x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__stage2_kernel i arg2 harg2 arg3 harg3 arg4 harg4 arg5 harg5 arg6 harg6) K } := by
  refine ⟨[], ?_, fun xi3 E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- THE LAST INNER STEP: the scratch at what the step before left, the output stored. -/
noncomputable def kernelRun1_C (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond1_0 i) (hc1 : cond1_1 i)
    (x0 : Vec F S64x512 .bf16) (x1 : Vec F S2048x512 .bf16) (x2 : Vec F S1x2048 .f32) (xs0 : Vec F S64x2048 .f32) :
    Σ' (L3 : List (View.Piece (Elt F) S64x2048 .f32)), { LS0 : List (View.Piece (Elt F) S64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__stage2_kernel i arg2 harg2 arg3 harg3 arg4 harg4 arg5 harg5 arg6 harg6) K } := by
  refine ⟨?_, ?_, fun E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## What each case leaves: its pieces read back -/

/-- Case A's pieces for the scratch cover it. -/
theorem scover1_A (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : cond1_0 i) (hc1 : ¬cond1_1 i)
    (x0 : Vec F S64x512 .bf16) (x1 : Vec F S2048x512 .bf16) (x2 : Vec F S1x2048 .f32) (y : S64x2048.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S64x2048.size (by sl_kernel_rfl) y

/-- What case A leaves in the scratch. -/
def sout1_A (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : cond1_0 i) (hc1 : ¬cond1_1 i)
    (x0 : Vec F S64x512 .bf16) (x1 : Vec F S2048x512 .bf16) (x2 : Vec F S1x2048 .f32) : Vec F S64x2048 .f32 :=
  VS1.read (Elt F) (VS1.writes (Elt F) VS1.junk (kernelRun1_A c i arg2 harg2 arg3 harg3 arg4 harg4 arg5 harg5 arg6 harg6 hc0 hc1 x0 x1 x2).2.1)

/-- What case A leaves in the output block (nothing: a placeholder nobody reads, the window being idle there). -/
def out1_A (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : cond1_0 i) (hc1 : ¬cond1_1 i)
    (x0 : Vec F S64x512 .bf16) (x1 : Vec F S2048x512 .bf16) (x2 : Vec F S1x2048 .f32) : Vec F S64x2048 .f32 :=
  VO1_3.read (Elt F) (VO1_3.writes (Elt F) VO1_3.junk (kernelRun1_A c i arg2 harg2 arg3 harg3 arg4 harg4 arg5 harg5 arg6 harg6 hc0 hc1 x0 x1 x2).1)

/-- Case B's pieces for the scratch cover it. -/
theorem scover1_B (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond1_0 i) (hc1 : ¬cond1_1 i)
    (x0 : Vec F S64x512 .bf16) (x1 : Vec F S2048x512 .bf16) (x2 : Vec F S1x2048 .f32) (xs0 : Vec F S64x2048 .f32) (y : S64x2048.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S64x2048.size (by sl_kernel_rfl) y

/-- What case B leaves in the scratch. -/
def sout1_B (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond1_0 i) (hc1 : ¬cond1_1 i)
    (x0 : Vec F S64x512 .bf16) (x1 : Vec F S2048x512 .bf16) (x2 : Vec F S1x2048 .f32) (xs0 : Vec F S64x2048 .f32) : Vec F S64x2048 .f32 :=
  VS1.read (Elt F) (VS1.writes (Elt F) VS1.junk (kernelRun1_B c i arg2 harg2 arg3 harg3 arg4 harg4 arg5 harg5 arg6 harg6 hc0 hc1 x0 x1 x2 xs0).2.1)

/-- What case B leaves in the output block (nothing: a placeholder nobody reads, the window being idle there). -/
def out1_B (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond1_0 i) (hc1 : ¬cond1_1 i)
    (x0 : Vec F S64x512 .bf16) (x1 : Vec F S2048x512 .bf16) (x2 : Vec F S1x2048 .f32) (xs0 : Vec F S64x2048 .f32) : Vec F S64x2048 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case C's pieces for the scratch cover it. -/
theorem scover1_C (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond1_0 i) (hc1 : cond1_1 i)
    (x0 : Vec F S64x512 .bf16) (x1 : Vec F S2048x512 .bf16) (x2 : Vec F S1x2048 .f32) (xs0 : Vec F S64x2048 .f32) (y : S64x2048.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S64x2048.size (by sl_kernel_rfl) y

/-- What case C leaves in the scratch. -/
def sout1_C (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond1_0 i) (hc1 : cond1_1 i)
    (x0 : Vec F S64x512 .bf16) (x1 : Vec F S2048x512 .bf16) (x2 : Vec F S1x2048 .f32) (xs0 : Vec F S64x2048 .f32) : Vec F S64x2048 .f32 :=
  VS1.read (Elt F) (VS1.writes (Elt F) VS1.junk (kernelRun1_C c i arg2 harg2 arg3 harg3 arg4 harg4 arg5 harg5 arg6 harg6 hc0 hc1 x0 x1 x2 xs0).2.1)

/-- Case C's one store covers the output block. -/
theorem cover1_C (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond1_0 i) (hc1 : cond1_1 i)
    (x0 : Vec F S64x512 .bf16) (x1 : Vec F S2048x512 .bf16) (x2 : Vec F S1x2048 .f32) (xs0 : Vec F S64x2048 .f32) (y : S64x2048.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S64x2048.size (by sl_kernel_rfl) y

/-- What case C leaves in the output block. -/
def out1_C (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond1_0 i) (hc1 : cond1_1 i)
    (x0 : Vec F S64x512 .bf16) (x1 : Vec F S2048x512 .bf16) (x2 : Vec F S1x2048 .f32) (xs0 : Vec F S64x2048 .f32) : Vec F S64x2048 .f32 :=
  VO1_3.read (Elt F) (VO1_3.writes (Elt F) VO1_3.junk (kernelRun1_C c i arg2 harg2 arg3 harg3 arg4 harg4 arg5 harg5 arg6 harg6 hc0 hc1 x0 x1 x2 xs0).1)

section
variable (V : (c : Dev nD) → (b : Ref sig .tc) → Buf (Elt F) ((c : Thread nD τ).loc b))

/-! ## The accumulation, point by point -/

/-- What the output block and the scratch hold after the body at position `n`: the case the closed forms select there, run at
    the point's memrefs and input blocks, the scratch at what position `n - 1` left. -/
def outsAt1 (c : Dev nD) : (n : ℕ) → n < cfg1.N → Vec F S64x2048 .f32 × Vec F S64x2048 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 28 = 0 then
      if h1 : (n + 1) % 28 = 27 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
          sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 28 = 27 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
          sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2,
          sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 28 = 0) (h1 : ¬t.val % 28 = 27) :
    outsAt1 V c t.val t.isLt = (out1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t),
      sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 28 = 0) (h1 : ¬t.val % 28 = 27) :
    outsAt1 V c t.val t.isLt = (out1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 28 = 0) (h1 : t.val % 28 = 27) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scoped buffer at anything; afterwards the
    scratch at what the point before left in it, the other scoped buffers at anything, and the generator register at some state. -/
def PhiS (c : Dev nD) : (n : ℕ) → n ≤ cfg1.N → sProp 𝕄
  | 0, _ => Pipeline.ΦA spec1 c
  | n + 1, hn => iprop(iprop(Others c ∗ owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(Others c ∗ owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(iprop(Others c ∗ owns (c : Thread nD τ) scM1 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 8000000 in
/-- The body at any point: the inputs' memrefs hold their blocks; the closed forms say which case the point is in; the
    invariant hands the body the scratch at what the point before left (at anything at the very first point) and takes it back
    at this point's contents; the other scoped buffers and the generator register pass through; the core owes nothing. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 56 := lt_of_lt_of_eq t.isLt (show cfg1.N = 56 from N_1)
  by_cases h0 : t.val % 28 = 0
  · have h1 : ¬ t.val % 28 = 27 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS_castSucc V c t, PhiS_zero V c _ _ hz, PhiA1_eq]
      iintro ⟨⟨⟨HO, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg HO]
      · isplitr [Hg]
        · isplitl [HO]; · iexact HO
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HO, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg HO]
      · isplitr [Hg]
        · isplitl [HO]; · iexact HO
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 28 = 27
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS_castSucc V c t, PhiS_pos V c _ _ hz]
      iintro ⟨⟨⟨HO, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg HO]
      · isplitr [Hg]
        · isplitl [HO]; · iexact HO
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS_castSucc V c t, PhiS_pos V c _ _ hz]
      iintro ⟨⟨⟨HO, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg HO]
      · isplitr [Hg]
        · isplitl [HO]; · iexact HO
          unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back: the scratch's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 56 := N_1; omega), PhiA1_eq]
  iintro ⟨⟨HO, HS0⟩, Hg⟩
  isplitl [HS0 HO]
  · isplitl [HO]; · iexact HO
    iexists _; iexact HS0
  iexact Hg

end

end Cert.Kernel.Hand

end
-- ==== Proof.RunBits.lean ====
/-
  The whole program as three segments — the host operations, the first pallas_call, the second — run from the launch to
  the return: every weakly fair execution terminates, faults nowhere, and ends with every unscoped buffer at the contents a
  fold through the segments names: the launch memory, then the host operations' results, then each call's output array at
  what its pipeline's write-backs leave (the other buffers as they were).
-/
import proofs.«122006_j42176578847199_2_alg».proof.Proof.Stage1Bits
import proofs.«122006_j42176578847199_2_alg».proof.Proof.Stage2Bits
import proofs.«122006_j42176578847199_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at each segment boundary -/

/-- Core `c`'s buffers at launch. -/
abbrev U0 : Dev nD → Valuation τ sig (Elt F) := fun c b => m (c, b)
/-- After the host operations (the first call's entry). -/
abbrev U1 : Dev nD → Valuation τ sig (Elt F) := fun c => StableHlo.after hostOps0 (U0 m c)
/-- The same read at the TensorCore's references. -/
abbrev E1 : (c : Dev nD) → (b : Ref sig .tc) → Buf (Elt F) ((c : Thread nD τ).loc b) := fun c b => U1 m c b
/-- At the first call's exit: its arrays at what the pipeline leaves, every other buffer as entered. -/
def U2 (c : Dev nD) : Valuation τ sig (Elt F) :=
  Pipeline.withArrays spec0 c (U1 m c) fun w => (dat0 (E1 m) c).arrAt w cfg0.N
theorem U2_arr (c : Dev nD) (w : Fin cfg0.W) :
    U2 m c (Proc.devRef .tc (Pipeline.arrRef spec0 w)) = (dat0 (E1 m) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m c (Proc.devRef .tc b) = U1 m c (Proc.devRef .tc b) := by
  unfold U2; exact Pipeline.withArrays_of_ne spec0 c _ _ b hb
abbrev E2 : (c : Dev nD) → (b : Ref sig .tc) → Buf (Elt F) ((c : Thread nD τ).loc b) := fun c b => U2 m c b
theorem hF0 (c : Dev nD) (w : Fin cfg0.W) : (dat0 (E1 m) c).arrAt w cfg0.N = E2 m c (Pipeline.arrRef spec0 w) :=
  (U2_arr m c w).symm
theorem hrest0 (c : Dev nD) : ∀ b, b ∉ Finset.univ.image (Pipeline.arrRef spec0) → E2 m c b = E1 m c b :=
  fun b hb => U2_of_ne m c b fun w e => hb (Finset.mem_image.mpr ⟨w, Finset.mem_univ _, e⟩)
/-- At the second call's exit, likewise. -/
def U3 (c : Dev nD) : Valuation τ sig (Elt F) :=
  Pipeline.withArrays spec1 c (U2 m c) fun w => (dat1 (E2 m) c).arrAt w cfg1.N
theorem U3_arr (c : Dev nD) (w : Fin cfg1.W) :
    U3 m c (Proc.devRef .tc (Pipeline.arrRef spec1 w)) = (dat1 (E2 m) c).arrAt w cfg1.N := by
  unfold U3; exact Pipeline.withArrays_arr spec1 launch1.win.arr_inj c _ _ w
theorem U3_of_ne (c : Dev nD) (b : Ref sig .tc) (hb : ∀ w, Pipeline.arrRef spec1 w ≠ b) :
    U3 m c (Proc.devRef .tc b) = U2 m c (Proc.devRef .tc b) := by
  unfold U3; exact Pipeline.withArrays_of_ne spec1 c _ _ b hb
abbrev E3 : (c : Dev nD) → (b : Ref sig .tc) → Buf (Elt F) ((c : Thread nD τ).loc b) := fun c b => U3 m c b
theorem hF1 (c : Dev nD) (w : Fin cfg1.W) : (dat1 (E2 m) c).arrAt w cfg1.N = E3 m c (Pipeline.arrRef spec1 w) :=
  (U3_arr m c w).symm
theorem hrest1 (c : Dev nD) : ∀ b, b ∉ Finset.univ.image (Pipeline.arrRef spec1) → E3 m c b = E2 m c b :=
  fun b hb => U3_of_ne m c b fun w e => hb (Finset.mem_image.mpr ⟨w, Finset.mem_univ _, e⟩)

/-! ### The arguments end as launched: no host operation writes one and neither call has one as an output -/

theorem U3_main_arg0 (c : Dev nD) : U3 m c (Proc.devRef .tc main_arg0) = m ((c : Thread nD τ).loc main_arg0) :=
  (U3_of_ne m c main_arg0 (by decide)).trans <| (U2_of_ne m c main_arg0 (by decide)).trans <| (Gen.V1_of m c main_arg0 (by decide)).trans rfl
theorem U3_main_arg1 (c : Dev nD) : U3 m c (Proc.devRef .tc main_arg1) = m ((c : Thread nD τ).loc main_arg1) :=
  (U3_of_ne m c main_arg1 (by decide)).trans <| (U2_of_ne m c main_arg1 (by decide)).trans <| (Gen.V1_of m c main_arg1 (by decide)).trans rfl
theorem U3_main_arg2 (c : Dev nD) : U3 m c (Proc.devRef .tc main_arg2) = m ((c : Thread nD τ).loc main_arg2) :=
  (U3_of_ne m c main_arg2 (by decide)).trans <| (U2_of_ne m c main_arg2 (by decide)).trans <| (Gen.V1_of m c main_arg2 (by decide)).trans rfl
theorem U3_main_arg3 (c : Dev nD) : U3 m c (Proc.devRef .tc main_arg3) = m ((c : Thread nD τ).loc main_arg3) :=
  (U3_of_ne m c main_arg3 (by decide)).trans <| (U2_of_ne m c main_arg3 (by decide)).trans <| (Gen.V1_of m c main_arg3 (by decide)).trans rfl
theorem U3_main_arg4 (c : Dev nD) : U3 m c (Proc.devRef .tc main_arg4) = m ((c : Thread nD τ).loc main_arg4) :=
  (U3_of_ne m c main_arg4 (by decide)).trans <| (U2_of_ne m c main_arg4 (by decide)).trans <| (Gen.V1_of m c main_arg4 (by decide)).trans rfl
theorem U3_main_arg5 (c : Dev nD) : U3 m c (Proc.devRef .tc main_arg5) = m ((c : Thread nD τ).loc main_arg5) :=
  (U3_of_ne m c main_arg5 (by decide)).trans <| (U2_of_ne m c main_arg5 (by decide)).trans <| (Gen.V1_of m c main_arg5 (by decide)).trans rfl
theorem U3_main_arg6 (c : Dev nD) : U3 m c (Proc.devRef .tc main_arg6) = m ((c : Thread nD τ).loc main_arg6) :=
  (U3_of_ne m c main_arg6 (by decide)).trans <| (U2_of_ne m c main_arg6 (by decide)).trans <| (Gen.V1_of m c main_arg6 (by decide)).trans rfl
theorem U3_main_arg7 (c : Dev nD) : U3 m c (Proc.devRef .tc main_arg7) = m ((c : Thread nD τ).loc main_arg7) :=
  (U3_of_ne m c main_arg7 (by decide)).trans <| (U2_of_ne m c main_arg7 (by decide)).trans <| (Gen.V1_of m c main_arg7 (by decide)).trans rfl
theorem U3_main_arg8 (c : Dev nD) : U3 m c (Proc.devRef .tc main_arg8) = m ((c : Thread nD τ).loc main_arg8) :=
  (U3_of_ne m c main_arg8 (by decide)).trans <| (U2_of_ne m c main_arg8 (by decide)).trans <| (Gen.V1_of m c main_arg8 (by decide)).trans rfl
theorem U3_main_arg9 (c : Dev nD) : U3 m c (Proc.devRef .tc main_arg9) = m ((c : Thread nD τ).loc main_arg9) :=
  (U3_of_ne m c main_arg9 (by decide)).trans <| (U2_of_ne m c main_arg9 (by decide)).trans <| (Gen.V1_of m c main_arg9 (by decide)).trans rfl
theorem U3_main_arg10 (c : Dev nD) : U3 m c (Proc.devRef .tc main_arg10) = m ((c : Thread nD τ).loc main_arg10) :=
  (U3_of_ne m c main_arg10 (by decide)).trans <| (U2_of_ne m c main_arg10 (by decide)).trans <| (Gen.V1_of m c main_arg10 (by decide)).trans rfl
theorem U3_main_arg11 (c : Dev nD) : U3 m c (Proc.devRef .tc main_arg11) = m ((c : Thread nD τ).loc main_arg11) :=
  (U3_of_ne m c main_arg11 (by decide)).trans <| (U2_of_ne m c main_arg11 (by decide)).trans <| (Gen.V1_of m c main_arg11 (by decide)).trans rfl
theorem U3_main_arg12 (c : Dev nD) : U3 m c (Proc.devRef .tc main_arg12) = m ((c : Thread nD τ).loc main_arg12) :=
  (U3_of_ne m c main_arg12 (by decide)).trans <| (U2_of_ne m c main_arg12 (by decide)).trans <| (Gen.V1_of m c main_arg12 (by decide)).trans rfl

/-- The program's result is the second call's output array after its last write-back. -/
theorem U3_result (c : Dev nD) : U3 m c (Proc.devRef .tc main_v43) = (dat1 (E2 m) c).arrAt 3 cfg1.N :=
  U3_arr m c 3

/-! ## The proof data family and the thread state -/

abbrev admH : (p : Fin 2) → (pcfgs (F := F) p).Adm := fun p => (cfgs p).toPCfg_adm
/-- Every pipeline's proof data, each at its region's entry contents. -/
def pdatsH : (p : Fin 2) → (c : Dev nD) → Dat τ (Elt F) Unit ℕ (UR sig nD τ) ℕ (Pipeline.pin (pcfgs (F := F)) admH p) c
  | ⟨0, _⟩ => fun c => dat0 (E1 m) c
  | ⟨1, _⟩ => fun c => dat1 (E2 m) c
abbrev 𝒱H : Variants := Variants.none
abbrev LH : GSem nD τ sig → Finset Unit := fun _ => ∅
abbrev lvH : GSem nD τ sig → Unit → ℕ := fun _ _ => 0
/-- What rides beside the buffers through every segment: the generator register at some state and the core's `owes`, at nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (U3 m c) ∗ ∃ r, prngReg c r)

/-! ## The calls as segments -/

set_option backward.isDefEq.respectTransparency.types false in
/-- The first call over the thread state: entered from every unscoped buffer at `U1`, left at `U2`. -/
def reg0H : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LH lvH 0 fun _ _ => rfl
  pre c := iprop(StableHlo.held (c : Thread nD τ) (Pipeline.ucRefs τ sig) (U1 m c) ∗ RH c)
  post c := iprop(StableHlo.held (c : Thread nD τ) (Pipeline.ucRefs τ sig) (U2 m c) ∗ RH c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (E1 m c) (E2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at `U2`, left at `U3`. Its invariant is
    entered with the scoped rest and gives it back, the scratch's named contents forgotten. -/
def reg1H : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ LH lvH 1 fun _ _ => rfl
  pre c := iprop(StableHlo.held (c : Thread nD τ) (Pipeline.ucRefs τ sig) (U2 m c) ∗ RH c)
  post c := iprop(TnH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdatsH m 1 c).Φ (Fin.last _) ⊢ Pipeline.ΦA spec1 c from hout1 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (E2 m c) (E3 m c) ((pdatsH m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsH : List (Pipeline.Seg (pcfgs (F := F)) admH (pdatsH m) () defs₀ 𝒱H LH lvH) :=
  [ .host (hsegH hostOps0 hostOps0_sub Gen.hostOps0_fresh (U0 m)),
    .region (reg0H m),
    .region (reg1H m) ]
theorem main_runH (c : Dev nD) : main (F := F) c = Pipeline.Seg.run (segsH m) := (main_chain c).trans (by chain_rfl)

set_option backward.isDefEq.respectTransparency.types false in
/-- THE RUN: from any memory with zero counters every weakly fair execution of the program on the TensorCores terminates,
    nothing faulting, and every final state has every unscoped buffer at `U3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U3 m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ RH c)) (Tₙ := TnH m)
    (hch := ⟨fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U3 m c b)
    (hfin := fun c s' => by
      iintro ⟨⟨Hh, -⟩, HSI⟩
      unfold StableHlo.held
      imodintro
      iapply (pointsTo_read_all (Pipeline.ucRefs τ sig) (fun b => (((c : Thread nD τ)).1, b)) (U3 m c) s')
      isplitl [Hh] <;> iassumption)
    (hQ := fun s h => h)

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (U3_main_arg0 m c),
      (h c _ (mem_uc main_arg1 (by decide))).trans (U3_main_arg1 m c),
      (h c _ (mem_uc main_arg2 (by decide))).trans (U3_main_arg2 m c),
      (h c _ (mem_uc main_arg3 (by decide))).trans (U3_main_arg3 m c),
      (h c _ (mem_uc main_arg4 (by decide))).trans (U3_main_arg4 m c),
      (h c _ (mem_uc main_arg5 (by decide))).trans (U3_main_arg5 m c),
      (h c _ (mem_uc main_arg6 (by decide))).trans (U3_main_arg6 m c),
      (h c _ (mem_uc main_arg7 (by decide))).trans (U3_main_arg7 m c),
      (h c _ (mem_uc main_arg8 (by decide))).trans (U3_main_arg8 m c),
      (h c _ (mem_uc main_arg9 (by decide))).trans (U3_main_arg9 m c),
      (h c _ (mem_uc main_arg10 (by decide))).trans (U3_main_arg10 m c),
      (h c _ (mem_uc main_arg11 (by decide))).trans (U3_main_arg11 m c),
      (h c _ (mem_uc main_arg12 (by decide))).trans (U3_main_arg12 m c)⟩) (run_all m ρ)

/-- The same run with the result named: the second call's output array after its last write-back. -/
theorem run_value : θ_run defs (onTc (τ := τ) (main (F := F))) ⟨m, fun _ => 0, ρ⟩ (fun r => ∀ c : Dev nD,
      r.2.mem ((c.tc : Thread nD τ).loc main_v43) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v43 (by decide))).trans (U3_result m c),
      (h c _ (mem_uc main_arg0 (by decide))).trans (U3_main_arg0 m c),
      (h c _ (mem_uc main_arg1 (by decide))).trans (U3_main_arg1 m c),
      (h c _ (mem_uc main_arg2 (by decide))).trans (U3_main_arg2 m c),
      (h c _ (mem_uc main_arg3 (by decide))).trans (U3_main_arg3 m c),
      (h c _ (mem_uc main_arg4 (by decide))).trans (U3_main_arg4 m c),
      (h c _ (mem_uc main_arg5 (by decide))).trans (U3_main_arg5 m c),
      (h c _ (mem_uc main_arg6 (by decide))).trans (U3_main_arg6 m c),
      (h c _ (mem_uc main_arg7 (by decide))).trans (U3_main_arg7 m c),
      (h c _ (mem_uc main_arg8 (by decide))).trans (U3_main_arg8 m c),
      (h c _ (mem_uc main_arg9 (by decide))).trans (U3_main_arg9 m c),
      (h c _ (mem_uc main_arg10 (by decide))).trans (U3_main_arg10 m c),
      (h c _ (mem_uc main_arg11 (by decide))).trans (U3_main_arg11 m c),
      (h c _ (mem_uc main_arg12 (by decide))).trans (U3_main_arg12 m c)⟩) (run_all m ρ)

/-- What the second call is entered with: the first call's output array is what its pipeline left; the arrays the host
    operations wrote are as those left them. -/
theorem E2_v42 (c : Dev nD) : E2 m c main_v42 = (dat0 (E1 m) c).arrAt 7 cfg0.N := U2_arr m c 7
theorem E2_v29 (c : Dev nD) : E2 m c main_v29 = E1 m c main_v29 := U2_of_ne m c main_v29 (by decide)
theorem E2_v41 (c : Dev nD) : E2 m c main_v41 = E1 m c main_v41 := U2_of_ne m c main_v41 (by decide)

end Cert.Kernel.Hand

end
-- ==== Proof.Stage1Ideal.lean ====
/-
  The first pallas_call (the gate/up projection) as a pipeline whose body is run once: at every one of its 28 grid points
  the body loads its seven input blocks whole, computes one payload and stores it whole into the output block, keeping
  nothing between points. Stated at a PARAMETER `V`, the buffer contents when the region is entered:
  each window's block at a point, what the body leaves in the output block as a function of the input blocks,
  the body's triple, the pipeline's proof data and the body obligation.
-/
import proofs.«122006_j42176578847199_2_alg».proof.Proof.Gen.KernelIdeal.Launch
import proofs.«122006_j42176578847199_2_alg».proof.Proof.Gen.KernelIdeal.Skeleton
import proofs.«122006_j42176578847199_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's accesses: every load and the one store take a whole buffer -/

abbrev rA : Rect S64x4096 := Rect.unit (s := S64x4096) ![0, 0] S64x4096.size inb_S64x4096_S64x4096_0_0
abbrev rB : Rect S512x4096 := Rect.unit (s := S512x4096) ![0, 0] S512x4096.size inb_S512x4096_S512x4096_0_0
abbrev rC : Rect S1x512 := Rect.unit (s := S1x512) ![0, 0] S1x512.size inb_S1x512_S1x512_0_0
abbrev rO : Rect S64x512 := Rect.unit (s := S64x512) ![0, 0] S64x512.size inb_S64x512_S64x512_0_0

/-- The output block after the body, from the seven input blocks: its one store as a piece. -/
def out0_7 (x0 : Vec F S64x4096 .bf16) (x1 : Vec F S64x4096 .bf16) (x2 : Vec F S512x4096 .bf16) (x3 : Vec F S512x4096 .bf16) (x4 : Vec F S1x512 .f32) (x5 : Vec F S1x512 .f32) (x6 : Vec F S1x512 .f32) : Vec F S64x512 .bf16 :=
  View.canon [⟨rO, k0_pay1 (View.ld x0 rA) (View.ld x1 rA) (View.ld x2 rB) (View.ld x3 rB) (View.ld x4 rC) (View.ld x5 rC) (View.ld x6 rC)⟩]

/-- The one store covers the block. -/
theorem cover0_7 (p0 : Vec F S64x512 .bf16) (y : S64x512.Idx) :
    ∃ pc ∈ ([⟨rO, p0⟩] : List (View.Piece (Elt F) S64x512 .bf16)), y ∈ pc.1.set :=
  View.cover_of_tiled [⟨rO, p0⟩] S64x512.size (by rfl) y

set_option maxHeartbeats 4000000 in
/-- The body on whole staging memrefs, the inputs' at contents `xK` and the output's at anything, runs to the
    continuation holding the inputs' as they were and the output's at `out0_7` of the inputs'. -/
theorem sound_kernel0 (c : Dev nD) (E : Set ℕ) (i : grid0.Coords) (arg1 : Memref sig .tc .vmem S64x4096 .bf16) (harg1 : arg1.IsWhole) (arg2 : Memref sig .tc .vmem S64x4096 .bf16) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S64x512 .bf16) (harg8 : arg8.IsWhole)
    (x0 : Vec F S64x4096 .bf16) (x1 : Vec F S64x4096 .bf16) (x2 : Vec F S512x4096 .bf16) (x3 : Vec F S512x4096 .bf16) (x4 : Vec F S1x512 .f32) (x5 : Vec F S1x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

section
variable (V : (c : Dev nD) → (b : Ref sig .tc) → Buf (Elt F) ((c : Thread nD τ).loc b))

/-- The proof data of the first pipeline on core `c`: the arrays as the region finds them; after the body at point `t`
    each input's buffer at its block and the output's at `out0_7` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 2000000 in
/-- The body at any point: the inputs' memrefs hold their blocks, so `sound_kernel0` applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.Stage2Ideal.lean ====
/-
  The second pallas_call (the down projection) as a pipeline whose body has three cases. Its grid is 2 × 28: the outer
  coordinate picks a half of the output columns, the inner one walks the 28 blocks of the contracted axis. The body keeps a
  running sum in a scratch buffer that lives across grid points: at the first inner step it clears the scratch, at every step
  it adds one block product to it, and at the last inner step it multiplies the finished sum by the row signs and stores the
  output block (which is written back only there). So the cases are: first inner step (clear, add), a middle step (add),
  the last step (add, store the output). Stated at a PARAMETER `V`, the buffer contents when the region is entered: what the
  scratch and the output block hold after every point, by recursion on the point; the invariant that carries the scratch from
  one point to the next; the proof data; the body obligation.
-/
import proofs.«122006_j42176578847199_2_alg».proof.Proof.Gen.KernelIdeal.Launch
import proofs.«122006_j42176578847199_2_alg».proof.Proof.Gen.KernelIdeal.Skeleton
import proofs.«122006_j42176578847199_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions, in closed form over the grid -/

/-- "This is the first inner step": the inner coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 28 = 0 :=
  (by decide +kernel : ∀ t : Fin grid1.N, cond1_0 (grid1.coords t) ↔ t.val % 28 = 0)
/-- "This is the last inner step": the inner coordinate is 27. -/
abbrev cond1_1 (i : grid1.Coords) : Prop := k1_cond2 i = 1#1
theorem hcond1_1 : ∀ t : Fin cfg1.N, cond1_1 (grid1.coords t) ↔ t.val % 28 = 27 :=
  (by decide +kernel : ∀ t : Fin grid1.N, cond1_1 (grid1.coords t) ↔ t.val % 28 = 27)

/-! ## Where the windows are idle: the inputs never, the output everywhere but at the last inner step -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S64x2048 .f32 := (Memref.whole cc1_stg3_0 : Memref sig .tc .vmem S64x2048 .f32).view
abbrev ms1_0 (t : Fin cfg1.N) : Memref sig .tc .vmem S64x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x2048 .f32 := win1_3.stage (cfg1.slots t 3)
abbrev hs1_3 (t : Fin cfg1.N) : (ms1_3 t).IsWhole := hstage1_3 ((cfg1.slots t 3).cast nbuf1_3)
/-- The running sum's scratch buffer, whole, and as a view. -/
abbrev scM1 : Memref sig .tc .vmem S64x2048 .f32 := Memref.whole cc1_scratch0
abbrev VS1 : View sig .tc .vmem S64x2048 .f32 := scM1.view

/-- The core's scoped buffers other than the second call's staging buffers and the scratch: the first call's staging
    buffers, each whole at some contents. The second call never touches them. -/
def Others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- The second call's scoped rest is those buffers and the scratch. -/
theorem PhiA1_eq (c : Dev nD) :
    (Pipeline.ΦA spec1 c : sProp 𝕄) = iprop(iprop(Others c ∗ (∃ d, owns (c : Thread nD τ) scM1 fullShare d)) ∗ (∃ r, prngReg c r)) := by
  have h₁ : (iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc1_scratch0), ((c : Thread nD τ).loc cc1_scratch0) ↦{fullShare} f)) : sProp 𝕄) ⊢ iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f)) ∗ (∃ f : Buf (Elt F) ((c : Thread nD τ).loc cc1_scratch0), ((c : Thread nD τ).loc cc1_scratch0) ↦{fullShare} f)) := by
    iintro ⟨HB0, HB1, HB2, HB3, HB4, HB5, HB6, HB7, HB8, HB9, HB10, HB11, HB12, HB13, HS⟩
    isplitr [HS]
    · isplitl [HB0]; · iexact HB0
      isplitl [HB1]; · iexact HB1
      isplitl [HB2]; · iexact HB2
      isplitl [HB3]; · iexact HB3
      isplitl [HB4]; · iexact HB4
      isplitl [HB5]; · iexact HB5
      isplitl [HB6]; · iexact HB6
      isplitl [HB7]; · iexact HB7
      isplitl [HB8]; · iexact HB8
      isplitl [HB9]; · iexact HB9
      isplitl [HB10]; · iexact HB10
      isplitl [HB11]; · iexact HB11
      isplitl [HB12]; · iexact HB12
      iexact HB13
    iexact HS
  have h₂ : (iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f)) ∗ (∃ f : Buf (Elt F) ((c : Thread nD τ).loc cc1_scratch0), ((c : Thread nD τ).loc cc1_scratch0) ↦{fullShare} f)) : sProp 𝕄) ⊢ iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc1_scratch0), ((c : Thread nD τ).loc cc1_scratch0) ↦{fullShare} f)) := by
    iintro ⟨⟨HB0, HB1, HB2, HB3, HB4, HB5, HB6, HB7, HB8, HB9, HB10, HB11, HB12, HB13⟩, HS⟩
    isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    isplitl [HB8]; · iexact HB8
    isplitl [HB9]; · iexact HB9
    isplitl [HB10]; · iexact HB10
    isplitl [HB11]; · iexact HB11
    isplitl [HB12]; · iexact HB12
    isplitl [HB13]; · iexact HB13
    iexact HS
  unfold Pipeline.ΦA; rw [scopedRest1_eq]; unfold Others; simp only [scM1, owns_whole]
  exact congrArg (fun P => iprop(P ∗ (∃ r, prngReg c r))) (BI.equiv_iff.mp ⟨h₁, h₂⟩)

/-! ## The body on any staging memrefs, case by case: the pieces each buffer ends with are found by the run -/

set_option maxHeartbeats 4000000 in
/-- FIRST INNER STEP: the scratch at anything, the idle output handed back untouched. -/
noncomputable def kernelRun1_A (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : cond1_0 i) (hc1 : ¬cond1_1 i)
    (x0 : Vec F S64x512 .bf16) (x1 : Vec F S2048x512 .bf16) (x2 : Vec F S1x2048 .f32) :
    Σ' (L3 : List (View.Piece (Elt F) S64x2048 .f32)), { LS0 : List (View.Piece (Elt F) S64x2048 .f32) //
      ∀ (xi3 : Vec F S64x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__stage2_kernel i arg2 harg2 arg3 harg3 arg4 harg4 arg5 harg5 arg6 harg6) K } := by
  refine ⟨[], ?_, fun xi3 E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- A MIDDLE STEP: the scratch at what the step before left, the idle output handed back untouched. -/
noncomputable def kernelRun1_B (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond1_0 i) (hc1 : ¬cond1_1 i)
    (x0 : Vec F S64x512 .bf16) (x1 : Vec F S2048x512 .bf16) (x2 : Vec F S1x2048 .f32) (xs0 : Vec F S64x2048 .f32) :
    Σ' (L3 : List (View.Piece (Elt F) S64x2048 .f32)), { LS0 : List (View.Piece (Elt F) S64x2048 .f32) //
      ∀ (xi3 : Vec F S64x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__stage2_kernel i arg2 harg2 arg3 harg3 arg4 harg4 arg5 harg5 arg6 harg6) K } := by
  refine ⟨[], ?_, fun xi3 E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- THE LAST INNER STEP: the scratch at what the step before left, the output stored. -/
noncomputable def kernelRun1_C (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond1_0 i) (hc1 : cond1_1 i)
    (x0 : Vec F S64x512 .bf16) (x1 : Vec F S2048x512 .bf16) (x2 : Vec F S1x2048 .f32) (xs0 : Vec F S64x2048 .f32) :
    Σ' (L3 : List (View.Piece (Elt F) S64x2048 .f32)), { LS0 : List (View.Piece (Elt F) S64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__stage2_kernel i arg2 harg2 arg3 harg3 arg4 harg4 arg5 harg5 arg6 harg6) K } := by
  refine ⟨?_, ?_, fun E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## What each case leaves: its pieces read back -/

/-- Case A's pieces for the scratch cover it. -/
theorem scover1_A (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : cond1_0 i) (hc1 : ¬cond1_1 i)
    (x0 : Vec F S64x512 .bf16) (x1 : Vec F S2048x512 .bf16) (x2 : Vec F S1x2048 .f32) (y : S64x2048.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S64x2048.size (by sl_kernel_rfl) y

/-- What case A leaves in the scratch. -/
def sout1_A (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : cond1_0 i) (hc1 : ¬cond1_1 i)
    (x0 : Vec F S64x512 .bf16) (x1 : Vec F S2048x512 .bf16) (x2 : Vec F S1x2048 .f32) : Vec F S64x2048 .f32 :=
  VS1.read (Elt F) (VS1.writes (Elt F) VS1.junk (kernelRun1_A c i arg2 harg2 arg3 harg3 arg4 harg4 arg5 harg5 arg6 harg6 hc0 hc1 x0 x1 x2).2.1)

/-- What case A leaves in the output block (nothing: a placeholder nobody reads, the window being idle there). -/
def out1_A (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : cond1_0 i) (hc1 : ¬cond1_1 i)
    (x0 : Vec F S64x512 .bf16) (x1 : Vec F S2048x512 .bf16) (x2 : Vec F S1x2048 .f32) : Vec F S64x2048 .f32 :=
  VO1_3.read (Elt F) (VO1_3.writes (Elt F) VO1_3.junk (kernelRun1_A c i arg2 harg2 arg3 harg3 arg4 harg4 arg5 harg5 arg6 harg6 hc0 hc1 x0 x1 x2).1)

/-- Case B's pieces for the scratch cover it. -/
theorem scover1_B (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond1_0 i) (hc1 : ¬cond1_1 i)
    (x0 : Vec F S64x512 .bf16) (x1 : Vec F S2048x512 .bf16) (x2 : Vec F S1x2048 .f32) (xs0 : Vec F S64x2048 .f32) (y : S64x2048.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S64x2048.size (by sl_kernel_rfl) y

/-- What case B leaves in the scratch. -/
def sout1_B (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond1_0 i) (hc1 : ¬cond1_1 i)
    (x0 : Vec F S64x512 .bf16) (x1 : Vec F S2048x512 .bf16) (x2 : Vec F S1x2048 .f32) (xs0 : Vec F S64x2048 .f32) : Vec F S64x2048 .f32 :=
  VS1.read (Elt F) (VS1.writes (Elt F) VS1.junk (kernelRun1_B c i arg2 harg2 arg3 harg3 arg4 harg4 arg5 harg5 arg6 harg6 hc0 hc1 x0 x1 x2 xs0).2.1)

/-- What case B leaves in the output block (nothing: a placeholder nobody reads, the window being idle there). -/
def out1_B (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond1_0 i) (hc1 : ¬cond1_1 i)
    (x0 : Vec F S64x512 .bf16) (x1 : Vec F S2048x512 .bf16) (x2 : Vec F S1x2048 .f32) (xs0 : Vec F S64x2048 .f32) : Vec F S64x2048 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case C's pieces for the scratch cover it. -/
theorem scover1_C (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond1_0 i) (hc1 : cond1_1 i)
    (x0 : Vec F S64x512 .bf16) (x1 : Vec F S2048x512 .bf16) (x2 : Vec F S1x2048 .f32) (xs0 : Vec F S64x2048 .f32) (y : S64x2048.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S64x2048.size (by sl_kernel_rfl) y

/-- What case C leaves in the scratch. -/
def sout1_C (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond1_0 i) (hc1 : cond1_1 i)
    (x0 : Vec F S64x512 .bf16) (x1 : Vec F S2048x512 .bf16) (x2 : Vec F S1x2048 .f32) (xs0 : Vec F S64x2048 .f32) : Vec F S64x2048 .f32 :=
  VS1.read (Elt F) (VS1.writes (Elt F) VS1.junk (kernelRun1_C c i arg2 harg2 arg3 harg3 arg4 harg4 arg5 harg5 arg6 harg6 hc0 hc1 x0 x1 x2 xs0).2.1)

/-- Case C's one store covers the output block. -/
theorem cover1_C (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond1_0 i) (hc1 : cond1_1 i)
    (x0 : Vec F S64x512 .bf16) (x1 : Vec F S2048x512 .bf16) (x2 : Vec F S1x2048 .f32) (xs0 : Vec F S64x2048 .f32) (y : S64x2048.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S64x2048.size (by sl_kernel_rfl) y

/-- What case C leaves in the output block. -/
def out1_C (c : Dev nD) (i : grid1.Coords) (arg2 : Memref sig .tc .vmem S64x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬cond1_0 i) (hc1 : cond1_1 i)
    (x0 : Vec F S64x512 .bf16) (x1 : Vec F S2048x512 .bf16) (x2 : Vec F S1x2048 .f32) (xs0 : Vec F S64x2048 .f32) : Vec F S64x2048 .f32 :=
  VO1_3.read (Elt F) (VO1_3.writes (Elt F) VO1_3.junk (kernelRun1_C c i arg2 harg2 arg3 harg3 arg4 harg4 arg5 harg5 arg6 harg6 hc0 hc1 x0 x1 x2 xs0).1)

section
variable (V : (c : Dev nD) → (b : Ref sig .tc) → Buf (Elt F) ((c : Thread nD τ).loc b))

/-! ## The accumulation, point by point -/

/-- What the output block and the scratch hold after the body at position `n`: the case the closed forms select there, run at
    the point's memrefs and input blocks, the scratch at what position `n - 1` left. -/
def outsAt1 (c : Dev nD) : (n : ℕ) → n < cfg1.N → Vec F S64x2048 .f32 × Vec F S64x2048 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 28 = 0 then
      if h1 : (n + 1) % 28 = 27 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
          sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 28 = 27 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
          sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2,
          sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 28 = 0) (h1 : ¬t.val % 28 = 27) :
    outsAt1 V c t.val t.isLt = (out1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t),
      sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 28 = 0) (h1 : ¬t.val % 28 = 27) :
    outsAt1 V c t.val t.isLt = (out1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 28 = 0) (h1 : t.val % 28 = 27) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scoped buffer at anything; afterwards the
    scratch at what the point before left in it, the other scoped buffers at anything, and the generator register at some state. -/
def PhiS (c : Dev nD) : (n : ℕ) → n ≤ cfg1.N → sProp 𝕄
  | 0, _ => Pipeline.ΦA spec1 c
  | n + 1, hn => iprop(iprop(Others c ∗ owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(Others c ∗ owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(iprop(Others c ∗ owns (c : Thread nD τ) scM1 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 8000000 in
/-- The body at any point: the inputs' memrefs hold their blocks; the closed forms say which case the point is in; the
    invariant hands the body the scratch at what the point before left (at anything at the very first point) and takes it back
    at this point's contents; the other scoped buffers and the generator register pass through; the core owes nothing. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 56 := lt_of_lt_of_eq t.isLt (show cfg1.N = 56 from N_1)
  by_cases h0 : t.val % 28 = 0
  · have h1 : ¬ t.val % 28 = 27 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS_castSucc V c t, PhiS_zero V c _ _ hz, PhiA1_eq]
      iintro ⟨⟨⟨HO, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg HO]
      · isplitr [Hg]
        · isplitl [HO]; · iexact HO
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HO, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg HO]
      · isplitr [Hg]
        · isplitl [HO]; · iexact HO
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 28 = 27
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS_castSucc V c t, PhiS_pos V c _ _ hz]
      iintro ⟨⟨⟨HO, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg HO]
      · isplitr [Hg]
        · isplitl [HO]; · iexact HO
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS_castSucc V c t, PhiS_pos V c _ _ hz]
      iintro ⟨⟨⟨HO, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg HO]
      · isplitr [Hg]
        · isplitl [HO]; · iexact HO
          unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back: the scratch's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 56 := N_1; omega), PhiA1_eq]
  iintro ⟨⟨HO, HS0⟩, Hg⟩
  isplitl [HS0 HO]
  · isplitl [HO]; · iexact HO
    iexists _; iexact HS0
  iexact Hg

end

end Cert.KernelIdeal.Hand

end
-- ==== Proof.RunIdeal.lean ====
/-
  The whole program as three segments — the host operations, the first pallas_call, the second — run from the launch to
  the return: every weakly fair execution terminates, faults nowhere, and ends with every unscoped buffer at the contents a
  fold through the segments names: the launch memory, then the host operations' results, then each call's output array at
  what its pipeline's write-backs leave (the other buffers as they were).
-/
import proofs.«122006_j42176578847199_2_alg».proof.Proof.Stage1Ideal
import proofs.«122006_j42176578847199_2_alg».proof.Proof.Stage2Ideal
import proofs.«122006_j42176578847199_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at each segment boundary -/

/-- Core `c`'s buffers at launch. -/
abbrev U0 : Dev nD → Valuation τ sig (Elt F) := fun c b => m (c, b)
/-- After the host operations (the first call's entry). -/
abbrev U1 : Dev nD → Valuation τ sig (Elt F) := fun c => StableHlo.after hostOps0 (U0 m c)
/-- The same read at the TensorCore's references. -/
abbrev E1 : (c : Dev nD) → (b : Ref sig .tc) → Buf (Elt F) ((c : Thread nD τ).loc b) := fun c b => U1 m c b
/-- At the first call's exit: its arrays at what the pipeline leaves, every other buffer as entered. -/
def U2 (c : Dev nD) : Valuation τ sig (Elt F) :=
  Pipeline.withArrays spec0 c (U1 m c) fun w => (dat0 (E1 m) c).arrAt w cfg0.N
theorem U2_arr (c : Dev nD) (w : Fin cfg0.W) :
    U2 m c (Proc.devRef .tc (Pipeline.arrRef spec0 w)) = (dat0 (E1 m) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m c (Proc.devRef .tc b) = U1 m c (Proc.devRef .tc b) := by
  unfold U2; exact Pipeline.withArrays_of_ne spec0 c _ _ b hb
abbrev E2 : (c : Dev nD) → (b : Ref sig .tc) → Buf (Elt F) ((c : Thread nD τ).loc b) := fun c b => U2 m c b
theorem hF0 (c : Dev nD) (w : Fin cfg0.W) : (dat0 (E1 m) c).arrAt w cfg0.N = E2 m c (Pipeline.arrRef spec0 w) :=
  (U2_arr m c w).symm
theorem hrest0 (c : Dev nD) : ∀ b, b ∉ Finset.univ.image (Pipeline.arrRef spec0) → E2 m c b = E1 m c b :=
  fun b hb => U2_of_ne m c b fun w e => hb (Finset.mem_image.mpr ⟨w, Finset.mem_univ _, e⟩)
/-- At the second call's exit, likewise. -/
def U3 (c : Dev nD) : Valuation τ sig (Elt F) :=
  Pipeline.withArrays spec1 c (U2 m c) fun w => (dat1 (E2 m) c).arrAt w cfg1.N
theorem U3_arr (c : Dev nD) (w : Fin cfg1.W) :
    U3 m c (Proc.devRef .tc (Pipeline.arrRef spec1 w)) = (dat1 (E2 m) c).arrAt w cfg1.N := by
  unfold U3; exact Pipeline.withArrays_arr spec1 launch1.win.arr_inj c _ _ w
theorem U3_of_ne (c : Dev nD) (b : Ref sig .tc) (hb : ∀ w, Pipeline.arrRef spec1 w ≠ b) :
    U3 m c (Proc.devRef .tc b) = U2 m c (Proc.devRef .tc b) := by
  unfold U3; exact Pipeline.withArrays_of_ne spec1 c _ _ b hb
abbrev E3 : (c : Dev nD) → (b : Ref sig .tc) → Buf (Elt F) ((c : Thread nD τ).loc b) := fun c b => U3 m c b
theorem hF1 (c : Dev nD) (w : Fin cfg1.W) : (dat1 (E2 m) c).arrAt w cfg1.N = E3 m c (Pipeline.arrRef spec1 w) :=
  (U3_arr m c w).symm
theorem hrest1 (c : Dev nD) : ∀ b, b ∉ Finset.univ.image (Pipeline.arrRef spec1) → E3 m c b = E2 m c b :=
  fun b hb => U3_of_ne m c b fun w e => hb (Finset.mem_image.mpr ⟨w, Finset.mem_univ _, e⟩)

/-! ### The arguments end as launched: no host operation writes one and neither call has one as an output -/

theorem U3_main_arg0 (c : Dev nD) : U3 m c (Proc.devRef .tc main_arg0) = m ((c : Thread nD τ).loc main_arg0) :=
  (U3_of_ne m c main_arg0 (by decide)).trans <| (U2_of_ne m c main_arg0 (by decide)).trans <| (Gen.V1_of m c main_arg0 (by decide)).trans rfl
theorem U3_main_arg1 (c : Dev nD) : U3 m c (Proc.devRef .tc main_arg1) = m ((c : Thread nD τ).loc main_arg1) :=
  (U3_of_ne m c main_arg1 (by decide)).trans <| (U2_of_ne m c main_arg1 (by decide)).trans <| (Gen.V1_of m c main_arg1 (by decide)).trans rfl
theorem U3_main_arg2 (c : Dev nD) : U3 m c (Proc.devRef .tc main_arg2) = m ((c : Thread nD τ).loc main_arg2) :=
  (U3_of_ne m c main_arg2 (by decide)).trans <| (U2_of_ne m c main_arg2 (by decide)).trans <| (Gen.V1_of m c main_arg2 (by decide)).trans rfl
theorem U3_main_arg3 (c : Dev nD) : U3 m c (Proc.devRef .tc main_arg3) = m ((c : Thread nD τ).loc main_arg3) :=
  (U3_of_ne m c main_arg3 (by decide)).trans <| (U2_of_ne m c main_arg3 (by decide)).trans <| (Gen.V1_of m c main_arg3 (by decide)).trans rfl
theorem U3_main_arg4 (c : Dev nD) : U3 m c (Proc.devRef .tc main_arg4) = m ((c : Thread nD τ).loc main_arg4) :=
  (U3_of_ne m c main_arg4 (by decide)).trans <| (U2_of_ne m c main_arg4 (by decide)).trans <| (Gen.V1_of m c main_arg4 (by decide)).trans rfl
theorem U3_main_arg5 (c : Dev nD) : U3 m c (Proc.devRef .tc main_arg5) = m ((c : Thread nD τ).loc main_arg5) :=
  (U3_of_ne m c main_arg5 (by decide)).trans <| (U2_of_ne m c main_arg5 (by decide)).trans <| (Gen.V1_of m c main_arg5 (by decide)).trans rfl
theorem U3_main_arg6 (c : Dev nD) : U3 m c (Proc.devRef .tc main_arg6) = m ((c : Thread nD τ).loc main_arg6) :=
  (U3_of_ne m c main_arg6 (by decide)).trans <| (U2_of_ne m c main_arg6 (by decide)).trans <| (Gen.V1_of m c main_arg6 (by decide)).trans rfl
theorem U3_main_arg7 (c : Dev nD) : U3 m c (Proc.devRef .tc main_arg7) = m ((c : Thread nD τ).loc main_arg7) :=
  (U3_of_ne m c main_arg7 (by decide)).trans <| (U2_of_ne m c main_arg7 (by decide)).trans <| (Gen.V1_of m c main_arg7 (by decide)).trans rfl
theorem U3_main_arg8 (c : Dev nD) : U3 m c (Proc.devRef .tc main_arg8) = m ((c : Thread nD τ).loc main_arg8) :=
  (U3_of_ne m c main_arg8 (by decide)).trans <| (U2_of_ne m c main_arg8 (by decide)).trans <| (Gen.V1_of m c main_arg8 (by decide)).trans rfl
theorem U3_main_arg9 (c : Dev nD) : U3 m c (Proc.devRef .tc main_arg9) = m ((c : Thread nD τ).loc main_arg9) :=
  (U3_of_ne m c main_arg9 (by decide)).trans <| (U2_of_ne m c main_arg9 (by decide)).trans <| (Gen.V1_of m c main_arg9 (by decide)).trans rfl
theorem U3_main_arg10 (c : Dev nD) : U3 m c (Proc.devRef .tc main_arg10) = m ((c : Thread nD τ).loc main_arg10) :=
  (U3_of_ne m c main_arg10 (by decide)).trans <| (U2_of_ne m c main_arg10 (by decide)).trans <| (Gen.V1_of m c main_arg10 (by decide)).trans rfl
theorem U3_main_arg11 (c : Dev nD) : U3 m c (Proc.devRef .tc main_arg11) = m ((c : Thread nD τ).loc main_arg11) :=
  (U3_of_ne m c main_arg11 (by decide)).trans <| (U2_of_ne m c main_arg11 (by decide)).trans <| (Gen.V1_of m c main_arg11 (by decide)).trans rfl
theorem U3_main_arg12 (c : Dev nD) : U3 m c (Proc.devRef .tc main_arg12) = m ((c : Thread nD τ).loc main_arg12) :=
  (U3_of_ne m c main_arg12 (by decide)).trans <| (U2_of_ne m c main_arg12 (by decide)).trans <| (Gen.V1_of m c main_arg12 (by decide)).trans rfl

/-- The program's result is the second call's output array after its last write-back. -/
theorem U3_result (c : Dev nD) : U3 m c (Proc.devRef .tc main_v43) = (dat1 (E2 m) c).arrAt 3 cfg1.N :=
  U3_arr m c 3

/-! ## The proof data family and the thread state -/

abbrev admH : (p : Fin 2) → (pcfgs (F := F) p).Adm := fun p => (cfgs p).toPCfg_adm
/-- Every pipeline's proof data, each at its region's entry contents. -/
def pdatsH : (p : Fin 2) → (c : Dev nD) → Dat τ (Elt F) Unit ℕ (UR sig nD τ) ℕ (Pipeline.pin (pcfgs (F := F)) admH p) c
  | ⟨0, _⟩ => fun c => dat0 (E1 m) c
  | ⟨1, _⟩ => fun c => dat1 (E2 m) c
abbrev 𝒱H : Variants := Variants.none
abbrev LH : GSem nD τ sig → Finset Unit := fun _ => ∅
abbrev lvH : GSem nD τ sig → Unit → ℕ := fun _ _ => 0
/-- What rides beside the buffers through every segment: the generator register at some state and the core's `owes`, at nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (U3 m c) ∗ ∃ r, prngReg c r)

/-! ## The calls as segments -/

set_option backward.isDefEq.respectTransparency.types false in
/-- The first call over the thread state: entered from every unscoped buffer at `U1`, left at `U2`. -/
def reg0H : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LH lvH 0 fun _ _ => rfl
  pre c := iprop(StableHlo.held (c : Thread nD τ) (Pipeline.ucRefs τ sig) (U1 m c) ∗ RH c)
  post c := iprop(StableHlo.held (c : Thread nD τ) (Pipeline.ucRefs τ sig) (U2 m c) ∗ RH c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (E1 m c) (E2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at `U2`, left at `U3`. Its invariant is
    entered with the scoped rest and gives it back, the scratch's named contents forgotten. -/
def reg1H : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ LH lvH 1 fun _ _ => rfl
  pre c := iprop(StableHlo.held (c : Thread nD τ) (Pipeline.ucRefs τ sig) (U2 m c) ∗ RH c)
  post c := iprop(TnH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdatsH m 1 c).Φ (Fin.last _) ⊢ Pipeline.ΦA spec1 c from hout1 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (E2 m c) (E3 m c) ((pdatsH m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsH : List (Pipeline.Seg (pcfgs (F := F)) admH (pdatsH m) () defs₀ 𝒱H LH lvH) :=
  [ .host (hsegH hostOps0 hostOps0_sub Gen.hostOps0_fresh (U0 m)),
    .region (reg0H m),
    .region (reg1H m) ]
theorem main_runH (c : Dev nD) : main (F := F) c = Pipeline.Seg.run (segsH m) := (main_chain c).trans (by chain_rfl)

set_option backward.isDefEq.respectTransparency.types false in
/-- THE RUN: from any memory with zero counters every weakly fair execution of the program on the TensorCores terminates,
    nothing faulting, and every final state has every unscoped buffer at `U3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U3 m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ RH c)) (Tₙ := TnH m)
    (hch := ⟨fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U3 m c b)
    (hfin := fun c s' => by
      iintro ⟨⟨Hh, -⟩, HSI⟩
      unfold StableHlo.held
      imodintro
      iapply (pointsTo_read_all (Pipeline.ucRefs τ sig) (fun b => (((c : Thread nD τ)).1, b)) (U3 m c) s')
      isplitl [Hh] <;> iassumption)
    (hQ := fun s h => h)

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (U3_main_arg0 m c),
      (h c _ (mem_uc main_arg1 (by decide))).trans (U3_main_arg1 m c),
      (h c _ (mem_uc main_arg2 (by decide))).trans (U3_main_arg2 m c),
      (h c _ (mem_uc main_arg3 (by decide))).trans (U3_main_arg3 m c),
      (h c _ (mem_uc main_arg4 (by decide))).trans (U3_main_arg4 m c),
      (h c _ (mem_uc main_arg5 (by decide))).trans (U3_main_arg5 m c),
      (h c _ (mem_uc main_arg6 (by decide))).trans (U3_main_arg6 m c),
      (h c _ (mem_uc main_arg7 (by decide))).trans (U3_main_arg7 m c),
      (h c _ (mem_uc main_arg8 (by decide))).trans (U3_main_arg8 m c),
      (h c _ (mem_uc main_arg9 (by decide))).trans (U3_main_arg9 m c),
      (h c _ (mem_uc main_arg10 (by decide))).trans (U3_main_arg10 m c),
      (h c _ (mem_uc main_arg11 (by decide))).trans (U3_main_arg11 m c),
      (h c _ (mem_uc main_arg12 (by decide))).trans (U3_main_arg12 m c)⟩) (run_all m ρ)

/-- The same run with the result named: the second call's output array after its last write-back. -/
theorem run_value : θ_run defs (onTc (τ := τ) (main (F := F))) ⟨m, fun _ => 0, ρ⟩ (fun r => ∀ c : Dev nD,
      r.2.mem ((c.tc : Thread nD τ).loc main_v43) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v43 (by decide))).trans (U3_result m c),
      (h c _ (mem_uc main_arg0 (by decide))).trans (U3_main_arg0 m c),
      (h c _ (mem_uc main_arg1 (by decide))).trans (U3_main_arg1 m c),
      (h c _ (mem_uc main_arg2 (by decide))).trans (U3_main_arg2 m c),
      (h c _ (mem_uc main_arg3 (by decide))).trans (U3_main_arg3 m c),
      (h c _ (mem_uc main_arg4 (by decide))).trans (U3_main_arg4 m c),
      (h c _ (mem_uc main_arg5 (by decide))).trans (U3_main_arg5 m c),
      (h c _ (mem_uc main_arg6 (by decide))).trans (U3_main_arg6 m c),
      (h c _ (mem_uc main_arg7 (by decide))).trans (U3_main_arg7 m c),
      (h c _ (mem_uc main_arg8 (by decide))).trans (U3_main_arg8 m c),
      (h c _ (mem_uc main_arg9 (by decide))).trans (U3_main_arg9 m c),
      (h c _ (mem_uc main_arg10 (by decide))).trans (U3_main_arg10 m c),
      (h c _ (mem_uc main_arg11 (by decide))).trans (U3_main_arg11 m c),
      (h c _ (mem_uc main_arg12 (by decide))).trans (U3_main_arg12 m c)⟩) (run_all m ρ)

/-- What the second call is entered with: the first call's output array is what its pipeline left; the arrays the host
    operations wrote are as those left them. -/
theorem E2_v42 (c : Dev nD) : E2 m c main_v42 = (dat0 (E1 m) c).arrAt 7 cfg0.N := U2_arr m c 7
theorem E2_v29 (c : Dev nD) : E2 m c main_v29 = E1 m c main_v29 := U2_of_ne m c main_v29 (by decide)
theorem E2_v41 (c : Dev nD) : E2 m c main_v41 = E1 m c main_v41 := U2_of_ne m c main_v41 (by decide)

end Cert.KernelIdeal.Hand

end
-- ==== Proof.Stage1Pay.lean ====
/-
  The first call's payload read at an index, on the extended reals: entry (b, j) of the block the body stores is
  silu (g) * u * d, where g and u are the two contractions over the 4096 input features, each scaled by its row factor,
  and d is the third row factor.
-/
import proofs.«122006_j42176578847199_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Stage1Pay

open Idealize.ShloMosaic Idealize.ShloMosaic.ValueIdx Cert.KernelIdeal Cert.KernelIdeal.Gen

/-- Row coordinate of the left operand's index: the result's row. -/
theorem lhs_0 (i : S64x512.Idx) (q : dot_S64x4096_S512x4096_S64x512_1_1_0_0_n_n.contr.Idx) :
    (dot_S64x4096_S512x4096_S64x512_1_1_0_0_n_n.lhsIdx i q 0).val = (i 0).val := by
  unfold DotDims.lhsIdx
  rw [dif_neg (show ¬(0 : Fin S64x4096.rank) ∈ dot_S64x4096_S512x4096_S64x512_1_1_0_0_n_n.lhsBatch by decide), dif_pos (show (0 : Fin S64x4096.rank) ∈ dot_S64x4096_S512x4096_S64x512_1_1_0_0_n_n.lhsNonContracting by decide)]
  rfl
/-- Column coordinate of the left operand's index: the contraction position. -/
theorem lhs_1 (i : S64x512.Idx) (q : dot_S64x4096_S512x4096_S64x512_1_1_0_0_n_n.contr.Idx) :
    (dot_S64x4096_S512x4096_S64x512_1_1_0_0_n_n.lhsIdx i q 1).val = (q ⟨0, by decide⟩).val :=
  dot_S64x4096_S512x4096_S64x512_1_1_0_0_n_n.lhsIdx_val_of_single rfl i q
/-- Row coordinate of the right operand's index: the result's column. -/
theorem rhs_0 (i : S64x512.Idx) (q : dot_S64x4096_S512x4096_S64x512_1_1_0_0_n_n.contr.Idx) :
    (dot_S64x4096_S512x4096_S64x512_1_1_0_0_n_n.rhsIdx i q 0).val = (i 1).val := by
  unfold DotDims.rhsIdx
  rw [dif_neg (show ¬(0 : Fin S512x4096.rank) ∈ dot_S64x4096_S512x4096_S64x512_1_1_0_0_n_n.rhsBatch by decide), dif_pos (show (0 : Fin S512x4096.rank) ∈ dot_S64x4096_S512x4096_S64x512_1_1_0_0_n_n.rhsNonContracting by decide)]
  rfl
/-- Column coordinate of the right operand's index: the contraction position. -/
theorem rhs_1 (i : S64x512.Idx) (q : dot_S64x4096_S512x4096_S64x512_1_1_0_0_n_n.contr.Idx) :
    (dot_S64x4096_S512x4096_S64x512_1_1_0_0_n_n.rhsIdx i q 1).val = (q ⟨0, by decide⟩).val :=
  dot_S64x4096_S512x4096_S64x512_1_1_0_0_n_n.rhsIdx_val_of_single rfl i q

/-- The kernel's contraction into a zero accumulator, at an index: row `b` of the left operand against row `j` of the right. -/
theorem matmul_zero_apply (l : FVec Ideal S64x4096 .bf16) (r : FVec Ideal S512x4096 .bf16) (b : Fin 64) (j : Fin 512) :
    matmul (F := Ideal) dot_S64x4096_S512x4096_S64x512_1_1_0_0_n_n none l r (constant (F := Ideal) S64x512 .f32 0x00000000#32) (ix2 b j)
      = ∑ h : Fin 4096, l (ix2 b h) * r (ix2 j h) := by
  show FloatOps.matmul dot_S64x4096_S512x4096_S64x512_1_1_0_0_n_n none l r (constant (F := Ideal) S64x512 .f32 0x00000000#32) (ix2 b j) = _
  rw [Ideal.matmul_constant_zero_apply, ← Equiv.sum_comp (contrEquiv1 dot_S64x4096_S512x4096_S64x512_1_1_0_0_n_n 4096 rfl rfl).symm]
  refine Finset.sum_congr rfl fun k _ => ?_
  have hk := contrEquiv1_symm_val dot_S64x4096_S512x4096_S64x512_1_1_0_0_n_n 4096 rfl rfl k
  have el : dot_S64x4096_S512x4096_S64x512_1_1_0_0_n_n.lhsIdx (ix2 b j) ((contrEquiv1 dot_S64x4096_S512x4096_S64x512_1_1_0_0_n_n 4096 rfl rfl).symm k) = ix2 b k :=
    funext fun a => Fin.ext (by
      match a with
      | ⟨0, _⟩ => exact lhs_0 _ _
      | ⟨1, _⟩ => exact (lhs_1 _ _).trans hk)
  have er : dot_S64x4096_S512x4096_S64x512_1_1_0_0_n_n.rhsIdx (ix2 b j) ((contrEquiv1 dot_S64x4096_S512x4096_S64x512_1_1_0_0_n_n 4096 rfl rfl).symm k) = ix2 j k :=
    funext fun a => Fin.ext (by
      match a with
      | ⟨0, _⟩ => exact rhs_0 _ _
      | ⟨1, _⟩ => exact (rhs_1 _ _).trans hk)
  rw [el, er]

/-- Entry (b, j) of the stored block, from the seven loaded blocks. -/
def payAt (x0 x1 : FVec Ideal S64x4096 .bf16) (x2 x3 : FVec Ideal S512x4096 .bf16) (x4 x5 x6 : FVec Ideal S1x512 .f32)
    (b : Fin 64) (j : Fin 512) : EReal :=
  let rg := (∑ h : Fin 4096, x0 (ix2 b h) * x2 (ix2 j h)) * x4 (ix2 (0 : Fin 1) j)
  let ru := (∑ h : Fin 4096, x1 (ix2 b h) * x3 (ix2 j h)) * x5 (ix2 (0 : Fin 1) j)
  ((rg * Ideal.logistic rg) * ru) * x6 (ix2 (0 : Fin 1) j)

/-- The payload at an index. -/
theorem pay_apply (x0 x1 : FVec Ideal S64x4096 .bf16) (x2 x3 : FVec Ideal S512x4096 .bf16) (x4 x5 x6 : FVec Ideal S1x512 .f32)
    (b : Fin 64) (j : Fin 512) :
    k0_pay1 (F := Ideal) x0 x1 x2 x3 x4 x5 x6 (ix2 b j) = payAt x0 x1 x2 x3 x4 x5 x6 b j := by
  unfold k0_pay1 payAt
  simp only [shapeCast_self]
  show (((matmul (F := Ideal) dot_S64x4096_S512x4096_S64x512_1_1_0_0_n_n none x0 x2 (constant (F := Ideal) S64x512 .f32 0x00000000#32) (ix2 b j)
        * broadcastTo S64x512 x4 broadcasts_S1x512_S64x512 (ix2 b j))
      * Ideal.logistic (matmul (F := Ideal) dot_S64x4096_S512x4096_S64x512_1_1_0_0_n_n none x0 x2 (constant (F := Ideal) S64x512 .f32 0x00000000#32) (ix2 b j)
        * broadcastTo S64x512 x4 broadcasts_S1x512_S64x512 (ix2 b j)))
      * (matmul (F := Ideal) dot_S64x4096_S512x4096_S64x512_1_1_0_0_n_n none x1 x3 (constant (F := Ideal) S64x512 .f32 0x00000000#32) (ix2 b j)
        * broadcastTo S64x512 x5 broadcasts_S1x512_S64x512 (ix2 b j)))
      * broadcastTo S64x512 x6 broadcasts_S1x512_S64x512 (ix2 b j) = _
  rw [matmul_zero_apply, matmul_zero_apply, broadcastTo_1b_ab_apply x4, broadcastTo_1b_ab_apply x5, broadcastTo_1b_ab_apply x6]

end Cert.KernelIdeal.Stage1Pay

end
-- ==== Proof.Spec.lean ====
/-
  The two sides of the claim as functions of the argument arrays, index by index, on the extended reals.

  A quantised SwiGLU layer: three weight matrices are stored as integer codes into small tables (`lut[walks]`), with a
  row sign, a column sign and one scalar scale `c`; the layer is `(silu (x · Wgᵀ) * (x · Wuᵀ)) · Wdᵀ`.

  * The reference multiplies every weight out first, `W[o, n] = ((lut[walks[o, n]] * sl[o]) * sr[n]) * c`, and then contracts.
  * The kernel scales the table once, folds the column sign into the activations and applies the row sign after the
    contraction: `(∑ n, (a[n] * sr[n]) * (lut[walks[o, n]] * c)) * sl[o]`.

  Over real entries the two agree by distributivity; `Algebra.lean` proves it. A table look-up `lut[walks]` wraps a negative
  code once by the table's length and clamps into the table, which is what both programs do before they gather.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with literal extents. -/
abbrev Mat (a b : Nat) : Type := (⟨2, ![a, b]⟩ : Shape).Idx → EReal
/-- A vector of extended reals with a literal extent. -/
abbrev Vc (a : Nat) : Type := (⟨1, ![a]⟩ : Shape).Idx → EReal

/-- The scale both programs spell as the binary32 word of 0.02. -/
def cS : EReal := Ideal.ofBits .f32 0x3CA3D70A#32

/-- A code made non-negative the way both programs do it: a negative code is shifted up by the table's length 4096. -/
def wrapCode (w : BitVec 32) : BitVec 32 := Scalar.select (Scalar.cmpi .slt w 0#32) (w + 4096#32) w

/-- The table position a code selects: wrapped, read as a signed integer, clamped into `[0, 4095]`. -/
def pos (w : BitVec 32) : Fin 4096 := ⟨min (wrapCode w).toInt.toNat 4095, by omega⟩

/-- `lut[walks]`: the table's entry each code selects. -/
def lookup {R C : Nat} (lut : Vc 4096) (walks : IVec ⟨2, ![R, C]⟩ 32) : Mat R C :=
  fun y => lut (ix1 (pos (walks y)))

/-- `z * sigmoid z`. -/
def silu (z : EReal) : EReal := z * Ideal.logistic z

/-! ## The reference -/

/-- A weight as the reference multiplies it out: table entry, row sign, column sign, scale, in that order. -/
def wRef {O N : Nat} (L : Mat O N) (sl : Vc O) (sr : Vc N) (o : Fin O) (n : Fin N) : EReal :=
  ((L (ix2 o n) * sl (ix1 o)) * sr (ix1 n)) * cS

/-- A row of activations against a row of the multiplied-out weights. -/
def refDot {B O N : Nat} (a : Mat B N) (L : Mat O N) (sl : Vc O) (sr : Vc N) (b : Fin B) (o : Fin O) : EReal :=
  ∑ n : Fin N, a (ix2 b n) * wRef L sl sr o n

/-- The reference's hidden activations `silu (x · Wgᵀ) * (x · Wuᵀ)`. -/
def refHid (x : Mat 64 4096) (Lg Lu : Mat 14336 4096) (gsl : Vc 14336) (gsr : Vc 4096) (usl : Vc 14336) (usr : Vc 4096) : Mat 64 14336 :=
  fun y => silu (refDot x Lg gsl gsr (y 0) (y 1)) * refDot x Lu usl usr (y 0) (y 1)

/-- The reference's result. -/
def refOut (x : Mat 64 4096) (Lg Lu : Mat 14336 4096) (Ld : Mat 4096 14336) (gsl : Vc 14336) (gsr : Vc 4096) (usl : Vc 14336) (usr : Vc 4096)
    (dsl : Vc 4096) (dsr : Vc 14336) : Mat 64 4096 :=
  fun y => refDot (refHid x Lg Lu gsl gsr usl usr) Ld dsl dsr (y 0) (y 1)

/-! ## The kernel -/

/-- A row of sign-folded activations against a row of the scaled table entries, the row sign applied last. -/
def kerDot {B O N : Nat} (a : Mat B N) (L : Mat O N) (sl : Vc O) (sr : Vc N) (b : Fin B) (o : Fin O) : EReal :=
  (∑ n : Fin N, (a (ix2 b n) * sr (ix1 n)) * (L (ix2 o n) * cS)) * sl (ix1 o)

/-- The kernel's hidden activations, before the down projection's column sign is folded in. -/
def kerHid (x : Mat 64 4096) (Lg Lu : Mat 14336 4096) (gsl : Vc 14336) (gsr : Vc 4096) (usl : Vc 14336) (usr : Vc 4096) : Mat 64 14336 :=
  fun y => silu (kerDot x Lg gsl gsr (y 0) (y 1)) * kerDot x Lu usl usr (y 0) (y 1)

/-- The kernel's result: the down projection's column sign rides on the hidden activations (inside `kerDot`), its row sign is applied last. -/
def kerOut (x : Mat 64 4096) (Lg Lu : Mat 14336 4096) (Ld : Mat 4096 14336) (gsl : Vc 14336) (gsr : Vc 4096) (usl : Vc 14336) (usr : Vc 4096)
    (dsl : Vc 4096) (dsr : Vc 14336) : Mat 64 4096 :=
  fun y => kerDot (kerHid x Lg Lu gsl gsr usl usr) Ld dsl dsr (y 0) (y 1)

/-- Every entry is a real number. -/
def IsReal {s : Shape} (v : s.Idx → EReal) : Prop := ∀ j, ∃ r : ℝ, v j = (r : EReal)

end Cert.Spec

end
-- ==== Proof.Stage1Value.lean ====
/-
  The first call's result array as one function of the arrays the call finds: every grid point writes the block of 512
  hidden columns it computed, the 28 blocks tile the 14336 columns, so entry (b, i) of the result is
  silu (g) * u * d with g = (∑ h, xg[b, h] * wg[i, h]) * slg[i], u likewise from xu, wu, slu, and d = srd[i].
-/
import proofs.«122006_j42176578847199_2_alg».proof.Proof.Stage1Ideal
import proofs.«122006_j42176578847199_2_alg».proof.Proof.Stage1Pay
import proofs.«122006_j42176578847199_2_alg».proof.Proof.Spec
import Idealize.ShloMosaic.Lib.Pipeline.Value

set_option maxRecDepth 16384

noncomputable section

open scoped BigOperators

namespace Cert.KernelIdeal.Stage1Value

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.Stage1Pay

/-- Entry (b, i) of the hidden activations from whole arrays. -/
def hidAt (xg xu : Cert.Spec.Mat 64 4096) (wg wu : Cert.Spec.Mat 14336 4096) (slg slu srd : Cert.Spec.Mat 1 14336)
    (b : Fin 64) (i : Fin 14336) : EReal :=
  let rg := (∑ h : Fin 4096, xg (ix2 b h) * wg (ix2 i h)) * slg (ix2 (0 : Fin 1) i)
  let ru := (∑ h : Fin 4096, xu (ix2 b h) * wu (ix2 i h)) * slu (ix2 (0 : Fin 1) i)
  ((rg * Ideal.logistic rg) * ru) * srd (ix2 (0 : Fin 1) i)

/-- The hidden activations as one array. -/
def hiddenOf (xg xu : Cert.Spec.Mat 64 4096) (wg wu : Cert.Spec.Mat 14336 4096) (slg slu srd : Cert.Spec.Mat 1 14336) :
    Cert.Spec.Mat 64 14336 :=
  fun y => hidAt xg xu wg wu slg slu srd (y 0) (y 1)

theorem hz : (![0, 0] : Fin 2 → Nat) = fun _ => 0 := funext fun a => by fin_cases a <;> rfl

/-- One point's payload against the whole-array function: the blocks are the rows (columns) `512 T …` of their arrays. -/
theorem point_eq (x0 x1 : FVec Ideal S64x4096 .bf16) (x2 x3 : FVec Ideal S512x4096 .bf16) (x4 x5 x6 : FVec Ideal S1x512 .f32)
    (xg xu : Cert.Spec.Mat 64 4096) (wg wu : Cert.Spec.Mat 14336 4096) (slg slu srd : Cert.Spec.Mat 1 14336) (T : Nat)
    (h0 : ∀ (b : Fin 64) (h : Fin 4096), x0 (ix2 b h) = xg (ix2 b h))
    (h1 : ∀ (b : Fin 64) (h : Fin 4096), x1 (ix2 b h) = xu (ix2 b h))
    (h2 : ∀ (j : Fin 512) (h : Fin 4096) (k : Fin 14336), k.val = T * 512 + j.val → x2 (ix2 j h) = wg (ix2 k h))
    (h3 : ∀ (j : Fin 512) (h : Fin 4096) (k : Fin 14336), k.val = T * 512 + j.val → x3 (ix2 j h) = wu (ix2 k h))
    (h4 : ∀ (j : Fin 512) (k : Fin 14336), k.val = T * 512 + j.val → x4 (ix2 (0 : Fin 1) j) = slg (ix2 (0 : Fin 1) k))
    (h5 : ∀ (j : Fin 512) (k : Fin 14336), k.val = T * 512 + j.val → x5 (ix2 (0 : Fin 1) j) = slu (ix2 (0 : Fin 1) k))
    (h6 : ∀ (j : Fin 512) (k : Fin 14336), k.val = T * 512 + j.val → x6 (ix2 (0 : Fin 1) j) = srd (ix2 (0 : Fin 1) k))
    (y : S64x512.Idx) (i : S64x14336.Idx) (hi0 : (i 0).val = (y 0).val) (hi1 : (i 1).val = T * 512 + (y 1).val) :
    k0_pay1 (F := Ideal) x0 x1 x2 x3 x4 x5 x6 y = hiddenOf xg xu wg wu slg slu srd i := by
  obtain ⟨p, q, rfl⟩ : ∃ (p : Fin 64) (q : Fin 512), y = ix2 p q := ⟨y 0, y 1, eq_ix2 y⟩
  obtain ⟨p', k, rfl⟩ : ∃ (p' : Fin 64) (k : Fin 14336), i = ix2 p' k := ⟨i 0, i 1, eq_ix2 i⟩
  obtain rfl : p' = p := Fin.ext hi0
  have hk : k.val = T * 512 + q.val := hi1
  rw [pay_apply]
  show payAt x0 x1 x2 x3 x4 x5 x6 p' q = hidAt xg xu wg wu slg slu srd p' k
  unfold payAt hidAt
  rw [h4 q k hk, h5 q k hk, h6 q k hk,
    Finset.sum_congr rfl (fun h _ => by rw [h0 p' h, h2 q h k hk] : ∀ h ∈ (Finset.univ : Finset (Fin 4096)), x0 (ix2 p' h) * x2 (ix2 q h) = xg (ix2 p' h) * wg (ix2 k h)),
    Finset.sum_congr rfl (fun h _ => by rw [h1 p' h, h3 q h k hk] : ∀ h ∈ (Finset.univ : Finset (Fin 4096)), x1 (ix2 p' h) * x3 (ix2 q h) = xu (ix2 p' h) * wu (ix2 k h))]

/-- The printed index maps over the grid: the two activation windows stay at block (0, 0); the two weight windows take row
    block `t`; the three factor windows and the output take column block `t`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val :=
  (by decide +kernel : ∀ t : Fin grid0.N, _)

section
variable (V : (c : Dev nD) → (b : Ref sig .tc) → Buf (Elt Ideal) ((c : Thread nD τ).loc b)) (c : Dev nD)

/-- Window 0's block is the whole first activation array. -/
theorem blk0_apply (xg : Cert.Spec.Mat 64 4096) (h33 : (V c main_v33 : S64x4096.Idx → EReal) = xg) (t : Fin cfg0.N) (b : Fin 64) (h : Fin 4096) :
    (iblk0 V c 0 t : FVec Ideal S64x4096 .bf16) (ix2 b h) = xg (ix2 b h) := by
  obtain ⟨e0, e1, -⟩ := idx_facts t
  unfold iblk0
  rw [View.read_apply]
  show V c main_v33 _ = _
  refine (congrFun h33 _).trans (congrArg xg (funext fun a => Fin.ext ?_))
  match a with
  | ⟨0, _⟩ => show win0_0.index t (0 : Fin 2) * 64 + 1 * b.val = b.val; rw [e0]; omega
  | ⟨1, _⟩ => show win0_0.index t (1 : Fin 2) * 4096 + 1 * h.val = h.val; rw [e1]; omega

/-- Window 1's block is the whole second activation array. -/
theorem blk1_apply (xu : Cert.Spec.Mat 64 4096) (h37 : (V c main_v37 : S64x4096.Idx → EReal) = xu) (t : Fin cfg0.N) (b : Fin 64) (h : Fin 4096) :
    (iblk0 V c 1 t : FVec Ideal S64x4096 .bf16) (ix2 b h) = xu (ix2 b h) := by
  obtain ⟨-, -, e0, e1, -⟩ := idx_facts t
  unfold iblk0
  rw [View.read_apply]
  show V c main_v37 _ = _
  refine (congrFun h37 _).trans (congrArg xu (funext fun a => Fin.ext ?_))
  match a with
  | ⟨0, _⟩ => show win0_1.index t (0 : Fin 2) * 64 + 1 * b.val = b.val; rw [e0]; omega
  | ⟨1, _⟩ => show win0_1.index t (1 : Fin 2) * 4096 + 1 * h.val = h.val; rw [e1]; omega

/-- Window 2's block at point `t` is rows `512 t …` of the first weight array. -/
theorem blk2_apply (wg : Cert.Spec.Mat 14336 4096) (h9 : (V c main_v9 : S14336x4096.Idx → EReal) = wg) (t : Fin cfg0.N)
    (j : Fin 512) (h : Fin 4096) (k : Fin 14336) (hk : k.val = t.val * 512 + j.val) :
    (iblk0 V c 2 t : FVec Ideal S512x4096 .bf16) (ix2 j h) = wg (ix2 k h) := by
  obtain ⟨-, -, -, -, e0, e1, -⟩ := idx_facts t
  unfold iblk0
  rw [View.read_apply]
  show V c main_v9 _ = _
  refine (congrFun h9 _).trans (congrArg wg (funext fun a => Fin.ext ?_))
  match a with
  | ⟨0, _⟩ => show win0_2.index t (0 : Fin 2) * 512 + 1 * j.val = k.val; rw [e0]; omega
  | ⟨1, _⟩ => show win0_2.index t (1 : Fin 2) * 4096 + 1 * h.val = h.val; rw [e1]; omega

/-- Window 3's block at point `t` is rows `512 t …` of the second weight array. -/
theorem blk3_apply (wu : Cert.Spec.Mat 14336 4096) (h19 : (V c main_v19 : S14336x4096.Idx → EReal) = wu) (t : Fin cfg0.N)
    (j : Fin 512) (h : Fin 4096) (k : Fin 14336) (hk : k.val = t.val * 512 + j.val) :
    (iblk0 V c 3 t : FVec Ideal S512x4096 .bf16) (ix2 j h) = wu (ix2 k h) := by
  obtain ⟨-, -, -, -, -, -, e0, e1, -⟩ := idx_facts t
  unfold iblk0
  rw [View.read_apply]
  show V c main_v19 _ = _
  refine (congrFun h19 _).trans (congrArg wu (funext fun a => Fin.ext ?_))
  match a with
  | ⟨0, _⟩ => show win0_3.index t (0 : Fin 2) * 512 + 1 * j.val = k.val; rw [e0]; omega
  | ⟨1, _⟩ => show win0_3.index t (1 : Fin 2) * 4096 + 1 * h.val = h.val; rw [e1]; omega

/-- Window 4's block at point `t` is columns `512 t …` of the first factor row. -/
theorem blk4_apply (slg : Cert.Spec.Mat 1 14336) (h38 : (V c main_v38 : S1x14336.Idx → EReal) = slg) (t : Fin cfg0.N)
    (j : Fin 512) (k : Fin 14336) (hk : k.val = t.val * 512 + j.val) :
    (iblk0 V c 4 t : FVec Ideal S1x512 .f32) (ix2 (0 : Fin 1) j) = slg (ix2 (0 : Fin 1) k) := by
  obtain ⟨-, -, -, -, -, -, -, -, e0, e1, -⟩ := idx_facts t
  unfold iblk0
  rw [View.read_apply]
  show V c main_v38 _ = _
  refine (congrFun h38 _).trans (congrArg slg (funext fun a => Fin.ext ?_))
  match a with
  | ⟨0, _⟩ => show win0_4.index t (0 : Fin 2) * 1 + 1 * 0 = 0; rw [e0]
  | ⟨1, _⟩ => show win0_4.index t (1 : Fin 2) * 512 + 1 * j.val = k.val; rw [e1]; omega

/-- Window 5's block at point `t` is columns `512 t …` of the second factor row. -/
theorem blk5_apply (slu : Cert.Spec.Mat 1 14336) (h39 : (V c main_v39 : S1x14336.Idx → EReal) = slu) (t : Fin cfg0.N)
    (j : Fin 512) (k : Fin 14336) (hk : k.val = t.val * 512 + j.val) :
    (iblk0 V c 5 t : FVec Ideal S1x512 .f32) (ix2 (0 : Fin 1) j) = slu (ix2 (0 : Fin 1) k) := by
  obtain ⟨-, -, -, -, -, -, -, -, -, -, e0, e1, -⟩ := idx_facts t
  unfold iblk0
  rw [View.read_apply]
  show V c main_v39 _ = _
  refine (congrFun h39 _).trans (congrArg slu (funext fun a => Fin.ext ?_))
  match a with
  | ⟨0, _⟩ => show win0_5.index t (0 : Fin 2) * 1 + 1 * 0 = 0; rw [e0]
  | ⟨1, _⟩ => show win0_5.index t (1 : Fin 2) * 512 + 1 * j.val = k.val; rw [e1]; omega

/-- Window 6's block at point `t` is columns `512 t …` of the third factor row. -/
theorem blk6_apply (srd : Cert.Spec.Mat 1 14336) (h40 : (V c main_v40 : S1x14336.Idx → EReal) = srd) (t : Fin cfg0.N)
    (j : Fin 512) (k : Fin 14336) (hk : k.val = t.val * 512 + j.val) :
    (iblk0 V c 6 t : FVec Ideal S1x512 .f32) (ix2 (0 : Fin 1) j) = srd (ix2 (0 : Fin 1) k) := by
  obtain ⟨-, -, -, -, -, -, -, -, -, -, -, -, e0, e1, -⟩ := idx_facts t
  unfold iblk0
  rw [View.read_apply]
  show V c main_v40 _ = _
  refine (congrFun h40 _).trans (congrArg srd (funext fun a => Fin.ext ?_))
  match a with
  | ⟨0, _⟩ => show win0_6.index t (0 : Fin 2) * 1 + 1 * 0 = 0; rw [e0]
  | ⟨1, _⟩ => show win0_6.index t (1 : Fin 2) * 512 + 1 * j.val = k.val; rw [e1]; omega

end

section
variable (V : (c : Dev nD) → (b : Ref sig .tc) → Buf (Elt Ideal) ((c : Thread nD τ).loc b)) (c : Dev nD)
variable (xg xu : Cert.Spec.Mat 64 4096) (wg wu : Cert.Spec.Mat 14336 4096) (slg slu srd : Cert.Spec.Mat 1 14336)

/-- What point `t` writes back is block `t` of the hidden activations. -/
theorem flushed_eq (h33 : (V c main_v33 : S64x4096.Idx → EReal) = xg) (h37 : (V c main_v37 : S64x4096.Idx → EReal) = xu)
    (h9 : (V c main_v9 : S14336x4096.Idx → EReal) = wg) (h19 : (V c main_v19 : S14336x4096.Idx → EReal) = wu)
    (h38 : (V c main_v38 : S1x14336.Idx → EReal) = slg) (h39 : (V c main_v39 : S1x14336.Idx → EReal) = slu)
    (h40 : (V c main_v40 : S1x14336.Idx → EReal) = srd) (t : Fin cfg0.N) :
    (dat0 V c).flushed 7 t = ((cfg0.win 7).blk t).view.read (Elt Ideal) (hiddenOf xg xu wg wu slg slu srd) := by
  show (cfg0.win 7).cut (grid0.coords t) ((dat0 V c).after 7 t) = _
  rw [after0_7]
  unfold out0_7
  rw [View.canon_unit_zero hz]
  simp only [View.ld_unit_zero (S := S64x4096) hz, View.ld_unit_zero (S := S512x4096) hz, View.ld_unit_zero (S := S1x512) hz]
  obtain ⟨-, -, -, -, -, -, -, -, -, -, -, -, -, -, e0, e1⟩ := idx_facts t
  funext y
  show k0_pay1 (F := Ideal) (iblk0 V c 0 t) (iblk0 V c 1 t) (iblk0 V c 2 t) (iblk0 V c 3 t) (iblk0 V c 4 t) (iblk0 V c 5 t) (iblk0 V c 6 t) y
    = hiddenOf xg xu wg wu slg slu srd (((cfg0.win 7).blk t).view.emb y)
  exact point_eq (iblk0 V c 0 t) (iblk0 V c 1 t) (iblk0 V c 2 t) (iblk0 V c 3 t) (iblk0 V c 4 t) (iblk0 V c 5 t) (iblk0 V c 6 t)
    xg xu wg wu slg slu srd t.val
    (blk0_apply V c xg h33 t) (blk1_apply V c xu h37 t) (blk2_apply V c wg h9 t) (blk3_apply V c wu h19 t)
    (blk4_apply V c slg h38 t) (blk5_apply V c slu h39 t) (blk6_apply V c srd h40 t)
    y (((cfg0.win 7).blk t).view.emb y)
    (show win0_7.index t (0 : Fin 2) * 64 + 1 * (y 0).val = (y 0).val by rw [e0]; omega)
    (show win0_7.index t (1 : Fin 2) * 512 + 1 * (y 1).val = t.val * 512 + (y 1).val by rw [e1]; omega)

/-- Column `i` of the result lies in the block of point `i / 512`. -/
theorem cover (i : S64x14336.Idx) : ∃ t : Fin cfg0.N, (cfg0.win 7).flush t = true ∧ i ∈ ((cfg0.win 7).blk t).view.set := by
  have hN : grid0.N = 28 := N_0
  have hi0 : (i 0 : Nat) < 64 := (i 0).isLt
  have hi1 : (i 1 : Nat) < 14336 := (i 1).isLt
  have ht : (i 1 : Nat) / 512 < grid0.N := by omega
  refine ⟨⟨(i 1 : Nat) / 512, ht⟩, flush0_7 _, ?_⟩
  obtain ⟨-, -, -, -, -, -, -, -, -, -, -, -, -, -, e0, e1⟩ := idx_facts ⟨(i 1 : Nat) / 512, ht⟩
  show i ∈ ((View.whole main_v42).slice (win0_7.rect ⟨(i 1 : Nat) / 512, ht⟩)).set
  rw [View.set_slice_whole, Rect.mem_set_unit]
  intro a
  match a with
  | ⟨0, _⟩ =>
    show win0_7.index ⟨(i 1 : Nat) / 512, ht⟩ (0 : Fin 2) * 64 ≤ (i 0 : Nat) ∧ (i 0 : Nat) < win0_7.index ⟨(i 1 : Nat) / 512, ht⟩ (0 : Fin 2) * 64 + 64
    rw [e0]; omega
  | ⟨1, _⟩ =>
    show win0_7.index ⟨(i 1 : Nat) / 512, ht⟩ (1 : Fin 2) * 512 ≤ (i 1 : Nat) ∧ (i 1 : Nat) < win0_7.index ⟨(i 1 : Nat) / 512, ht⟩ (1 : Fin 2) * 512 + 512
    rw [e1]
    show (i 1 : Nat) / 512 * 512 ≤ (i 1 : Nat) ∧ (i 1 : Nat) < (i 1 : Nat) / 512 * 512 + 512
    omega

/-- The first call's result array: the hidden activations, every column written by the point that owns its block of 512. -/
theorem hidden_eq (h33 : (V c main_v33 : S64x4096.Idx → EReal) = xg) (h37 : (V c main_v37 : S64x4096.Idx → EReal) = xu)
    (h9 : (V c main_v9 : S14336x4096.Idx → EReal) = wg) (h19 : (V c main_v19 : S14336x4096.Idx → EReal) = wu)
    (h38 : (V c main_v38 : S1x14336.Idx → EReal) = slg) (h39 : (V c main_v39 : S1x14336.Idx → EReal) = slu)
    (h40 : (V c main_v40 : S1x14336.Idx → EReal) = srd) :
    (dat0 V c).arrAt 7 cfg0.N = hiddenOf xg xu wg wu slg slu srd :=
  (dat0 V c).arrAt_eq_of_cover 7 (hiddenOf xg xu wg wu slg slu srd)
    (fun t _ => flushed_eq V c xg xu wg wu slg slu srd h33 h37 h9 h19 h38 h39 h40 t) fun i => cover i

end

end Cert.KernelIdeal.Stage1Value

end
-- ==== Proof.Gather.lean ====
/-
  A table look-up `tbl[walks]` as both programs lower it: the codes are wrapped (a negative code is shifted up by the
  table's length), given a trailing unit axis, and handed to `gather`, which reads each start index as a signed integer
  and clamps it into the table. Read at an index that is the table at `pos` of the code, whatever the table holds.
-/
import proofs.«122006_j42176578847199_2_alg».proof.Proof.Spec
import Idealize.ShloMosaic.Lib.Pipeline.Value
import Idealize.ShloMosaic.Lib.ValueIdx

noncomputable section

namespace Cert.Gather

open Idealize.ShloMosaic Idealize.ShloMosaic.ValueIdx Cert.Spec

variable {α : Type}

/-- The wrapped codes read at an index: `select (w < 0) (w + 4096) w` elementwise is `wrapCode`. -/
theorem wrapped_apply {R C : Nat} (hb0 hb1 : (⟨0, ![]⟩ : Shape).BroadcastsInDim ⟨2, ![R, C]⟩ ![])
    (w : IVec ⟨2, ![R, C]⟩ 32) (y : (⟨2, ![R, C]⟩ : Shape).Idx) :
    select (cmpi .slt w (broadcastInDim ⟨2, ![R, C]⟩ ![] hb0 (constantI ⟨0, ![]⟩ 32 0#32)))
      (addi w (broadcastInDim ⟨2, ![R, C]⟩ ![] hb1 (constantI ⟨0, ![]⟩ 32 4096#32))) w y = wrapCode (w y) := by
  show Scalar.select (IntOp.cmpi .slt (w y) (broadcastInDim ⟨2, ![R, C]⟩ ![] hb0 (constantI ⟨0, ![]⟩ 32 0#32) y))
      (IntOp.addi (w y) (broadcastInDim ⟨2, ![R, C]⟩ ![] hb1 (constantI ⟨0, ![]⟩ 32 4096#32) y)) (w y) = _
  rw [broadcastInDim_apply _ hb0 _ y ix0 (fun a => a.elim0), broadcastInDim_apply _ hb1 _ y ix0 (fun a => a.elim0)]
  rfl

/-- The look-up read at an index, for any table contents and any extents of the code matrix. -/
theorem gather_lookup {R C : Nat} (D : GatherDims ⟨1, ![4096]⟩ ⟨3, ![R, C, 1]⟩ ⟨2, ![R, C]⟩)
    (wf : GatherDims.WF ⟨1, ![4096]⟩ ⟨3, ![R, C, 1]⟩ ⟨2, ![R, C]⟩ [] [0] [] [0] [] 2 ![1])
    (hD : D = takeDims 4096 R C wf)
    (hb0 hb1 : (⟨0, ![]⟩ : Shape).BroadcastsInDim ⟨2, ![R, C]⟩ ![])
    (hb2 : (⟨2, ![R, C]⟩ : Shape).BroadcastsInDim ⟨3, ![R, C, 1]⟩ ![0, 1])
    (tbl : (⟨1, ![4096]⟩ : Shape).Idx → α) (w : IVec ⟨2, ![R, C]⟩ 32) (y : (⟨2, ![R, C]⟩ : Shape).Idx) :
    Host.gather D tbl (broadcastInDim ⟨3, ![R, C, 1]⟩ ![0, 1] hb2
      (select (cmpi .slt w (broadcastInDim ⟨2, ![R, C]⟩ ![] hb0 (constantI ⟨0, ![]⟩ 32 0#32)))
        (addi w (broadcastInDim ⟨2, ![R, C]⟩ ![] hb1 (constantI ⟨0, ![]⟩ 32 4096#32))) w)) y
      = tbl (ix1 (pos (w y))) := by
  subst hD
  rw [gather_take_apply (by decide) wf]
  refine congrArg tbl (congrArg ix1 (Fin.ext ?_))
  show min _ (4096 - 1) = min (wrapCode (w y)).toInt.toNat 4095
  rw [broadcastInDim_apply _ hb2 _ (takeIdx y) y (fun a => match a with
    | ⟨0, _⟩ => by
        show (y 0).val = if R = 1 then 0 else (y 0).val
        have := idx2_lt0 y
        split <;> omega
    | ⟨1, _⟩ => by
        show (y 1).val = if C = 1 then 0 else (y 1).val
        have := idx2_lt1 y
        split <;> omega)]
  rw [wrapped_apply]

end Cert.Gather

end
-- ==== Proof.HostPrefixA.lean ====
/-
  What the host operations before the first call leave in the arrays the two calls read, on the extended reals (where a change
  of float format is the identity): the two sign-folded activation arrays and the four factor rows.
-/
import proofs.«122006_j42176578847199_2_alg».proof.Proof.Gen.KernelIdeal.Launch
import proofs.«122006_j42176578847199_2_alg».proof.Proof.Gather
import proofs.«122006_j42176578847199_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostPrefix

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (c : Dev nD)

set_option maxHeartbeats 4000000

/-- `main_v33` as the operations' term: the activations times the column factor broadcast over the rows. -/
theorem v33_term :
    (StableHlo.after (hostOps0 (F := Ideal)) (fun b => m (c, b)) (Proc.devRef .tc main_v33) : S64x4096.Idx → EReal)
      = truncf (F := Ideal) .bf16 (mulf (m ((c : Thread nD τ).loc main_arg0) : S64x4096.Idx → EReal)
          (broadcastInDim S64x4096 ![0, 1] bcast_S1x4096_S64x4096_0_1 (broadcastInDim S1x4096 ![1] bcast_S4096_S1x4096_1 (m ((c : Thread nD τ).loc main_arg8) : S4096.Idx → EReal)))) bitsLt_bf16_f32 := by
  after_results_simp <;> rfl

/-- `main_v33` at an index: entry (b, h) of the activations times factor h. -/
theorem v33_apply (x : Cert.Spec.Mat 64 4096) (s : Cert.Spec.Vc 4096)
    (hx : (m ((c : Thread nD τ).loc main_arg0) : S64x4096.Idx → EReal) = x) (hs : (m ((c : Thread nD τ).loc main_arg8) : S4096.Idx → EReal) = s) (b : Fin 64) (h : Fin 4096) :
    (StableHlo.after (hostOps0 (F := Ideal)) (fun b => m (c, b)) (Proc.devRef .tc main_v33) : S64x4096.Idx → EReal) (ix2 b h) = x (ix2 b h) * s (ix1 h) := by
  rw [v33_term, hx, hs]
  show x (ix2 b h)
      * broadcastInDim S64x4096 ![0, 1] bcast_S1x4096_S64x4096_0_1 (broadcastInDim S1x4096 ![1] bcast_S4096_S1x4096_1 s) (ix2 b h) = _
  rw [broadcastInDim_apply _ bcast_S1x4096_S64x4096_0_1 _ (ix2 b h) (ix2 (0 : Fin 1) h) (fun a => match a with
      | ⟨0, _⟩ => rfl
      | ⟨1, _⟩ => rfl),
    broadcastInDim_apply _ bcast_S4096_S1x4096_1 _ (ix2 (0 : Fin 1) h) (ix1 h) (fun a => match a with
      | ⟨0, _⟩ => rfl)]

/-- `main_v37` as the operations' term: the activations times the column factor broadcast over the rows. -/
theorem v37_term :
    (StableHlo.after (hostOps0 (F := Ideal)) (fun b => m (c, b)) (Proc.devRef .tc main_v37) : S64x4096.Idx → EReal)
      = truncf (F := Ideal) .bf16 (mulf (m ((c : Thread nD τ).loc main_arg0) : S64x4096.Idx → EReal)
          (broadcastInDim S64x4096 ![0, 1] bcast_S1x4096_S64x4096_0_1 (broadcastInDim S1x4096 ![1] bcast_S4096_S1x4096_1 (m ((c : Thread nD τ).loc main_arg10) : S4096.Idx → EReal)))) bitsLt_bf16_f32 := by
  after_results_simp <;> rfl

/-- `main_v37` at an index: entry (b, h) of the activations times factor h. -/
theorem v37_apply (x : Cert.Spec.Mat 64 4096) (s : Cert.Spec.Vc 4096)
    (hx : (m ((c : Thread nD τ).loc main_arg0) : S64x4096.Idx → EReal) = x) (hs : (m ((c : Thread nD τ).loc main_arg10) : S4096.Idx → EReal) = s) (b : Fin 64) (h : Fin 4096) :
    (StableHlo.after (hostOps0 (F := Ideal)) (fun b => m (c, b)) (Proc.devRef .tc main_v37) : S64x4096.Idx → EReal) (ix2 b h) = x (ix2 b h) * s (ix1 h) := by
  rw [v37_term, hx, hs]
  show x (ix2 b h)
      * broadcastInDim S64x4096 ![0, 1] bcast_S1x4096_S64x4096_0_1 (broadcastInDim S1x4096 ![1] bcast_S4096_S1x4096_1 s) (ix2 b h) = _
  rw [broadcastInDim_apply _ bcast_S1x4096_S64x4096_0_1 _ (ix2 b h) (ix2 (0 : Fin 1) h) (fun a => match a with
      | ⟨0, _⟩ => rfl
      | ⟨1, _⟩ => rfl),
    broadcastInDim_apply _ bcast_S4096_S1x4096_1 _ (ix2 (0 : Fin 1) h) (ix1 h) (fun a => match a with
      | ⟨0, _⟩ => rfl)]

/-- `main_v38` as the operations' term: `main_arg7` given a leading unit axis. -/
theorem v38_term :
    (StableHlo.after (hostOps0 (F := Ideal)) (fun b => m (c, b)) (Proc.devRef .tc main_v38) : S1x14336.Idx → EReal) = shapeCast S1x14336 (m ((c : Thread nD τ).loc main_arg7) : S14336.Idx → EReal) shapeCasts_S14336_S1x14336 := by
  after_results_simp <;> rfl

/-- `main_v38` at an index: entry (0, i) is entry i of `main_arg7`. -/
theorem v38_apply (s : Cert.Spec.Vc 14336) (hs : (m ((c : Thread nD τ).loc main_arg7) : S14336.Idx → EReal) = s) (u : Fin 1) (i : Fin 14336) :
    (StableHlo.after (hostOps0 (F := Ideal)) (fun b => m (c, b)) (Proc.devRef .tc main_v38) : S1x14336.Idx → EReal) (ix2 u i) = s (ix1 i) := by
  rw [v38_term, hs]
  exact shapeCast_a_1a_apply s shapeCasts_S14336_S1x14336 u i

/-- `main_v39` as the operations' term: `main_arg9` given a leading unit axis. -/
theorem v39_term :
    (StableHlo.after (hostOps0 (F := Ideal)) (fun b => m (c, b)) (Proc.devRef .tc main_v39) : S1x14336.Idx → EReal) = shapeCast S1x14336 (m ((c : Thread nD τ).loc main_arg9) : S14336.Idx → EReal) shapeCasts_S14336_S1x14336 := by
  after_results_simp <;> rfl

/-- `main_v39` at an index: entry (0, i) is entry i of `main_arg9`. -/
theorem v39_apply (s : Cert.Spec.Vc 14336) (hs : (m ((c : Thread nD τ).loc main_arg9) : S14336.Idx → EReal) = s) (u : Fin 1) (i : Fin 14336) :
    (StableHlo.after (hostOps0 (F := Ideal)) (fun b => m (c, b)) (Proc.devRef .tc main_v39) : S1x14336.Idx → EReal) (ix2 u i) = s (ix1 i) := by
  rw [v39_term, hs]
  exact shapeCast_a_1a_apply s shapeCasts_S14336_S1x14336 u i

/-- `main_v40` as the operations' term: `main_arg12` given a leading unit axis. -/
theorem v40_term :
    (StableHlo.after (hostOps0 (F := Ideal)) (fun b => m (c, b)) (Proc.devRef .tc main_v40) : S1x14336.Idx → EReal) = shapeCast S1x14336 (m ((c : Thread nD τ).loc main_arg12) : S14336.Idx → EReal) shapeCasts_S14336_S1x14336 := by
  after_results_simp <;> rfl

/-- `main_v40` at an index: entry (0, i) is entry i of `main_arg12`. -/
theorem v40_apply (s : Cert.Spec.Vc 14336) (hs : (m ((c : Thread nD τ).loc main_arg12) : S14336.Idx → EReal) = s) (u : Fin 1) (i : Fin 14336) :
    (StableHlo.after (hostOps0 (F := Ideal)) (fun b => m (c, b)) (Proc.devRef .tc main_v40) : S1x14336.Idx → EReal) (ix2 u i) = s (ix1 i) := by
  rw [v40_term, hs]
  exact shapeCast_a_1a_apply s shapeCasts_S14336_S1x14336 u i

/-- `main_v41` as the operations' term: `main_arg11` given a leading unit axis. -/
theorem v41_term :
    (StableHlo.after (hostOps0 (F := Ideal)) (fun b => m (c, b)) (Proc.devRef .tc main_v41) : S1x4096.Idx → EReal) = shapeCast S1x4096 (m ((c : Thread nD τ).loc main_arg11) : S4096.Idx → EReal) shapeCasts_S4096_S1x4096 := by
  after_results_simp <;> rfl

/-- `main_v41` at an index: entry (0, i) is entry i of `main_arg11`. -/
theorem v41_apply (s : Cert.Spec.Vc 4096) (hs : (m ((c : Thread nD τ).loc main_arg11) : S4096.Idx → EReal) = s) (u : Fin 1) (i : Fin 4096) :
    (StableHlo.after (hostOps0 (F := Ideal)) (fun b => m (c, b)) (Proc.devRef .tc main_v41) : S1x4096.Idx → EReal) (ix2 u i) = s (ix1 i) := by
  rw [v41_term, hs]
  exact shapeCast_a_1a_apply s shapeCasts_S4096_S1x4096 u i

end Cert.KernelIdeal.HostPrefix

end
-- ==== Proof.HostPrefixB1.lean ====
/-
  What the host operations before the first call leave in a weight array, on the extended reals: the table scaled once by the
  common scale, looked up at the wrapped and clamped codes.
-/
import proofs.«122006_j42176578847199_2_alg».proof.Proof.Gen.KernelIdeal.Launch
import proofs.«122006_j42176578847199_2_alg».proof.Proof.Gather
import proofs.«122006_j42176578847199_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostPrefix

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (c : Dev nD)

set_option maxHeartbeats 4000000

/-- `main_v9` as the operations' term: the table scaled once, gathered at the wrapped codes. -/
theorem v9_term :
    (StableHlo.after (hostOps0 (F := Ideal)) (fun b => m (c, b)) (Proc.devRef .tc main_v9) : S14336x4096.Idx → EReal)
      = Host.gather gather_S4096_S14336x4096x1_S14336x4096_n_0_n_n_0_2_1
          (truncf (F := Ideal) .bf16 (mulf (m ((c : Thread nD τ).loc main_arg1) : S4096.Idx → EReal) (broadcastInDim S4096 ![] bcast_S_S4096 (constant (F := Ideal) S_ .f32 0x3CA3D70A#32))) bitsLt_bf16_f32)
          (broadcastInDim S14336x4096x1 ![0, 1] bcast_S14336x4096_S14336x4096x1_0_1
            (select (cmpi .slt (m ((c : Thread nD τ).loc main_arg4) : IVec S14336x4096 32) (broadcastInDim S14336x4096 ![] bcast_S_S14336x4096 (constantI S_ 32 0#32)))
              (addi (m ((c : Thread nD τ).loc main_arg4) : IVec S14336x4096 32) (broadcastInDim S14336x4096 ![] bcast_S_S14336x4096 (constantI S_ 32 4096#32))) (m ((c : Thread nD τ).loc main_arg4) : IVec S14336x4096 32))) := by
  after_results_simp <;> rfl

/-- `main_v9` at an index: the table entry the code selects, times the scale. -/
theorem v9_apply (lut : Cert.Spec.Vc 4096) (w : IVec S14336x4096 32)
    (hl : (m ((c : Thread nD τ).loc main_arg1) : S4096.Idx → EReal) = lut) (hw : (m ((c : Thread nD τ).loc main_arg4) : IVec S14336x4096 32) = w) (y : S14336x4096.Idx) :
    (StableHlo.after (hostOps0 (F := Ideal)) (fun b => m (c, b)) (Proc.devRef .tc main_v9) : S14336x4096.Idx → EReal) y = lut (ix1 (Cert.Spec.pos (w y))) * Cert.Spec.cS := by
  rw [v9_term, hl, hw]
  refine (Cert.Gather.gather_lookup gather_S4096_S14336x4096x1_S14336x4096_n_0_n_n_0_2_1 gather_S4096_S14336x4096x1_S14336x4096_n_0_n_n_0_2_1_wf rfl bcast_S_S14336x4096 bcast_S_S14336x4096 bcast_S14336x4096_S14336x4096x1_0_1 _ w y).trans ?_
  show lut (ix1 (Cert.Spec.pos (w y)))
      * broadcastInDim S4096 ![] bcast_S_S4096 (constant (F := Ideal) S_ .f32 0x3CA3D70A#32) (ix1 (Cert.Spec.pos (w y))) = _
  rw [broadcastInDim_apply _ bcast_S_S4096 _ _ ix0 (fun a => a.elim0)]
  rfl

end Cert.KernelIdeal.HostPrefix

end
-- ==== Proof.HostPrefixB2.lean ====
/-
  What the host operations before the first call leave in a weight array, on the extended reals: the table scaled once by the
  common scale, looked up at the wrapped and clamped codes.
-/
import proofs.«122006_j42176578847199_2_alg».proof.Proof.Gen.KernelIdeal.Launch
import proofs.«122006_j42176578847199_2_alg».proof.Proof.Gather
import proofs.«122006_j42176578847199_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostPrefix

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (c : Dev nD)

set_option maxHeartbeats 4000000

/-- `main_v19` as the operations' term: the table scaled once, gathered at the wrapped codes. -/
theorem v19_term :
    (StableHlo.after (hostOps0 (F := Ideal)) (fun b => m (c, b)) (Proc.devRef .tc main_v19) : S14336x4096.Idx → EReal)
      = Host.gather gather_S4096_S14336x4096x1_S14336x4096_n_0_n_n_0_2_1
          (truncf (F := Ideal) .bf16 (mulf (m ((c : Thread nD τ).loc main_arg2) : S4096.Idx → EReal) (broadcastInDim S4096 ![] bcast_S_S4096 (constant (F := Ideal) S_ .f32 0x3CA3D70A#32))) bitsLt_bf16_f32)
          (broadcastInDim S14336x4096x1 ![0, 1] bcast_S14336x4096_S14336x4096x1_0_1
            (select (cmpi .slt (m ((c : Thread nD τ).loc main_arg5) : IVec S14336x4096 32) (broadcastInDim S14336x4096 ![] bcast_S_S14336x4096 (constantI S_ 32 0#32)))
              (addi (m ((c : Thread nD τ).loc main_arg5) : IVec S14336x4096 32) (broadcastInDim S14336x4096 ![] bcast_S_S14336x4096 (constantI S_ 32 4096#32))) (m ((c : Thread nD τ).loc main_arg5) : IVec S14336x4096 32))) := by
  after_results_simp <;> rfl

/-- `main_v19` at an index: the table entry the code selects, times the scale. -/
theorem v19_apply (lut : Cert.Spec.Vc 4096) (w : IVec S14336x4096 32)
    (hl : (m ((c : Thread nD τ).loc main_arg2) : S4096.Idx → EReal) = lut) (hw : (m ((c : Thread nD τ).loc main_arg5) : IVec S14336x4096 32) = w) (y : S14336x4096.Idx) :
    (StableHlo.after (hostOps0 (F := Ideal)) (fun b => m (c, b)) (Proc.devRef .tc main_v19) : S14336x4096.Idx → EReal) y = lut (ix1 (Cert.Spec.pos (w y))) * Cert.Spec.cS := by
  rw [v19_term, hl, hw]
  refine (Cert.Gather.gather_lookup gather_S4096_S14336x4096x1_S14336x4096_n_0_n_n_0_2_1 gather_S4096_S14336x4096x1_S14336x4096_n_0_n_n_0_2_1_wf rfl bcast_S_S14336x4096 bcast_S_S14336x4096 bcast_S14336x4096_S14336x4096x1_0_1 _ w y).trans ?_
  show lut (ix1 (Cert.Spec.pos (w y)))
      * broadcastInDim S4096 ![] bcast_S_S4096 (constant (F := Ideal) S_ .f32 0x3CA3D70A#32) (ix1 (Cert.Spec.pos (w y))) = _
  rw [broadcastInDim_apply _ bcast_S_S4096 _ _ ix0 (fun a => a.elim0)]
  rfl

end Cert.KernelIdeal.HostPrefix

end
-- ==== Proof.HostPrefixB3.lean ====
/-
  What the host operations before the first call leave in a weight array, on the extended reals: the table scaled once by the
  common scale, looked up at the wrapped and clamped codes.
-/
import proofs.«122006_j42176578847199_2_alg».proof.Proof.Gen.KernelIdeal.Launch
import proofs.«122006_j42176578847199_2_alg».proof.Proof.Gather
import proofs.«122006_j42176578847199_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostPrefix

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (c : Dev nD)

set_option maxHeartbeats 4000000

/-- `main_v29` as the operations' term: the table scaled once, gathered at the wrapped codes. -/
theorem v29_term :
    (StableHlo.after (hostOps0 (F := Ideal)) (fun b => m (c, b)) (Proc.devRef .tc main_v29) : S4096x14336.Idx → EReal)
      = Host.gather gather_S4096_S4096x14336x1_S4096x14336_n_0_n_n_0_2_1
          (truncf (F := Ideal) .bf16 (mulf (m ((c : Thread nD τ).loc main_arg3) : S4096.Idx → EReal) (broadcastInDim S4096 ![] bcast_S_S4096 (constant (F := Ideal) S_ .f32 0x3CA3D70A#32))) bitsLt_bf16_f32)
          (broadcastInDim S4096x14336x1 ![0, 1] bcast_S4096x14336_S4096x14336x1_0_1
            (select (cmpi .slt (m ((c : Thread nD τ).loc main_arg6) : IVec S4096x14336 32) (broadcastInDim S4096x14336 ![] bcast_S_S4096x14336 (constantI S_ 32 0#32)))
              (addi (m ((c : Thread nD τ).loc main_arg6) : IVec S4096x14336 32) (broadcastInDim S4096x14336 ![] bcast_S_S4096x14336 (constantI S_ 32 4096#32))) (m ((c : Thread nD τ).loc main_arg6) : IVec S4096x14336 32))) := by
  after_results_simp <;> rfl

/-- `main_v29` at an index: the table entry the code selects, times the scale. -/
theorem v29_apply (lut : Cert.Spec.Vc 4096) (w : IVec S4096x14336 32)
    (hl : (m ((c : Thread nD τ).loc main_arg3) : S4096.Idx → EReal) = lut) (hw : (m ((c : Thread nD τ).loc main_arg6) : IVec S4096x14336 32) = w) (y : S4096x14336.Idx) :
    (StableHlo.after (hostOps0 (F := Ideal)) (fun b => m (c, b)) (Proc.devRef .tc main_v29) : S4096x14336.Idx → EReal) y = lut (ix1 (Cert.Spec.pos (w y))) * Cert.Spec.cS := by
  rw [v29_term, hl, hw]
  refine (Cert.Gather.gather_lookup gather_S4096_S4096x14336x1_S4096x14336_n_0_n_n_0_2_1 gather_S4096_S4096x14336x1_S4096x14336_n_0_n_n_0_2_1_wf rfl bcast_S_S4096x14336 bcast_S_S4096x14336 bcast_S4096x14336_S4096x14336x1_0_1 _ w y).trans ?_
  show lut (ix1 (Cert.Spec.pos (w y)))
      * broadcastInDim S4096 ![] bcast_S_S4096 (constant (F := Ideal) S_ .f32 0x3CA3D70A#32) (ix1 (Cert.Spec.pos (w y))) = _
  rw [broadcastInDim_apply _ bcast_S_S4096 _ _ ix0 (fun a => a.elim0)]
  rfl

end Cert.KernelIdeal.HostPrefix

end
-- ==== Proof.HostPrefix.lean ====
/-
  What the host operations before the first call leave, gathered: the two sign-folded activation arrays and the four factor
  rows (HostPrefixA), and the three scaled weight arrays (HostPrefixB1, B2, B3), each read at an index.
-/
import proofs.«122006_j42176578847199_2_alg».proof.Proof.HostPrefixA
import proofs.«122006_j42176578847199_2_alg».proof.Proof.HostPrefixB1
import proofs.«122006_j42176578847199_2_alg».proof.Proof.HostPrefixB2
import proofs.«122006_j42176578847199_2_alg».proof.Proof.HostPrefixB3
import Idealize.ShloMosaic.Lib.ValueIdx

noncomputable section

namespace Cert.KernelIdeal.HostPrefix

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (c : Dev nD)

/-! ## The same, as whole arrays -/

/-- The first sign-folded activation array. -/
theorem v33_eq (x : Cert.Spec.Mat 64 4096) (s : Cert.Spec.Vc 4096)
    (hx : (m ((c : Thread nD τ).loc main_arg0) : S64x4096.Idx → EReal) = x) (hs : (m ((c : Thread nD τ).loc main_arg8) : S4096.Idx → EReal) = s) :
    (StableHlo.after (hostOps0 (F := Ideal)) (fun b => m (c, b)) (Proc.devRef .tc main_v33) : S64x4096.Idx → EReal) = fun j => x j * s (ix1 (j 1)) :=
  funext fun j => by
    obtain ⟨b, h, rfl⟩ : ∃ (b : Fin 64) (h : Fin 4096), j = ix2 b h := ⟨j 0, j 1, eq_ix2 j⟩
    exact v33_apply m c x s hx hs b h

/-- The second sign-folded activation array. -/
theorem v37_eq (x : Cert.Spec.Mat 64 4096) (s : Cert.Spec.Vc 4096)
    (hx : (m ((c : Thread nD τ).loc main_arg0) : S64x4096.Idx → EReal) = x) (hs : (m ((c : Thread nD τ).loc main_arg10) : S4096.Idx → EReal) = s) :
    (StableHlo.after (hostOps0 (F := Ideal)) (fun b => m (c, b)) (Proc.devRef .tc main_v37) : S64x4096.Idx → EReal) = fun j => x j * s (ix1 (j 1)) :=
  funext fun j => by
    obtain ⟨b, h, rfl⟩ : ∃ (b : Fin 64) (h : Fin 4096), j = ix2 b h := ⟨j 0, j 1, eq_ix2 j⟩
    exact v37_apply m c x s hx hs b h

/-- `main_arg7` as a one-row matrix. -/
theorem v38_eq (s : Cert.Spec.Vc 14336) (hs : (m ((c : Thread nD τ).loc main_arg7) : S14336.Idx → EReal) = s) :
    (StableHlo.after (hostOps0 (F := Ideal)) (fun b => m (c, b)) (Proc.devRef .tc main_v38) : S1x14336.Idx → EReal) = fun j => s (ix1 (j 1)) :=
  funext fun j => by
    obtain ⟨u, i, rfl⟩ : ∃ (u : Fin 1) (i : Fin 14336), j = ix2 u i := ⟨j 0, j 1, eq_ix2 j⟩
    exact v38_apply m c s hs u i

/-- `main_arg9` as a one-row matrix. -/
theorem v39_eq (s : Cert.Spec.Vc 14336) (hs : (m ((c : Thread nD τ).loc main_arg9) : S14336.Idx → EReal) = s) :
    (StableHlo.after (hostOps0 (F := Ideal)) (fun b => m (c, b)) (Proc.devRef .tc main_v39) : S1x14336.Idx → EReal) = fun j => s (ix1 (j 1)) :=
  funext fun j => by
    obtain ⟨u, i, rfl⟩ : ∃ (u : Fin 1) (i : Fin 14336), j = ix2 u i := ⟨j 0, j 1, eq_ix2 j⟩
    exact v39_apply m c s hs u i

/-- `main_arg12` as a one-row matrix. -/
theorem v40_eq (s : Cert.Spec.Vc 14336) (hs : (m ((c : Thread nD τ).loc main_arg12) : S14336.Idx → EReal) = s) :
    (StableHlo.after (hostOps0 (F := Ideal)) (fun b => m (c, b)) (Proc.devRef .tc main_v40) : S1x14336.Idx → EReal) = fun j => s (ix1 (j 1)) :=
  funext fun j => by
    obtain ⟨u, i, rfl⟩ : ∃ (u : Fin 1) (i : Fin 14336), j = ix2 u i := ⟨j 0, j 1, eq_ix2 j⟩
    exact v40_apply m c s hs u i

/-- `main_arg11` as a one-row matrix. -/
theorem v41_eq (s : Cert.Spec.Vc 4096) (hs : (m ((c : Thread nD τ).loc main_arg11) : S4096.Idx → EReal) = s) :
    (StableHlo.after (hostOps0 (F := Ideal)) (fun b => m (c, b)) (Proc.devRef .tc main_v41) : S1x4096.Idx → EReal) = fun j => s (ix1 (j 1)) :=
  funext fun j => by
    obtain ⟨u, i, rfl⟩ : ∃ (u : Fin 1) (i : Fin 4096), j = ix2 u i := ⟨j 0, j 1, eq_ix2 j⟩
    exact v41_apply m c s hs u i

/-- A weight array: the looked-up table entries, scaled. -/
theorem v9_eq (lut : Cert.Spec.Vc 4096) (w : IVec S14336x4096 32)
    (hl : (m ((c : Thread nD τ).loc main_arg1) : S4096.Idx → EReal) = lut) (hw : (m ((c : Thread nD τ).loc main_arg4) : IVec S14336x4096 32) = w) :
    (StableHlo.after (hostOps0 (F := Ideal)) (fun b => m (c, b)) (Proc.devRef .tc main_v9) : S14336x4096.Idx → EReal) = fun y => lut (ix1 (Cert.Spec.pos (w y))) * Cert.Spec.cS :=
  funext fun y => v9_apply m c lut w hl hw y

/-- A weight array: the looked-up table entries, scaled. -/
theorem v19_eq (lut : Cert.Spec.Vc 4096) (w : IVec S14336x4096 32)
    (hl : (m ((c : Thread nD τ).loc main_arg2) : S4096.Idx → EReal) = lut) (hw : (m ((c : Thread nD τ).loc main_arg5) : IVec S14336x4096 32) = w) :
    (StableHlo.after (hostOps0 (F := Ideal)) (fun b => m (c, b)) (Proc.devRef .tc main_v19) : S14336x4096.Idx → EReal) = fun y => lut (ix1 (Cert.Spec.pos (w y))) * Cert.Spec.cS :=
  funext fun y => v19_apply m c lut w hl hw y

/-- A weight array: the looked-up table entries, scaled. -/
theorem v29_eq (lut : Cert.Spec.Vc 4096) (w : IVec S4096x14336 32)
    (hl : (m ((c : Thread nD τ).loc main_arg3) : S4096.Idx → EReal) = lut) (hw : (m ((c : Thread nD τ).loc main_arg6) : IVec S4096x14336 32) = w) :
    (StableHlo.after (hostOps0 (F := Ideal)) (fun b => m (c, b)) (Proc.devRef .tc main_v29) : S4096x14336.Idx → EReal) = fun y => lut (ix1 (Cert.Spec.pos (w y))) * Cert.Spec.cS :=
  funext fun y => v29_apply m c lut w hl hw y

end Cert.KernelIdeal.HostPrefix

end
-- ==== Proof.Stage2Pieces.lean ====
/-
  What the second call's body leaves in its scratch and in its output block, case by case, read back as values:
  the first inner step leaves the accumulation payload over the cleared scratch, a later step the accumulation payload over
  what it found, and the last step also stores the sign payload of the finished sum into the output block.
-/
import proofs.«122006_j42176578847199_2_alg».proof.Proof.Stage2Ideal
import Idealize.ShloMosaic.Lib.Pipeline.Value

set_option maxRecDepth 16384

noncomputable section

open Idealize.ShloMosaic Idealize.ShloMosaic.TcCoe Idealize.SL.Sem Idealize.ShloMosaic.Tactic
open Idealize.ShloMosaic.Pipeline (Dat)

namespace Cert.KernelIdeal.Stage2Pieces

open Cert.KernelIdeal Cert.KernelIdeal.Gen Cert.KernelIdeal.Hand

variable {F : FTy → Type} [FloatOps F]

theorem hz : (![0, 0] : Fin 2 → Nat) = fun _ => 0 := funext fun a => by fin_cases a <;> rfl

/-- A MIDDLE STEP leaves, in the scratch holding `xs0`, the accumulation payload of the two input blocks and `xs0`. -/
theorem sout_B (c : Dev nD) (i : grid1.Coords) (a2 : Memref sig .tc .vmem S64x512 .bf16) (h2 : a2.IsWhole) (a3 : Memref sig .tc .vmem S2048x512 .bf16) (h3 : a3.IsWhole) (a4 : Memref sig .tc .vmem S1x2048 .f32) (h4 : a4.IsWhole) (a5 : Memref sig .tc .vmem S64x2048 .f32) (h5 : a5.IsWhole) (a6 : Memref sig .tc .vmem S64x2048 .f32) (h6 : a6.IsWhole) (hc0 : ¬cond1_0 i) (hc1 : ¬cond1_1 i)
    (x0 : Vec F S64x512 .bf16) (x1 : Vec F S2048x512 .bf16) (x2 : Vec F S1x2048 .f32) (xs0 : Vec F S64x2048 .f32) :
    sout1_B c i a2 h2 a3 h3 a4 h4 a5 h5 a6 h6 hc0 hc1 x0 x1 x2 xs0 = k1_pay2 x0 x1 xs0 := by
  unfold sout1_B
  rw [View.read_writes_eq_canon _ _ _ (scover1_B c i a2 h2 a3 h3 a4 h4 a5 h5 a6 h6 hc0 hc1 x0 x1 x2 xs0)]
  unfold kernelRun1_B
  dsimp only
  rw [View.canon_unit_zero hz]
  simp only [View.readAt_eq_ld, h2.read_unread, h3.read_unread, h6.read_unread, View.ld_unit_zero (S := S64x512) hz,
    View.ld_unit_zero (S := S2048x512) hz, View.ld_unit_zero (S := S64x2048) hz]

/-- THE FIRST INNER STEP clears the scratch, reads the cleared scratch back and leaves the accumulation payload over it. -/
theorem sout_A (c : Dev nD) (i : grid1.Coords) (a2 : Memref sig .tc .vmem S64x512 .bf16) (h2 : a2.IsWhole) (a3 : Memref sig .tc .vmem S2048x512 .bf16) (h3 : a3.IsWhole) (a4 : Memref sig .tc .vmem S1x2048 .f32) (h4 : a4.IsWhole) (a5 : Memref sig .tc .vmem S64x2048 .f32) (h5 : a5.IsWhole) (a6 : Memref sig .tc .vmem S64x2048 .f32) (h6 : a6.IsWhole) (hc0 : cond1_0 i) (hc1 : ¬cond1_1 i)
    (x0 : Vec F S64x512 .bf16) (x1 : Vec F S2048x512 .bf16) (x2 : Vec F S1x2048 .f32) :
    sout1_A c i a2 h2 a3 h3 a4 h4 a5 h5 a6 h6 hc0 hc1 x0 x1 x2 = k1_pay2 x0 x1 (k1_pay1 (F := F)) := by
  unfold sout1_A
  rw [View.read_writes_eq_canon _ _ _ (scover1_A c i a2 h2 a3 h3 a4 h4 a5 h5 a6 h6 hc0 hc1 x0 x1 x2)]
  unfold kernelRun1_A
  dsimp only
  sl_unfold_words
  rw [View.canon_cons_unit_zero (S := S64x2048) hz, View.readCov_unit_zero (S := S64x2048) _ hz]
  simp only [View.readAt_eq_ld, h2.read_unread, h3.read_unread, View.ld_unit_zero (S := S64x512) hz,
    View.ld_unit_zero (S := S2048x512) hz, View.ld_unit_zero (S := S64x2048) hz]

/-- THE LAST INNER STEP leaves the accumulation payload in the scratch, like a middle step, -/
theorem sout_C (c : Dev nD) (i : grid1.Coords) (a2 : Memref sig .tc .vmem S64x512 .bf16) (h2 : a2.IsWhole) (a3 : Memref sig .tc .vmem S2048x512 .bf16) (h3 : a3.IsWhole) (a4 : Memref sig .tc .vmem S1x2048 .f32) (h4 : a4.IsWhole) (a5 : Memref sig .tc .vmem S64x2048 .f32) (h5 : a5.IsWhole) (a6 : Memref sig .tc .vmem S64x2048 .f32) (h6 : a6.IsWhole) (hc0 : ¬cond1_0 i) (hc1 : cond1_1 i)
    (x0 : Vec F S64x512 .bf16) (x1 : Vec F S2048x512 .bf16) (x2 : Vec F S1x2048 .f32) (xs0 : Vec F S64x2048 .f32) :
    sout1_C c i a2 h2 a3 h3 a4 h4 a5 h5 a6 h6 hc0 hc1 x0 x1 x2 xs0 = k1_pay2 x0 x1 xs0 := by
  unfold sout1_C
  rw [View.read_writes_eq_canon _ _ _ (scover1_C c i a2 h2 a3 h3 a4 h4 a5 h5 a6 h6 hc0 hc1 x0 x1 x2 xs0)]
  unfold kernelRun1_C
  dsimp only
  sl_unfold_words
  rw [View.canon_unit_zero hz]
  simp only [View.readAt_eq_ld, h2.read_unread, h3.read_unread, h6.read_unread, View.ld_unit_zero (S := S64x512) hz,
    View.ld_unit_zero (S := S2048x512) hz, View.ld_unit_zero (S := S64x2048) hz]

/-- and stores into the output block the sign payload of the row signs and the scratch it has just written. -/
theorem out_C (c : Dev nD) (i : grid1.Coords) (a2 : Memref sig .tc .vmem S64x512 .bf16) (h2 : a2.IsWhole) (a3 : Memref sig .tc .vmem S2048x512 .bf16) (h3 : a3.IsWhole) (a4 : Memref sig .tc .vmem S1x2048 .f32) (h4 : a4.IsWhole) (a5 : Memref sig .tc .vmem S64x2048 .f32) (h5 : a5.IsWhole) (a6 : Memref sig .tc .vmem S64x2048 .f32) (h6 : a6.IsWhole) (hc0 : ¬cond1_0 i) (hc1 : cond1_1 i)
    (x0 : Vec F S64x512 .bf16) (x1 : Vec F S2048x512 .bf16) (x2 : Vec F S1x2048 .f32) (xs0 : Vec F S64x2048 .f32) :
    out1_C c i a2 h2 a3 h3 a4 h4 a5 h5 a6 h6 hc0 hc1 x0 x1 x2 xs0 = k1_pay3 x2 (k1_pay2 x0 x1 xs0) := by
  unfold out1_C
  rw [View.read_writes_eq_canon _ _ _ (cover1_C c i a2 h2 a3 h3 a4 h4 a5 h5 a6 h6 hc0 hc1 x0 x1 x2 xs0)]
  unfold kernelRun1_C
  dsimp only
  sl_unfold_words
  rw [View.canon_unit_zero hz, View.readCov_unit_zero (S := S64x2048) _ hz]
  simp only [View.readAt_eq_ld, h2.read_unread, h3.read_unread, h4.read_unread, h6.read_unread, View.ld_unit_zero (S := S64x512) hz,
    View.ld_unit_zero (S := S2048x512) hz, View.ld_unit_zero (S := S64x2048) hz, View.ld_unit_zero (S := S1x2048) hz]

end Cert.KernelIdeal.Stage2Pieces

end
-- ==== Proof.Stage2Payload.lean ====
/-
  The second call's three payloads read at an index, on the extended reals. The body clears its accumulator at the first
  step of the reduction axis, adds one block's contraction over 512 hidden features to it at every step, and at the last
  step multiplies the accumulated row by the row factor:
  * the cleared accumulator is `0` everywhere;
  * the accumulated block at `(b, q)` is the accumulator there plus `∑ l, x0 (b, l) * x1 (q, l)`;
  * the scaled block at `(b, q)` is the accumulator there times the row factor at `q`.
-/
import proofs.«122006_j42176578847199_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Stage2Payload

open Idealize.ShloMosaic Idealize.ShloMosaic.ValueIdx Cert.KernelIdeal Cert.KernelIdeal.Gen

/-- The cleared accumulator. -/
theorem pay1_apply (b : Fin 64) (q : Fin 2048) : (k1_pay1 (F := Ideal)) (ix2 b q) = 0 := by
  unfold k1_pay1
  simp only [shapeCast_self]
  exact Ideal.ofBits_zero_f32

/-- The left operand's row coordinate at an output index is the output's row. -/
theorem lhs_0 (i : S64x2048.Idx) (k : dot_S64x512_S2048x512_S64x2048_1_1_0_0_n_n.contr.Idx) : (dot_S64x512_S2048x512_S64x2048_1_1_0_0_n_n.lhsIdx i k 0).val = (i 0).val := by
  unfold DotDims.lhsIdx
  rw [dif_neg (show ¬(0 : Fin S64x512.rank) ∈ dot_S64x512_S2048x512_S64x2048_1_1_0_0_n_n.lhsBatch by decide), dif_pos (show (0 : Fin S64x512.rank) ∈ dot_S64x512_S2048x512_S64x2048_1_1_0_0_n_n.lhsNonContracting by decide)]
  rfl

/-- The right operand's row coordinate at an output index is the output's column. -/
theorem rhs_0 (i : S64x2048.Idx) (k : dot_S64x512_S2048x512_S64x2048_1_1_0_0_n_n.contr.Idx) : (dot_S64x512_S2048x512_S64x2048_1_1_0_0_n_n.rhsIdx i k 0).val = (i 1).val := by
  unfold DotDims.rhsIdx
  rw [dif_neg (show ¬(0 : Fin S2048x512.rank) ∈ dot_S64x512_S2048x512_S64x2048_1_1_0_0_n_n.rhsBatch by decide), dif_pos (show (0 : Fin S2048x512.rank) ∈ dot_S64x512_S2048x512_S64x2048_1_1_0_0_n_n.rhsNonContracting by decide)]
  rfl

/-- The contraction into a zero accumulator, at an index: row `b` of the left operand against row `q` of the right. -/
theorem matmul_zero_apply (l : FVec Ideal S64x512 .bf16) (r : FVec Ideal S2048x512 .bf16) (b : Fin 64) (q : Fin 2048) :
    matmul (F := Ideal) dot_S64x512_S2048x512_S64x2048_1_1_0_0_n_n none l r (constant (F := Ideal) S64x2048 .f32 0x00000000#32) (ix2 b q)
      = ∑ h : Fin 512, l (ix2 b h) * r (ix2 q h) := by
  show FloatOps.matmul dot_S64x512_S2048x512_S64x2048_1_1_0_0_n_n none l r (constant (F := Ideal) S64x2048 .f32 0x00000000#32) (ix2 b q) = _
  rw [Ideal.matmul_constant_zero_apply, ← Equiv.sum_comp (contrEquiv1 dot_S64x512_S2048x512_S64x2048_1_1_0_0_n_n 512 rfl rfl).symm]
  refine Finset.sum_congr rfl fun k _ => ?_
  have hk := contrEquiv1_symm_val dot_S64x512_S2048x512_S64x2048_1_1_0_0_n_n 512 rfl rfl k
  have el : dot_S64x512_S2048x512_S64x2048_1_1_0_0_n_n.lhsIdx (ix2 b q) ((contrEquiv1 dot_S64x512_S2048x512_S64x2048_1_1_0_0_n_n 512 rfl rfl).symm k) = ix2 b k :=
    funext fun a => Fin.ext (by
      match a with
      | ⟨0, _⟩ => exact lhs_0 _ _
      | ⟨1, _⟩ => exact (dot_S64x512_S2048x512_S64x2048_1_1_0_0_n_n.lhsIdx_val_of_single rfl (ix2 b q) _).trans hk)
  have er : dot_S64x512_S2048x512_S64x2048_1_1_0_0_n_n.rhsIdx (ix2 b q) ((contrEquiv1 dot_S64x512_S2048x512_S64x2048_1_1_0_0_n_n 512 rfl rfl).symm k) = ix2 q k :=
    funext fun a => Fin.ext (by
      match a with
      | ⟨0, _⟩ => exact rhs_0 _ _
      | ⟨1, _⟩ => exact (dot_S64x512_S2048x512_S64x2048_1_1_0_0_n_n.rhsIdx_val_of_single rfl (ix2 b q) _).trans hk)
  rw [el, er]

/-- The accumulated block. -/
theorem pay2_apply (x0 : Vec Ideal S64x512 .bf16) (x1 : Vec Ideal S2048x512 .bf16) (s : Vec Ideal S64x2048 .f32)
    (b : Fin 64) (q : Fin 2048) :
    k1_pay2 (F := Ideal) x0 x1 s (ix2 b q) = s (ix2 b q) + ∑ l : Fin 512, x0 (ix2 b l) * x1 (ix2 q l) := by
  unfold k1_pay2
  simp only [shapeCast_self]
  show s (ix2 b q) + matmul (F := Ideal) dot_S64x512_S2048x512_S64x2048_1_1_0_0_n_n none x0 x1 (constant (F := Ideal) S64x2048 .f32 0x00000000#32) (ix2 b q) = _
  rw [matmul_zero_apply]

/-- The scaled block. -/
theorem pay3_apply (x2 : Vec Ideal S1x2048 .f32) (s : Vec Ideal S64x2048 .f32) (b : Fin 64) (q : Fin 2048) :
    k1_pay3 (F := Ideal) x2 s (ix2 b q) = s (ix2 b q) * x2 (ix2 (0 : Fin 1) q) := by
  unfold k1_pay3
  simp only [shapeCast_self]
  show s (ix2 b q) * broadcastTo S64x2048 x2 broadcasts_S1x2048_S64x2048 (ix2 b q) = _
  rw [broadcastTo_1b_ab_apply x2]

end Cert.KernelIdeal.Stage2Payload

end
-- ==== Proof.Stage2Value.lean ====
/-
  The second call's result array as one function of the arrays it is entered with.

  Write `hid` for the hidden activations [64, 14336], `wd` for the down weights [4096, 14336] and `sld` for the row signs
  [1, 4096]. Grid point `t` of the 2 × 28 grid has outer coordinate `t / 28` (which half of the 4096 output columns) and inner
  coordinate `t % 28` (which block of 512 of the contracted axis). After point `t` the scratch holds the sum of the block
  products of inner steps `0 … t % 28` (an induction on the point); the last inner step multiplies the finished sum by the
  row signs and that block is written back. The 28 block sums of 512 terms are one sum of 14336 terms: only associativity and
  commutativity of addition on the extended reals are used.
-/
import proofs.«122006_j42176578847199_2_alg».proof.Proof.Stage2Pieces
import proofs.«122006_j42176578847199_2_alg».proof.Proof.Stage2Payload
import proofs.«122006_j42176578847199_2_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Stage2Value

open Cert.KernelIdeal Cert.KernelIdeal.Gen Cert.KernelIdeal.Hand Cert.KernelIdeal.Stage2Pieces Cert.KernelIdeal.Stage2Payload Cert.Spec

/-! ## Sums of blocks -/

/-- A sum over `K` consecutive blocks of 512 is the sum over the first `512 * K` naturals. -/
theorem sum_blocks (f : ℕ → EReal) : ∀ K : ℕ, ∑ k ∈ Finset.range K, ∑ l ∈ Finset.range 512, f (512 * k + l) = ∑ i ∈ Finset.range (512 * K), f i
  | 0 => by simp
  | K + 1 => by rw [Finset.sum_range_succ, sum_blocks f K, Nat.mul_succ, Finset.sum_range_add]

/-- The 28 block sums are the whole sum over the contracted axis. -/
theorem regroup (f : ℕ → EReal) : ∑ k ∈ Finset.range 28, ∑ l : Fin 512, f (512 * k + l) = ∑ i : Fin 14336, f i := by
  rw [Fin.sum_univ_eq_sum_range f 14336, show (14336 : ℕ) = 512 * 28 from rfl, ← sum_blocks f 28]
  refine Finset.sum_congr rfl fun k _ => ?_
  exact Fin.sum_univ_eq_sum_range (fun l => f (512 * k + l)) 512

/-! ## The entry arrays, indexed by naturals (zero outside their extents) -/

section
variable (hid : Mat 64 14336) (wd : Mat 4096 14336) (sld : Mat 1 4096)

def hidN (b : Fin 64) (i : ℕ) : EReal := if h : i < 14336 then hid (ix2 b ⟨i, h⟩) else 0
def wdN (r i : ℕ) : EReal := if h : r < 4096 ∧ i < 14336 then wd (ix2 ⟨r, h.1⟩ ⟨i, h.2⟩) else 0
def sldN (r : ℕ) : EReal := if h : r < 4096 then sld (ix2 (0 : Fin 1) ⟨r, h⟩) else 0

/-- One block product: block `k` of the contracted axis, output column `2048 * jj + q`. -/
def term (jj k : ℕ) (b : Fin 64) (q : Fin 2048) : EReal :=
  ∑ l : Fin 512, hidN hid b (512 * k + l) * wdN wd (2048 * jj + q) (512 * k + l)

/-- The result array: hidden activations against a row of the down weights, then the row sign. -/
def G : S64x4096.Idx → EReal :=
  fun y => (∑ i : Fin 14336, hid (ix2 (y 0) i) * wd (ix2 (y 1) i)) * sld (ix2 (0 : Fin 1) (y 1))

theorem G_eq (jj : ℕ) (b : Fin 64) (q : Fin 2048) (hr : 2048 * jj + q.val < 4096) :
    (∑ k ∈ Finset.range 28, term hid wd jj k b q) * sldN sld (2048 * jj + q) = G hid wd sld (ix2 b ⟨2048 * jj + q, hr⟩) := by
  unfold term G
  rw [regroup (fun i => hidN hid b i * wdN wd (2048 * jj + q) i)]
  unfold sldN; rw [dif_pos hr]
  refine congrArg (· * _) (Finset.sum_congr rfl fun i _ => ?_)
  unfold hidN wdN; rw [dif_pos i.isLt, dif_pos ⟨hr, i.isLt⟩]
end

/-! ## The windows' index maps over the grid, and the blocks read off the entry arrays -/

theorem idx1 : ∀ t : Fin cfg1.N, win1_0.index t (0 : Fin 2) = 0 ∧ win1_0.index t (1 : Fin 2) = t.val % 28
    ∧ win1_1.index t (0 : Fin 2) = t.val / 28 ∧ win1_1.index t (1 : Fin 2) = t.val % 28
    ∧ win1_2.index t (0 : Fin 2) = 0 ∧ win1_2.index t (1 : Fin 2) = t.val / 28
    ∧ win1_3.index t (0 : Fin 2) = 0 ∧ win1_3.index t (1 : Fin 2) = t.val / 28 :=
  (by decide +kernel : ∀ t : Fin grid1.N, _)

section
variable (V : (c : Dev nD) → (b : Ref sig .tc) → Buf (Elt Ideal) ((c : Thread nD τ).loc b)) (c : Dev nD)
variable (hid : Mat 64 14336) (wd : Mat 4096 14336) (sld : Mat 1 4096)
variable (h42 : (V c main_v42 : S64x14336.Idx → EReal) = hid) (h29 : (V c main_v29 : S4096x14336.Idx → EReal) = wd)
  (h41 : (V c main_v41 : S1x4096.Idx → EReal) = sld)

include h42 in
theorem blk0 (t : Fin cfg1.N) (b : Fin 64) (l : Fin 512) :
    (iblk1 V c 0 t : Vec Ideal S64x512 .bf16) (ix2 b l) = hidN hid b (512 * (t.val % 28) + l) := by
  obtain ⟨e0, e1, -⟩ := idx1 t
  have hl := l.isLt; have ht : t.val % 28 < 28 := Nat.mod_lt _ (by norm_num)
  unfold hidN; rw [dif_pos (by omega)]
  unfold iblk1; rw [View.read_apply]
  show V c main_v42 _ = _
  rw [h42]
  congr 1; funext a; apply Fin.ext
  match a with
  | ⟨0, _⟩ => show win1_0.index t (0 : Fin 2) * 64 + 1 * b.val = b.val; rw [e0]; omega
  | ⟨1, _⟩ => show win1_0.index t (1 : Fin 2) * 512 + 1 * l.val = 512 * (t.val % 28) + l.val; rw [e1]; omega

include h29 in
theorem blk1 (t : Fin cfg1.N) (q : Fin 2048) (l : Fin 512) :
    (iblk1 V c 1 t : Vec Ideal S2048x512 .bf16) (ix2 q l) = wdN wd (2048 * (t.val / 28) + q) (512 * (t.val % 28) + l) := by
  obtain ⟨-, -, e2, e3, -⟩ := idx1 t
  have hl := l.isLt; have hq := q.isLt; have ht : t.val % 28 < 28 := Nat.mod_lt _ (by norm_num)
  have hN : t.val < 56 := lt_of_lt_of_eq t.isLt (show cfg1.N = 56 from N_1)
  unfold wdN; rw [dif_pos (by omega)]
  unfold iblk1; rw [View.read_apply]
  show V c main_v29 _ = _
  rw [h29]
  congr 1; funext a; apply Fin.ext
  match a with
  | ⟨0, _⟩ => show win1_1.index t (0 : Fin 2) * 2048 + 1 * q.val = 2048 * (t.val / 28) + q.val; rw [e2]; omega
  | ⟨1, _⟩ => show win1_1.index t (1 : Fin 2) * 512 + 1 * l.val = 512 * (t.val % 28) + l.val; rw [e3]; omega

include h41 in
theorem blk2 (t : Fin cfg1.N) (q : Fin 2048) :
    (iblk1 V c 2 t : Vec Ideal S1x2048 .f32) (ix2 (0 : Fin 1) q) = sldN sld (2048 * (t.val / 28) + q) := by
  obtain ⟨-, -, -, -, e4, e5, -⟩ := idx1 t
  have hq := q.isLt
  have hN : t.val < 56 := lt_of_lt_of_eq t.isLt (show cfg1.N = 56 from N_1)
  unfold sldN; rw [dif_pos (by omega)]
  unfold iblk1; rw [View.read_apply]
  show V c main_v41 _ = _
  rw [h41]
  congr 1; funext a; apply Fin.ext
  match a with
  | ⟨0, _⟩ => show win1_2.index t (0 : Fin 2) * 1 + 1 * 0 = 0; rw [e4]
  | ⟨1, _⟩ => show win1_2.index t (1 : Fin 2) * 2048 + 1 * q.val = 2048 * (t.val / 28) + q.val; rw [e5]; omega

/-! ## The running sum -/

include h42 h29 in
/-- The block product the body adds at point `t`. -/
theorem prod_eq (t : Fin cfg1.N) (b : Fin 64) (q : Fin 2048) (x0 : Vec Ideal S64x512 .bf16) (x1 : Vec Ideal S2048x512 .bf16)
    (hx0 : x0 = iblk1 V c 0 t) (hx1 : x1 = iblk1 V c 1 t) :
    ∑ l : Fin 512, x0 (ix2 b l) * x1 (ix2 q l) = term hid wd (t.val / 28) (t.val % 28) b q := by
  subst hx0 hx1
  unfold term
  refine Finset.sum_congr rfl fun l _ => ?_
  rw [blk0 V c hid h42 t b l, blk1 V c wd h29 t q l]

include h42 h29 in
/-- After point `n` the scratch holds the block products of the inner steps so far. -/
theorem scr_eq : ∀ (n : ℕ) (hn : n < cfg1.N) (b : Fin 64) (q : Fin 2048),
    (outsAt1 V c n hn).2 (ix2 b q) = ∑ k ∈ Finset.range (n % 28 + 1), term hid wd (n / 28) k b q
  | 0, hn, b, q => by
    rw [outsAt1_A V c ⟨0, hn⟩ rfl (by show ¬ (0 : ℕ) % 28 = 27; decide)]
    dsimp only
    rw [sout_A, pay2_apply, pay1_apply, zero_add, prod_eq V c hid wd h42 h29 ⟨0, hn⟩ b q _ _ rfl rfl]
    simp
  | n + 1, hn, b, q => by
    have hN : n + 1 < 56 := lt_of_lt_of_eq hn (show cfg1.N = 56 from N_1)
    by_cases h0 : (n + 1) % 28 = 0
    · have h1 : ¬ (n + 1) % 28 = 27 := by omega
      rw [outsAt1_A V c ⟨n + 1, hn⟩ h0 h1]
      dsimp only
      rw [sout_A, pay2_apply, pay1_apply, zero_add, prod_eq V c hid wd h42 h29 ⟨n + 1, hn⟩ b q _ _ rfl rfl]
      show term hid wd ((n + 1) / 28) ((n + 1) % 28) b q = _
      rw [h0]; simp
    · have ih := scr_eq n (Nat.lt_of_succ_lt hn) b q
      have e1 : (n + 1) % 28 = n % 28 + 1 := by omega
      have e2 : (n + 1) / 28 = n / 28 := by omega
      by_cases h1 : (n + 1) % 28 = 27
      · rw [outsAt1_C V c ⟨n + 1, hn⟩ h0 h1]
        dsimp only
        rw [sout_C, pay2_apply]
        show (outsAt1 V c n _).2 (ix2 b q) + _ = _
        rw [ih, prod_eq V c hid wd h42 h29 ⟨n + 1, hn⟩ b q _ _ rfl rfl]
        show _ + term hid wd ((n + 1) / 28) ((n + 1) % 28) b q = _
        rw [e1, e2, Finset.sum_range_succ _ (n % 28 + 1)]
      · rw [outsAt1_B V c ⟨n + 1, hn⟩ h0 h1]
        dsimp only
        rw [sout_B, pay2_apply]
        show (outsAt1 V c n _).2 (ix2 b q) + _ = _
        rw [ih, prod_eq V c hid wd h42 h29 ⟨n + 1, hn⟩ b q _ _ rfl rfl]
        show _ + term hid wd ((n + 1) / 28) ((n + 1) % 28) b q = _
        rw [e1, e2, Finset.sum_range_succ _ (n % 28 + 1)]

include h42 h29 h41 in
/-- At a last inner step the output block holds the finished sum times the row sign. -/
theorem out_eq (t : Fin cfg1.N) (h1 : t.val % 28 = 27) (b : Fin 64) (q : Fin 2048) :
    (outsAt1 V c t.val t.isLt).1 (ix2 b q)
      = (∑ k ∈ Finset.range 28, term hid wd (t.val / 28) k b q) * sldN sld (2048 * (t.val / 28) + q) := by
  have h0 : ¬ t.val % 28 = 0 := by omega
  have hs := scr_eq V c hid wd h42 h29 t.val t.isLt b q
  rw [outsAt1_C V c t h0 h1] at hs ⊢
  dsimp only at hs ⊢
  have h28 : Finset.range 28 = Finset.range (t.val % 28 + 1) := by rw [h1]
  rw [h28]
  refine Eq.trans ?_ (congrArg (· * _) hs)
  rw [out_C, sout_C, pay3_apply, blk2 V c sld h41 t q]

/-! ## From the blocks to the array -/

/-- An index of the array is in point `t`'s block iff each coordinate is in the block's range on its axis. -/
theorem mem_blk3 (t : Fin cfg1.N) (i : S64x4096.Idx) :
    i ∈ ((cfg1.win 3).blk t).view.set ↔ ∀ a : Fin 2, win1_3.index t a * S64x2048.size a ≤ (i a).val ∧ (i a).val < win1_3.index t a * S64x2048.size a + S64x2048.size a := by
  show i ∈ ((View.whole main_v43).slice (win1_3.rect t)).set ↔ _
  rw [View.set_slice_whole, Rect.mem_set_unit]
  exact Iff.rfl

include h42 h29 h41 in
/-- What a last inner step writes back is its block of `G`. -/
theorem flushed_eq (t : Fin cfg1.N) (hf : (cfg1.win 3).flush t = true) :
    (dat1 V c).flushed 3 t = ((cfg1.win 3).blk t).view.read (Elt Ideal) (G hid wd sld) := by
  have h1 : t.val % 28 = 27 := (flush1_3 t).mp hf
  obtain ⟨-, -, -, -, -, -, e6, e7⟩ := idx1 t
  have hN : t.val < 56 := lt_of_lt_of_eq t.isLt (show cfg1.N = 56 from N_1)
  show (cfg1.win 3).cut (grid1.coords t) ((dat1 V c).after 3 t) = _
  rw [after1_3]
  funext j
  obtain ⟨b, q, rfl⟩ : ∃ (b : Fin 64) (q : Fin 2048), j = ix2 b q := ⟨j 0, j 1, eq_ix2 j⟩
  rw [View.read_apply]
  show (outsAt1 V c t.val t.isLt).1 (ix2 b q) = _
  rw [out_eq V c hid wd sld h42 h29 h41 t h1 b q, G_eq hid wd sld (t.val / 28) b q (by have := q.isLt; omega)]
  congr 1; funext a; apply Fin.ext
  match a with
  | ⟨0, _⟩ => show b.val = win1_3.index t (0 : Fin 2) * 64 + 1 * b.val; rw [e6]; omega
  | ⟨1, _⟩ => show 2048 * (t.val / 28) + q.val = win1_3.index t (1 : Fin 2) * 2048 + 1 * q.val; rw [e7]; omega

include h42 h29 h41 in
/-- The result array after the run is `G` of the entry arrays: the two last inner steps' blocks tile it. -/
theorem final : (dat1 V c).arrAt 3 cfg1.N = G hid wd sld :=
  (dat1 V c).arrAt_eq_of_cover 3 (G hid wd sld) (flushed_eq V c hid wd sld h42 h29 h41) fun i => by
    have hi0 : (i 0).val < 64 := (i 0).isLt
    have hi1 : (i 1).val < 4096 := (i 1).isLt
    have hlt : 28 * ((i 1).val / 2048) + 27 < cfg1.N := by rw [show cfg1.N = 56 from N_1]; omega
    refine ⟨⟨28 * ((i 1).val / 2048) + 27, hlt⟩, (flush1_3 _).mpr (by show (28 * ((i 1).val / 2048) + 27) % 28 = 27; omega), ?_⟩
    obtain ⟨-, -, -, -, -, -, e6, e7⟩ := idx1 ⟨28 * ((i 1).val / 2048) + 27, hlt⟩
    rw [mem_blk3]
    intro a
    match a with
    | ⟨0, _⟩ => show win1_3.index _ (0 : Fin 2) * 64 ≤ (i 0).val ∧ (i 0).val < win1_3.index _ (0 : Fin 2) * 64 + 64; rw [e6]; omega
    | ⟨1, _⟩ => show win1_3.index _ (1 : Fin 2) * 2048 ≤ (i 1).val ∧ (i 1).val < win1_3.index _ (1 : Fin 2) * 2048 + 2048
                rw [e7]; show (28 * ((i 1).val / 2048) + 27) / 28 * 2048 ≤ _ ∧ _ < (28 * ((i 1).val / 2048) + 27) / 28 * 2048 + 2048; omega

end

end Cert.KernelIdeal.Stage2Value

end
-- ==== Proof.Bridge.lean ====
/-
  The kernel's two stages composed are `kerOut`. The first stage leaves the hidden activations with the down projection's
  column sign already folded in; the second contracts them against the scaled down table and applies the row sign. Read
  index by index that is `kerDot` of `kerHid`: no arithmetic is rearranged, the two sides are the same expression once the
  stages' values are substituted.
-/
import proofs.«122006_j42176578847199_2_alg».proof.Proof.Spec

noncomputable section

open scoped BigOperators

namespace Cert.Bridge

open Idealize.ShloMosaic Idealize.ShloMosaic.ValueIdx Cert.Spec

theorem out_eq (x : Mat 64 4096) (lutg lutu lutd : Vc 4096) (gw uw : IVec ⟨2, ![14336, 4096]⟩ 32)
    (dw : IVec ⟨2, ![4096, 14336]⟩ 32) (gsl : Vc 14336) (gsr : Vc 4096) (usl : Vc 14336) (usr : Vc 4096) (dsl : Vc 4096)
    (dsr : Vc 14336) (hid : Mat 64 14336) (wd : Mat 4096 14336) (sld : Mat 1 4096)
    (hhid : ∀ (b : Fin 64) (i : Fin 14336), hid (ix2 b i) =
        (((∑ h : Fin 4096, (x (ix2 b h) * gsr (ix1 h)) * (lookup lutg gw (ix2 i h) * cS)) * gsl (ix1 i))
            * Ideal.logistic ((∑ h : Fin 4096, (x (ix2 b h) * gsr (ix1 h)) * (lookup lutg gw (ix2 i h) * cS)) * gsl (ix1 i))
          * ((∑ h : Fin 4096, (x (ix2 b h) * usr (ix1 h)) * (lookup lutu uw (ix2 i h) * cS)) * usl (ix1 i)))
        * dsr (ix1 i))
    (hwd : ∀ (r : Fin 4096) (i : Fin 14336), wd (ix2 r i) = lookup lutd dw (ix2 r i) * cS)
    (hsld : ∀ r : Fin 4096, sld (ix2 (0 : Fin 1) r) = dsl (ix1 r)) :
    (fun y : (⟨2, ![64, 4096]⟩ : Shape).Idx =>
        (∑ i : Fin 14336, hid (ix2 (y 0) i) * wd (ix2 (y 1) i)) * sld (ix2 (0 : Fin 1) (y 1)))
      = kerOut x (lookup lutg gw) (lookup lutu uw) (lookup lutd dw) gsl gsr usl usr dsl dsr := by
  funext y
  obtain ⟨b, r, rfl⟩ : ∃ (b : Fin 64) (r : Fin 4096), y = ix2 b r := ⟨y 0, y 1, eq_ix2 y⟩
  show (∑ i : Fin 14336, hid (ix2 b i) * wd (ix2 r i)) * sld (ix2 (0 : Fin 1) r)
    = (∑ i : Fin 14336, (kerHid x (lookup lutg gw) (lookup lutu uw) gsl gsr usl usr (ix2 b i) * dsr (ix1 i))
        * (lookup lutd dw (ix2 r i) * cS)) * dsl (ix1 r)
  rw [hsld]
  congr 1
  refine Finset.sum_congr rfl fun i _ => ?_
  rw [hhid, hwd]
  rfl

end Cert.Bridge

end
-- ==== Proof.KernelValue.lean ====
/-
  The kernel program's result, on the extended reals, as one function of the argument arrays.

  The host operations fold the column signs into the activations, scale each table once and gather it, and reshape the row
  signs; the first call computes the hidden activations block by block; the second call contracts them against the
  gathered down weights with a running sum over 28 blocks and applies the row signs at the end. Composed, that is
  `Spec.kerOut` of the arguments, whatever the arguments are (no finiteness is needed here).
-/
import proofs.«122006_j42176578847199_2_alg».proof.Proof.RunIdeal
import proofs.«122006_j42176578847199_2_alg».proof.Proof.Stage1Value
import proofs.«122006_j42176578847199_2_alg».proof.Proof.HostPrefix
import proofs.«122006_j42176578847199_2_alg».proof.Proof.Stage2Value
import proofs.«122006_j42176578847199_2_alg».proof.Proof.Bridge
import proofs.«122006_j42176578847199_2_alg».proof.Proof.Spec

noncomputable section

open scoped BigOperators
open Idealize.ShloMosaic Idealize.ShloMosaic.TcCoe Idealize.SL.Sem Idealize.ShloMosaic.ValueIdx

namespace Cert.KernelIdeal.Value

open Cert.KernelIdeal Cert.KernelIdeal.Gen Cert.KernelIdeal.Hand Cert.Spec

variable (m : (ℓ : Loc nD τ sig) → Buf (Elt Ideal) ℓ) (c : Dev nD)

/-! The argument arrays of core `c`, at the specification's types. -/
abbrev aX : Mat 64 4096 := m ((c : Thread nD τ).loc main_arg0)
abbrev aLg : Vc 4096 := m ((c : Thread nD τ).loc main_arg1)
abbrev aLu : Vc 4096 := m ((c : Thread nD τ).loc main_arg2)
abbrev aLd : Vc 4096 := m ((c : Thread nD τ).loc main_arg3)
abbrev aGw : IVec ⟨2, ![14336, 4096]⟩ 32 := m ((c : Thread nD τ).loc main_arg4)
abbrev aUw : IVec ⟨2, ![14336, 4096]⟩ 32 := m ((c : Thread nD τ).loc main_arg5)
abbrev aDw : IVec ⟨2, ![4096, 14336]⟩ 32 := m ((c : Thread nD τ).loc main_arg6)
abbrev aGsl : Vc 14336 := m ((c : Thread nD τ).loc main_arg7)
abbrev aGsr : Vc 4096 := m ((c : Thread nD τ).loc main_arg8)
abbrev aUsl : Vc 14336 := m ((c : Thread nD τ).loc main_arg9)
abbrev aUsr : Vc 4096 := m ((c : Thread nD τ).loc main_arg10)
abbrev aDsl : Vc 4096 := m ((c : Thread nD τ).loc main_arg11)
abbrev aDsr : Vc 14336 := m ((c : Thread nD τ).loc main_arg12)

/-- The hidden activations the second call is entered with: what the first call's pipeline left, a function of what the host
    operations left. -/
theorem hid_eq : (E2 m c main_v42 : S64x14336.Idx → EReal)
    = Stage1Value.hiddenOf (E1 m c main_v33) (E1 m c main_v37) (E1 m c main_v9) (E1 m c main_v19) (E1 m c main_v38) (E1 m c main_v39) (E1 m c main_v40) :=
  (E2_v42 m c).trans (Stage1Value.hidden_eq (E1 m) c _ _ _ _ _ _ _ rfl rfl rfl rfl rfl rfl rfl)

/-- Entry by entry, in the arguments. -/
theorem hid_apply (b : Fin 64) (i : Fin 14336) : (E2 m c main_v42 : S64x14336.Idx → EReal) (ix2 b i) =
    (((∑ h : Fin 4096, (aX m c (ix2 b h) * aGsr m c (ix1 h)) * (lookup (aLg m c) (aGw m c) (ix2 i h) * cS)) * aGsl m c (ix1 i))
        * Ideal.logistic ((∑ h : Fin 4096, (aX m c (ix2 b h) * aGsr m c (ix1 h)) * (lookup (aLg m c) (aGw m c) (ix2 i h) * cS)) * aGsl m c (ix1 i))
      * ((∑ h : Fin 4096, (aX m c (ix2 b h) * aUsr m c (ix1 h)) * (lookup (aLu m c) (aUw m c) (ix2 i h) * cS)) * aUsl m c (ix1 i)))
    * aDsr m c (ix1 i) := by
  rw [hid_eq m c]
  show Stage1Value.hidAt _ _ _ _ _ _ _ b i = _
  unfold Stage1Value.hidAt
  have e33 : ∀ h : Fin 4096, (E1 m c main_v33 : S64x4096.Idx → EReal) (ix2 b h) = aX m c (ix2 b h) * aGsr m c (ix1 h) :=
    fun h => HostPrefix.v33_apply m c _ _ rfl rfl b h
  have e37 : ∀ h : Fin 4096, (E1 m c main_v37 : S64x4096.Idx → EReal) (ix2 b h) = aX m c (ix2 b h) * aUsr m c (ix1 h) :=
    fun h => HostPrefix.v37_apply m c _ _ rfl rfl b h
  have e9 : ∀ h : Fin 4096, (E1 m c main_v9 : S14336x4096.Idx → EReal) (ix2 i h) = lookup (aLg m c) (aGw m c) (ix2 i h) * cS :=
    fun h => HostPrefix.v9_apply m c _ _ rfl rfl (ix2 i h)
  have e19 : ∀ h : Fin 4096, (E1 m c main_v19 : S14336x4096.Idx → EReal) (ix2 i h) = lookup (aLu m c) (aUw m c) (ix2 i h) * cS :=
    fun h => HostPrefix.v19_apply m c _ _ rfl rfl (ix2 i h)
  have e38 : (E1 m c main_v38 : S1x14336.Idx → EReal) (ix2 (0 : Fin 1) i) = aGsl m c (ix1 i) := HostPrefix.v38_apply m c _ rfl 0 i
  have e39 : (E1 m c main_v39 : S1x14336.Idx → EReal) (ix2 (0 : Fin 1) i) = aUsl m c (ix1 i) := HostPrefix.v39_apply m c _ rfl 0 i
  have e40 : (E1 m c main_v40 : S1x14336.Idx → EReal) (ix2 (0 : Fin 1) i) = aDsr m c (ix1 i) := HostPrefix.v40_apply m c _ rfl 0 i
  simp only [e33, e37, e9, e19, e38, e39, e40]

/-- The down weights and the row signs the second call is entered with are as the host operations left them. -/
theorem wd_apply (r : Fin 4096) (i : Fin 14336) :
    (E2 m c main_v29 : S4096x14336.Idx → EReal) (ix2 r i) = lookup (aLd m c) (aDw m c) (ix2 r i) * cS := by
  rw [show (E2 m c main_v29 : S4096x14336.Idx → EReal) = E1 m c main_v29 from E2_v29 m c]
  exact HostPrefix.v29_apply m c _ _ rfl rfl (ix2 r i)

theorem sld_apply (r : Fin 4096) : (E2 m c main_v41 : S1x4096.Idx → EReal) (ix2 (0 : Fin 1) r) = aDsl m c (ix1 r) := by
  rw [show (E2 m c main_v41 : S1x4096.Idx → EReal) = E1 m c main_v41 from E2_v41 m c]
  exact HostPrefix.v41_apply m c _ rfl 0 r

/-- THE KERNEL'S RESULT: the second call's output array after its last write-back is `Spec.kerOut` of the arguments. -/
theorem result_eq : ((dat1 (E2 m) c).arrAt 3 cfg1.N : S64x4096.Idx → EReal)
    = kerOut (aX m c) (lookup (aLg m c) (aGw m c)) (lookup (aLu m c) (aUw m c)) (lookup (aLd m c) (aDw m c))
        (aGsl m c) (aGsr m c) (aUsl m c) (aUsr m c) (aDsl m c) (aDsr m c) :=
  (Stage2Value.final (E2 m) c _ _ _ rfl rfl rfl).trans
    (Cert.Bridge.out_eq (aX m c) (aLg m c) (aLu m c) (aLd m c) (aGw m c) (aUw m c) (aDw m c) (aGsl m c) (aGsr m c) (aUsl m c) (aUsr m c)
      (aDsl m c) (aDsr m c) _ _ _ (hid_apply m c) (wd_apply m c) (sld_apply m c))

end Cert.KernelIdeal.Value

end
-- ==== Proof.RefValue.lean ====
/-
  What the reference computes is `refOut`. Each stage of the reference is read at an index: a weight matrix entry is the
  table entry its code selects, times the row sign, the column sign and the scale, in that order (`wRef`); a
  `dot_general` against the transposed weights is the sum `refDot`; the outlined `silu` (negate, exponential, one plus,
  one over, multiply) is `z * logistic z`; the product of the two hidden contractions is `refHid`; and the last
  contraction is `refOut`.
-/
import proofs.«122006_j42176578847199_2_alg».proof.Proof.Gen.ReferenceIdeal.Run
import proofs.«122006_j42176578847199_2_alg».proof.Proof.Gen.ReferenceIdeal.Read
import proofs.«122006_j42176578847199_2_alg».proof.Proof.Gather
import Idealize.ShloMosaic.Lib.IdealHost

noncomputable section

open scoped BigOperators

namespace Cert.RefValue

open Cert.ReferenceIdeal Cert.ReferenceIdeal.Gen Cert.ReferenceIdeal.Read Idealize.ShloMosaic Idealize.ShloMosaic.ValueIdx Cert.Spec

/-! ## The three look-ups -/

theorem gate_lookup (x1 : FVec Ideal S4096 .f32) (x4 : IVec S14336x4096 32) (y : S14336x4096.Idx) :
    val_main_v6 (F := Ideal) x1 x4 y = lookup x1 x4 y :=
  Cert.Gather.gather_lookup gather_S4096_S14336x4096x1_S14336x4096_n_0_n_n_0_2_1
    gather_S4096_S14336x4096x1_S14336x4096_n_0_n_n_0_2_1_wf rfl bcast_S_S14336x4096 bcast_S_S14336x4096
    bcast_S14336x4096_S14336x4096x1_0_1 x1 x4 y

theorem up_lookup (x2 : FVec Ideal S4096 .f32) (x5 : IVec S14336x4096 32) (y : S14336x4096.Idx) :
    val_main_v21 (F := Ideal) x2 x5 y = lookup x2 x5 y :=
  Cert.Gather.gather_lookup gather_S4096_S14336x4096x1_S14336x4096_n_0_n_n_0_2_1
    gather_S4096_S14336x4096x1_S14336x4096_n_0_n_n_0_2_1_wf rfl bcast_S_S14336x4096 bcast_S_S14336x4096
    bcast_S14336x4096_S14336x4096x1_0_1 x2 x5 y

theorem down_lookup (x3 : FVec Ideal S4096 .f32) (x6 : IVec S4096x14336 32) (y : S4096x14336.Idx) :
    val_main_v36 (F := Ideal) x3 x6 y = lookup x3 x6 y :=
  Cert.Gather.gather_lookup gather_S4096_S4096x14336x1_S4096x14336_n_0_n_n_0_2_1
    gather_S4096_S4096x14336x1_S4096x14336_n_0_n_n_0_2_1_wf rfl bcast_S_S4096x14336 bcast_S_S4096x14336
    bcast_S4096x14336_S4096x14336x1_0_1 x3 x6 y

/-! ## The multiplied-out weights -/

theorem gate_weight (x1 : FVec Ideal S4096 .f32) (x4 : IVec S14336x4096 32) (x7 : FVec Ideal S14336 .f32)
    (x8 : FVec Ideal S4096 .f32) (o : Fin 14336) (n : Fin 4096) :
    val_main_v14 (F := Ideal) x1 x4 x7 x8 (ix2 o n) = wRef (lookup x1 x4) x7 x8 o n := by
  have hr : idx_main_v7 (idx_main_v8 (ix2 o n)) = ix1 o := by funext a; match a with | ⟨0, _⟩ => rfl
  have hc : idx_main_v10 (idx_main_v11 (ix2 o n)) = ix1 n := by funext a; match a with | ⟨0, _⟩ => rfl
  rw [val_main_v14_apply, val_main_v12_apply, val_main_v9_apply, val_main_v13_apply, val_main_cst_apply,
    val_main_v11_apply, val_main_v10_apply, val_main_v8_apply, val_main_v7_apply, hr, hc, gate_lookup]
  rfl

theorem up_weight (x2 : FVec Ideal S4096 .f32) (x5 : IVec S14336x4096 32) (x9 : FVec Ideal S14336 .f32)
    (x10 : FVec Ideal S4096 .f32) (o : Fin 14336) (n : Fin 4096) :
    val_main_v29 (F := Ideal) x2 x5 x9 x10 (ix2 o n) = wRef (lookup x2 x5) x9 x10 o n := by
  have hr : idx_main_v22 (idx_main_v23 (ix2 o n)) = ix1 o := by funext a; match a with | ⟨0, _⟩ => rfl
  have hc : idx_main_v25 (idx_main_v26 (ix2 o n)) = ix1 n := by funext a; match a with | ⟨0, _⟩ => rfl
  rw [val_main_v29_apply, val_main_v27_apply, val_main_v24_apply, val_main_v28_apply, val_main_cst_3_apply,
    val_main_v26_apply, val_main_v25_apply, val_main_v23_apply, val_main_v22_apply, hr, hc, up_lookup]
  rfl

theorem down_weight (x3 : FVec Ideal S4096 .f32) (x6 : IVec S4096x14336 32) (x11 : FVec Ideal S4096 .f32)
    (x12 : FVec Ideal S14336 .f32) (h : Fin 4096) (k : Fin 14336) :
    val_main_v44 (F := Ideal) x3 x6 x11 x12 (ix2 h k) = wRef (lookup x3 x6) x11 x12 h k := by
  have hr : idx_main_v37 (idx_main_v38 (ix2 h k)) = ix1 h := by funext a; match a with | ⟨0, _⟩ => rfl
  have hc : idx_main_v40 (idx_main_v41 (ix2 h k)) = ix1 k := by funext a; match a with | ⟨0, _⟩ => rfl
  rw [val_main_v44_apply, val_main_v42_apply, val_main_v39_apply, val_main_v43_apply, val_main_cst_6_apply,
    val_main_v41_apply, val_main_v40_apply, val_main_v38_apply, val_main_v37_apply, hr, hc, down_lookup]
  rfl

/-! ## The hidden contractions -/

theorem gate_dot (x0 : FVec Ideal S64x4096 .f32) (x1 : FVec Ideal S4096 .f32) (x4 : IVec S14336x4096 32)
    (x7 : FVec Ideal S14336 .f32) (x8 : FVec Ideal S4096 .f32) (b : Fin 64) (o : Fin 14336) :
    val_main_v46 (F := Ideal) x0 x1 x4 x7 x8 (ix2 b o) = refDot x0 (lookup x1 x4) x7 x8 b o := by
  rw [val_main_v46_apply]
  unfold refDot
  refine Finset.sum_congr rfl fun k _ => ?_
  have hl : lidx_main_v46 (ix2 b o) k = ix2 b k := by funext a; match a with | ⟨0, _⟩ => rfl | ⟨1, _⟩ => rfl
  have hr : idx_main_v45 (ridx_main_v46 (ix2 b o) k) = ix2 o k := by funext a; match a with | ⟨0, _⟩ => rfl | ⟨1, _⟩ => rfl
  rw [val_main_v45_apply, hl, hr, gate_weight]

theorem up_dot (x0 : FVec Ideal S64x4096 .f32) (x2 : FVec Ideal S4096 .f32) (x5 : IVec S14336x4096 32)
    (x9 : FVec Ideal S14336 .f32) (x10 : FVec Ideal S4096 .f32) (b : Fin 64) (o : Fin 14336) :
    val_main_v49 (F := Ideal) x0 x2 x5 x9 x10 (ix2 b o) = refDot x0 (lookup x2 x5) x9 x10 b o := by
  rw [val_main_v49_apply]
  unfold refDot
  refine Finset.sum_congr rfl fun k _ => ?_
  have hl : lidx_main_v49 (ix2 b o) k = ix2 b k := by funext a; match a with | ⟨0, _⟩ => rfl | ⟨1, _⟩ => rfl
  have hr : idx_main_v48 (ridx_main_v49 (ix2 b o) k) = ix2 o k := by funext a; match a with | ⟨0, _⟩ => rfl | ⟨1, _⟩ => rfl
  rw [val_main_v48_apply, hl, hr, up_weight]

/-- The outlined `silu`: `z * (1 / (1 + exp (-z)))` is `z * logistic z`. -/
theorem gate_act (x0 : FVec Ideal S64x4096 .f32) (x1 : FVec Ideal S4096 .f32) (x4 : IVec S14336x4096 32)
    (x7 : FVec Ideal S14336 .f32) (x8 : FVec Ideal S4096 .f32) (b : Fin 64) (o : Fin 14336) :
    val_main_v47 (F := Ideal) x0 x1 x4 x7 x8 (ix2 b o) = silu (refDot x0 (lookup x1 x4) x7 x8 b o) := by
  have h1 : FloatOps.ofBits (F := Ideal) .f32 0x3F800000#32 = (1 : EReal) := Ideal.ofBits_one_f32
  rw [val_main_v47_apply, val_main_call0_v5_apply, val_main_call0_v4_apply, val_main_call0_cst_0_apply,
    val_main_call0_v3_apply, val_main_call0_v2_apply, val_main_call0_cst_apply, val_main_call0_v1_apply,
    val_main_call0_v0_apply, gate_dot, h1]
  rfl

theorem hidden (x0 : FVec Ideal S64x4096 .f32) (x1 x2 : FVec Ideal S4096 .f32) (x4 x5 : IVec S14336x4096 32)
    (x7 : FVec Ideal S14336 .f32) (x8 : FVec Ideal S4096 .f32) (x9 : FVec Ideal S14336 .f32) (x10 : FVec Ideal S4096 .f32)
    (b : Fin 64) (o : Fin 14336) :
    val_main_v50 (F := Ideal) x0 x1 x2 x4 x5 x7 x8 x9 x10 (ix2 b o)
      = refHid x0 (lookup x1 x4) (lookup x2 x5) x7 x8 x9 x10 (ix2 b o) := by
  rw [val_main_v50_apply, gate_act, up_dot]
  rfl

/-! ## The result -/

/-- The reference's result stage is `refOut` of the arguments, the three weight matrices read as look-ups. -/
theorem result_eq (x0 : FVec Ideal S64x4096 .f32) (x1 x2 x3 : FVec Ideal S4096 .f32) (x4 x5 : IVec S14336x4096 32)
    (x6 : IVec S4096x14336 32) (x7 : FVec Ideal S14336 .f32) (x8 : FVec Ideal S4096 .f32) (x9 : FVec Ideal S14336 .f32)
    (x10 : FVec Ideal S4096 .f32) (x11 : FVec Ideal S4096 .f32) (x12 : FVec Ideal S14336 .f32) :
    val_main_v52 (F := Ideal) x0 x1 x2 x3 x4 x5 x6 x7 x8 x9 x10 x11 x12
      = refOut x0 (lookup x1 x4) (lookup x2 x5) (lookup x3 x6) x7 x8 x9 x10 x11 x12 := by
  funext i
  obtain ⟨b, h, rfl⟩ : ∃ (b : Fin 64) (h : Fin 4096), i = ix2 b h := ⟨i 0, i 1, eq_ix2 i⟩
  rw [val_main_v52_apply]
  show _ = refDot (refHid x0 (lookup x1 x4) (lookup x2 x5) x7 x8 x9 x10) (lookup x3 x6) x11 x12 b h
  unfold refDot
  refine Finset.sum_congr rfl fun k _ => ?_
  have hl : lidx_main_v52 (ix2 b h) k = ix2 b k := by funext a; match a with | ⟨0, _⟩ => rfl | ⟨1, _⟩ => rfl
  have hr : idx_main_v51 (ridx_main_v52 (ix2 b h) k) = ix2 h k := by funext a; match a with | ⟨0, _⟩ => rfl | ⟨1, _⟩ => rfl
  rw [val_main_v51_apply, hl, hr, hidden, down_weight]

end Cert.RefValue

end
-- ==== Proof.Algebra.lean ====
/-
  The mathematics of the claim: over real entries the kernel's order of multiplication and the reference's agree.

  With every entry real, `(∑ n, (a n * sr n) * (L n * c)) * sl = ∑ n, a n * (((L n * sl) * sr n) * c)` holds in `ℝ` by
  distributivity and commutativity. On the extended reals multiplication does not distribute over addition in general
  (`⊤ + ⊥`), which is why the entries must be real: a finite sum of reals is real, the logistic of a real is real, and the
  scale `c` is the value of a finite binary32 word.
-/
import proofs.«122006_j42176578847199_2_alg».proof.Proof.Spec

noncomputable section

open scoped BigOperators

namespace Cert.Algebra

open Idealize.ShloMosaic Idealize.ShloMosaic.ValueIdx Cert.Spec

/-- The coercion of the reals into the extended reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The scale is a real number: its word has neither an all-ones nor an all-zeros exponent. -/
theorem cS_real : ∃ r : ℝ, cS = (r : EReal) := by
  unfold cS Ideal.ofBits Ideal.ieee
  simp only []
  rw [if_neg (by decide), if_neg (by decide)]
  exact ⟨_, rfl⟩

/-- A table look-up of a real table is real. -/
theorem lookup_isReal {R C : Nat} (lut : Vc 4096) (h : IsReal lut) (walks : IVec ⟨2, ![R, C]⟩ 32) :
    IsReal (lookup lut walks) := fun y => h _

/-- The reference's contraction of real data is real. -/
theorem refDot_real {B O N : Nat} (a : Mat B N) (L : Mat O N) (sl : Vc O) (sr : Vc N)
    (ha : IsReal a) (hL : IsReal L) (hsl : IsReal sl) (hsr : IsReal sr) (b : Fin B) (o : Fin O) :
    ∃ r : ℝ, refDot a L sl sr b o = (r : EReal) := by
  obtain ⟨c, hc⟩ := cS_real
  choose a' ha' using ha
  choose L' hL' using hL
  choose sl' hsl' using hsl
  choose sr' hsr' using hsr
  refine ⟨∑ n : Fin N, a' (ix2 b n) * (((L' (ix2 o n) * sl' (ix1 o)) * sr' (ix1 n)) * c), ?_⟩
  unfold refDot wRef
  simp only [ha', hL', hsl', hsr', hc, ← EReal.coe_mul, ← coe_sum]

/-- Over real data the kernel's contraction (column sign folded into the activations, table scaled, row sign last) is the
    reference's contraction against the multiplied-out weights. -/
theorem kerDot_eq_refDot {B O N : Nat} (a : Mat B N) (L : Mat O N) (sl : Vc O) (sr : Vc N)
    (ha : IsReal a) (hL : IsReal L) (hsl : IsReal sl) (hsr : IsReal sr) (b : Fin B) (o : Fin O) :
    kerDot a L sl sr b o = refDot a L sl sr b o := by
  obtain ⟨c, hc⟩ := cS_real
  choose a' ha' using ha
  choose L' hL' using hL
  choose sl' hsl' using hsl
  choose sr' hsr' using hsr
  unfold kerDot refDot wRef
  simp only [ha', hL', hsl', hsr', hc, ← EReal.coe_mul, ← coe_sum]
  congr 1
  rw [Finset.sum_mul]
  refine Finset.sum_congr rfl fun n _ => ?_
  ring

/-- `silu` of a real is real. -/
theorem silu_real (r : ℝ) : ∃ s : ℝ, silu (r : EReal) = (s : EReal) :=
  ⟨r * (1 + Real.exp (-r))⁻¹, by rw [silu, Ideal.logistic_coe, ← EReal.coe_mul]⟩

/-- The reference's hidden activations are real. -/
theorem refHid_isReal (x : Mat 64 4096) (Lg Lu : Mat 14336 4096) (gsl : Vc 14336) (gsr : Vc 4096) (usl : Vc 14336)
    (usr : Vc 4096) (hx : IsReal x) (hLg : IsReal Lg) (hLu : IsReal Lu) (hgsl : IsReal gsl) (hgsr : IsReal gsr)
    (husl : IsReal usl) (husr : IsReal usr) : IsReal (refHid x Lg Lu gsl gsr usl usr) := by
  intro y
  obtain ⟨g, hg⟩ := refDot_real x Lg gsl gsr hx hLg hgsl hgsr (y 0) (y 1)
  obtain ⟨u, hu⟩ := refDot_real x Lu usl usr hx hLu husl husr (y 0) (y 1)
  obtain ⟨s, hs⟩ := silu_real g
  exact ⟨s * u, by rw [refHid, hg, hu, hs, ← EReal.coe_mul]⟩

/-- Over real data the kernel's hidden activations are the reference's. -/
theorem kerHid_eq_refHid (x : Mat 64 4096) (Lg Lu : Mat 14336 4096) (gsl : Vc 14336) (gsr : Vc 4096) (usl : Vc 14336)
    (usr : Vc 4096) (hx : IsReal x) (hLg : IsReal Lg) (hLu : IsReal Lu) (hgsl : IsReal gsl) (hgsr : IsReal gsr)
    (husl : IsReal usl) (husr : IsReal usr) :
    kerHid x Lg Lu gsl gsr usl usr = refHid x Lg Lu gsl gsr usl usr := by
  funext y
  have h1 := kerDot_eq_refDot x Lg gsl gsr hx hLg hgsl hgsr (y 0) (y 1)
  have h2 := kerDot_eq_refDot x Lu usl usr hx hLu husl husr (y 0) (y 1)
  rw [kerHid, refHid, h1, h2]

/-- The kernel's hidden activations are real. -/
theorem kerHid_isReal (x : Mat 64 4096) (Lg Lu : Mat 14336 4096) (gsl : Vc 14336) (gsr : Vc 4096) (usl : Vc 14336)
    (usr : Vc 4096) (hx : IsReal x) (hLg : IsReal Lg) (hLu : IsReal Lu) (hgsl : IsReal gsl) (hgsr : IsReal gsr)
    (husl : IsReal usl) (husr : IsReal usr) : IsReal (kerHid x Lg Lu gsl gsr usl usr) := by
  rw [kerHid_eq_refHid x Lg Lu gsl gsr usl usr hx hLg hLu hgsl hgsr husl husr]
  exact refHid_isReal x Lg Lu gsl gsr usl usr hx hLg hLu hgsl hgsr husl husr

/-- Over real inputs the kernel's value is the reference's value. -/
theorem ker_eq_ref (x : Mat 64 4096) (Lg Lu : Mat 14336 4096) (Ld : Mat 4096 14336) (gsl : Vc 14336) (gsr : Vc 4096)
    (usl : Vc 14336) (usr : Vc 4096) (dsl : Vc 4096) (dsr : Vc 14336)
    (hx : IsReal x) (hLg : IsReal Lg) (hLu : IsReal Lu) (hLd : IsReal Ld) (hgsl : IsReal gsl) (hgsr : IsReal gsr)
    (husl : IsReal usl) (husr : IsReal usr) (hdsl : IsReal dsl) (hdsr : IsReal dsr) :
    kerOut x Lg Lu Ld gsl gsr usl usr dsl dsr = refOut x Lg Lu Ld gsl gsr usl usr dsl dsr := by
  funext y
  rw [kerOut, refOut, kerHid_eq_refHid x Lg Lu gsl gsr usl usr hx hLg hLu hgsl hgsr husl husr]
  exact kerDot_eq_refDot _ Ld dsl dsr (refHid_isReal x Lg Lu gsl gsr usl usr hx hLg hLu hgsl hgsr husl husr) hLd hdsl hdsr _ _

end Cert.Algebra

end
-- ==== Proof.Finite.lean ====
/-
  From the precondition to real inputs. The precondition is the conjunction, over every float input `v` and every entry, of `|v| < +∞`,
  and it is stated to be one. An `and` that is one has both sides one; an `all` that is one has every element one; and an
  extended real whose absolute value `max v (-v)` lies strictly below `⊤` is neither `⊤` nor `⊥`, so it is a real.
-/
import proofs.«122006_j42176578847199_2_alg».proof.Pre_finite_inputs
import proofs.«122006_j42176578847199_2_alg».proof.Proof.Spec
import Idealize.ShloMosaic.Lib.ReduceAll
import Idealize.ShloMosaic.Lib.Pipeline.Value

noncomputable section

namespace Cert.Finite

open Idealize.ShloMosaic Idealize.ShloMosaic.ValueIdx Cert.Spec Cert.Pre_finite_inputs

/-- The scalar shape has one index. -/
instance : Subsingleton S_.Idx := ⟨fun _ _ => funext fun d => d.elim0⟩

/-- The word `0x7F800000` is `+∞`. -/
theorem inf_eq_top : Ideal.ofBits .f32 0x7F800000#32 = (⊤ : EReal) := by
  unfold Ideal.ofBits Ideal.ieee
  simp only []
  rw [if_pos (by decide), if_pos (by decide)]
  rfl

/-- An extended real whose absolute value is strictly below `+∞` is a real. -/
theorem real_of_abs_lt (v : EReal) (h : Ideal.cmp .olt (max v (-v)) (Ideal.ofBits .f32 0x7F800000#32) = 1#1) :
    ∃ r : ℝ, v = (r : EReal) := by
  rw [inf_eq_top] at h
  have hlt : max v (-v) < ⊤ := by
    by_contra hn
    have : Ideal.cmp .olt (max v (-v)) ⊤ = 0#1 := by
      show BitVec.ofBool (decide (max v (-v) < ⊤)) = 0#1
      rw [decide_eq_false hn]; rfl
    rw [this] at h
    exact absurd h (by decide)
  induction v using EReal.rec with
  | bot => exact absurd hlt (by simp)
  | coe r => exact ⟨r, rfl⟩
  | top => exact absurd hlt (by simp)

/-- One reduction by `and` of `|v| < +∞` over all entries that is one says every entry of `v` is real. -/
theorem isReal_of_all {s : Shape} {axes : List (Fin s.rank)} (v : FVec Ideal s .f32)
    (hb : S_.BroadcastsInDim s (![] : Fin 0 → Fin s.rank)) (hr : s.ReducesTo axes S_) (hu : 0 < S_.numel)
    (e : Host.reduce IntOp.andi (cmpf .olt (Host.absf v) (broadcastInDim s ![] hb (constant (F := Ideal) S_ .f32 0x7F800000#32)))
      (constantI S_ 1 1#1) hr hu ix0 = 1#1) : IsReal v := by
  intro i
  have hi := Host.reduce_andi_all _ _ hr hu ix0 e i
  have hi' : Ideal.cmp .olt (max (v i) (-(v i)))
      (broadcastInDim s ![] hb (constant (F := Ideal) S_ .f32 0x7F800000#32) i) = 1#1 := hi
  rw [broadcastInDim_apply _ hb _ i ix0 (fun a => a.elim0)] at hi'
  exact real_of_abs_lt _ hi'

/-- The precondition, decoded: every float input is real. -/
theorem of_pre [Facts] (x : FVec Ideal S64x4096 .f32) (lutg lutu lutd : FVec Ideal S4096 .f32)
    (gw uw : IVec S14336x4096 32) (dw : IVec S4096x14336 32)
    (gsl : FVec Ideal S14336 .f32) (gsr : FVec Ideal S4096 .f32) (usl : FVec Ideal S14336 .f32) (usr : FVec Ideal S4096 .f32)
    (dsl : FVec Ideal S4096 .f32) (dsr : FVec Ideal S14336 .f32)
    (h : fn (F := Ideal) x lutg lutu lutd gw uw dw gsl gsr usl usr dsl dsr = (fun _ => 1#1)) :
    IsReal x ∧ IsReal lutg ∧ IsReal lutu ∧ IsReal lutd ∧ IsReal gsl ∧ IsReal gsr ∧ IsReal usl ∧ IsReal usr
      ∧ IsReal dsl ∧ IsReal dsr := by
  have e := congrFun h ix0
  simp only [fn, fn_part1, fn_part2, andi, IntOp.andi_eq_one] at e
  obtain ⟨⟨⟨⟨⟨⟨⟨⟨⟨e0, e1⟩, e2⟩, e3⟩, e7⟩, e8⟩, e9⟩, e10⟩, e11⟩, e12⟩ := e
  exact ⟨isReal_of_all _ _ _ _ e0, isReal_of_all _ _ _ _ e1, isReal_of_all _ _ _ _ e2, isReal_of_all _ _ _ _ e3,
    isReal_of_all _ _ _ _ e7, isReal_of_all _ _ _ _ e8, isReal_of_all _ _ _ _ e9, isReal_of_all _ _ _ _ e10,
    isReal_of_all _ _ _ _ e11, isReal_of_all _ _ _ _ e12⟩

end Cert.Finite

end
-- ==== Proof.lean ====
/-
  The five claims about a quantised SwiGLU layer computed by two pallas_calls, assembled.

  * The three frames. Each kernel program is three segments (the host operations, the gate/up projection, the down projection);
    its run from the launch to the return is `Proof/RunBits.lean` (the program as printed, at the word-level instance) and
    `Proof/RunIdeal.lean` (its idealization, on the extended reals). The reference has no kernel: its frame is its run.
  * The idealization rewrote nothing, so there is nothing to preserve.
  * On the extended reals, from memories agreeing on the arguments, the kernel's result is `Spec.kerOut` of the arguments
    (`Proof/KernelValue.lean`) and the reference's is `Spec.refOut` (`Proof/RefValue.lean`); under the precondition every float
    input is real (`Proof/Finite.lean`), and on real data the two are equal by distributivity (`Proof/Algebra.lean`).
-/
import proofs.«122006_j42176578847199_2_alg».proof.Defs
import proofs.«122006_j42176578847199_2_alg».proof.Proof.Gen.Kernel
import proofs.«122006_j42176578847199_2_alg».proof.Proof.Gen.KernelIdeal
import proofs.«122006_j42176578847199_2_alg».proof.Proof.Gen.ReferenceIdeal
import proofs.«122006_j42176578847199_2_alg».proof.Proof.Gen.Pre_finite_inputs
import proofs.«122006_j42176578847199_2_alg».proof.Proof.Gen.ReferenceIdeal.Run
import proofs.«122006_j42176578847199_2_alg».proof.Proof.Gen.ReferenceIdeal.Read
import proofs.«122006_j42176578847199_2_alg».proof.Proof.RunBits
import proofs.«122006_j42176578847199_2_alg».proof.Proof.RunIdeal
import proofs.«122006_j42176578847199_2_alg».proof.Proof.KernelValue
import proofs.«122006_j42176578847199_2_alg».proof.Proof.RefValue
import proofs.«122006_j42176578847199_2_alg».proof.Proof.Algebra
import proofs.«122006_j42176578847199_2_alg».proof.Proof.Finite
import Idealize.ShloMosaic.Adequacy
import Idealize.ShloMosaic.Init

noncomputable section

namespace Cert.Proof

open Idealize.ShloMosaic Idealize.SL.Sem

theorem frame_k [Cert.Kernel.Facts] [Cert.Pre_finite_inputs.Facts] : Cert.frame_Kernel :=
  fun m ρ _ => Cert.Kernel.Hand.frame m ρ

theorem frame_ki [Cert.KernelIdeal.Facts] [Cert.Pre_finite_inputs.Facts] : Cert.frame_KernelIdeal :=
  fun m ρ _ => Cert.KernelIdeal.Hand.frame m ρ

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals, from memories agreeing on the arguments: the kernel program's result is `Spec.kerOut` of the arguments,
    the reference's is `Spec.refOut` of them; the precondition makes every float input real, and on real data the two agree. -/
theorem algebraic [Cert.KernelIdeal.Facts] [Cert.ReferenceIdeal.Facts] [Cert.Pre_finite_inputs.Facts] : Cert.algebraic_KernelIdeal_ReferenceIdeal := by
  intro m ρ m' ρ' hpre hagree
  refine ⟨fun c => (Cert.KernelIdeal.Hand.dat1 (Cert.KernelIdeal.Hand.E2 m) c).arrAt 3 Cert.KernelIdeal.cfg1.N,
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  obtain ⟨hx, hlg, hlu, hld, hgsl, hgsr, husl, husr, hdsl, hdsr⟩ := Cert.Finite.of_pre _ _ _ _ _ _ _ _ _ _ _ _ _ (hpre c)
  rw [Cert.ReferenceIdeal.Read.val_main_v52_eq m' c, a0, a1, a2, a3, a4, a5, a6, a7, a8, a9, a10, a11, a12, Cert.RefValue.result_eq]
  exact ((Cert.KernelIdeal.Value.result_eq m c).trans
    (Cert.Algebra.ker_eq_ref _ _ _ _ _ _ _ _ _ _ hx (Cert.Algebra.lookup_isReal _ hlg _) (Cert.Algebra.lookup_isReal _ hlu _)
      (Cert.Algebra.lookup_isReal _ hld _) hgsl hgsr husl husr hdsl hdsr)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
